-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4x32x4096x128 : Shape := ⟨4, ![4, 32, 4096, 128]⟩
abbrev S4x4096 : Shape := ⟨2, ![4, 4096]⟩
abbrev S8192x128 : Shape := ⟨2, ![8192, 128]⟩
abbrev S_ : Shape := ⟨0, ![]⟩

class Facts : Prop where
  bcast_S_S4x32x4096x128 : S_.BroadcastsInDim S4x32x4096x128 (![] : Fin 0 → Fin S4x32x4096x128.rank)
  reducesTo_S4x32x4096x128_S_d0_1_2_3 : S4x32x4096x128.ReducesTo [0, 1, 2, 3] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S4x4096 : S_.BroadcastsInDim S4x4096 (![] : Fin 0 → Fin S4x4096.rank)
  reducesTo_S4x4096_S_d0_1 : S4x4096.ReducesTo [0, 1] S_

variable [Facts]

def fn_part1 {F : FTy → Type} [FloatOps F] (main_arg1 : IVec S4x4096 32) (main_v13 : IVec S_ 1) (main_v15 : IVec S4x4096 1) (main_c_5 : IVec S_ 32) : IVec S_ 1 :=
  let main_v16 : IVec S4x4096 32 := broadcastInDim S4x4096 ![] bcast_S_S4x4096 main_c_5
  let main_v17 : IVec S4x4096 1 := cmpi .sle main_arg1 main_v16
  let main_v18 : IVec S4x4096 1 := andi main_v15 main_v17
  let main_c_6 : IVec S_ 1 := constantI S_ 1 1#1
  let main_v19 : IVec S_ 1 := (fun x v => Host.reduce IntOp.andi x v reducesTo_S4x4096_S_d0_1 h_S_) main_v18 main_c_6
  let main_v20 : IVec S_ 1 := andi main_v13 main_v19
  main_v20

def fn {F : FTy → Type} [FloatOps F] (main_arg0 : FVec F S4x32x4096x128 .f32) (main_arg1 : IVec S4x4096 32) (main_arg2 : FVec F S8192x128 .f32) (main_arg3 : FVec F S8192x128 .f32) : IVec S_ 1 :=
  let main_v0 : FVec F S4x32x4096x128 .f32 := Host.absf main_arg0
  let main_cst : FVec F S_ .f32 := constant S_ .f32 0x7F800000#32
  let main_v1 : FVec F S4x32x4096x128 .f32 := broadcastInDim S4x32x4096x128 ![] bcast_S_S4x32x4096x128 main_cst
  let main_v2 : IVec S4x32x4096x128 1 := cmpf .olt main_v0 main_v1
  let main_c : IVec S_ 1 := constantI S_ 1 1#1
  let main_v3 : IVec S_ 1 := (fun x v => Host.reduce IntOp.andi x v reducesTo_S4x32x4096x128_S_d0_1_2_3 h_S_) main_v2 main_c
  let main_v4 : FVec F S8192x128 .f32 := Host.absf main_arg2
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x128 .f32 := Host.absf main_arg3
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_c_3 : IVec S_ 1 := constantI S_ 1 1#1
  let main_v12 : IVec S_ 1 := (fun x v => Host.reduce IntOp.andi x v reducesTo_S8192x128_S_d0_1 h_S_) main_v11 main_c_3
  let main_v13 : IVec S_ 1 := andi main_v8 main_v12
  let main_c_4 : IVec S_ 32 := constantI S_ 32 0#32
  let main_v14 : IVec S4x4096 32 := broadcastInDim S4x4096 ![] bcast_S_S4x4096 main_c_4
  let main_v15 : IVec S4x4096 1 := cmpi .sge main_arg1 main_v14
  let main_c_5 : IVec S_ 32 := constantI S_ 32 8191#32
  fn_part1 (F := F) main_arg1 main_v13 main_v15 main_c_5
-- ==== Kernel.lean ====
abbrev S4x32x4096x128 : Shape := ⟨4, ![4, 32, 4096, 128]⟩
abbrev S4x4096 : Shape := ⟨2, ![4, 4096]⟩
abbrev S8192x128 : Shape := ⟨2, ![8192, 128]⟩
abbrev S16384 : Shape := ⟨1, ![16384]⟩
abbrev S16384x128 : Shape := ⟨2, ![16384, 128]⟩
abbrev S512 : Shape := ⟨1, ![512]⟩
abbrev S7x128x128 : Shape := ⟨3, ![7, 128, 128]⟩
abbrev S_ : Shape := ⟨0, ![]⟩
abbrev S1x128x128 : Shape := ⟨3, ![1, 128, 128]⟩
abbrev S128x128 : Shape := ⟨2, ![128, 128]⟩
abbrev S128 : Shape := ⟨1, ![128]⟩
abbrev S4x1x4096x128 : Shape := ⟨4, ![4, 1, 4096, 128]⟩

abbrev nBuf : Table → Nat
  | .hbm => 9
  | .local .scVector .vmem => 2
  | _ => 0

abbrev bufTy : (tb : Table) → Fin (nBuf tb) → BufTy
  | .hbm, ⟨0, _⟩ => ⟨S4x32x4096x128, .f32⟩
  | .hbm, ⟨1, _⟩ => ⟨S4x4096, .i32⟩
  | .hbm, ⟨2, _⟩ => ⟨S8192x128, .f32⟩
  | .hbm, ⟨3, _⟩ => ⟨S8192x128, .f32⟩
  | .hbm, ⟨4, _⟩ => ⟨S16384, .i32⟩
  | .hbm, ⟨5, _⟩ => ⟨S16384x128, .f32⟩
  | .hbm, ⟨6, _⟩ => ⟨S16384x128, .f32⟩
  | .hbm, ⟨7, _⟩ => ⟨S4x1x4096x128, .f32⟩
  | .hbm, ⟨8, _⟩ => ⟨S4x1x4096x128, .f32⟩
  | .local .scVector .vmem, ⟨0, _⟩ => ⟨S512, .i32⟩
  | .local .scVector .vmem, ⟨1, _⟩ => ⟨S7x128x128, .f32⟩
  | _, _ => ⟨S4x32x4096x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_arg2_scv : Ref sig .scVector := ⟨.hbm, 2, rfl⟩
abbrev main_arg3_scv : Ref sig .scVector := ⟨.hbm, 3, rfl⟩
abbrev main_v0_scv : Ref sig .scVector := ⟨.hbm, 4, rfl⟩
abbrev main_v1_0_scv : Ref sig .scVector := ⟨.hbm, 5, rfl⟩
abbrev main_v1_1_scv : Ref sig .scVector := ⟨.hbm, 6, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) (c0_i32_34 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v31 : BitVec 32 := Scalar.addi v2 c0_i32_34
  let c0_i32_38 : BitVec 32 := 0#32
  ![v31.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4x4096_S16384 : S4x4096.ShapeCasts S16384
  inb_S7x128x128_S1x128x128_0_0_0 : ∀ a, (![0, 0, 0] : Fin 3 → Nat) a + S1x128x128.size a ≤ S7x128x128.size a
  squeezes_S1x128x128_S128x128 : S1x128x128.Squeezes S128x128
  inb_S512_S128_0 : ∀ a, (![0] : Fin 1 → Nat) a + S128.size a ≤ S512.size a
  inb_S8192x128_S8192x128_0_0 : ∀ a, (![0, 0] : Fin 2 → Nat) a + S8192x128.size a ≤ S8192x128.size a
  gathers_S8192x128_S128x128 : S8192x128.Gathers 0 S128x128
  inb_S7x128x128_S1x128x128_1_0_0 : ∀ a, (![1, 0, 0] : Fin 3 → Nat) a + S1x128x128.size a ≤ S7x128x128.size a
  inb_S512_S128_128 : ∀ a, (![128] : Fin 1 → Nat) a + S128.size a ≤ S512.size a
  inb_S7x128x128_S1x128x128_2_0_0 : ∀ a, (![2, 0, 0] : Fin 3 → Nat) a + S1x128x128.size a ≤ S7x128x128.size a
  inb_S512_S128_256 : ∀ a, (![256] : Fin 1 → Nat) a + S128.size a ≤ S512.size a
  inb_S7x128x128_S1x128x128_3_0_0 : ∀ a, (![3, 0, 0] : Fin 3 → Nat) a + S1x128x128.size a ≤ S7x128x128.size a
  inb_S512_S128_384 : ∀ a, (![384] : Fin 1 → Nat) a + S128.size a ≤ S512.size a
  inb_S7x128x128_S1x128x128_4_0_0 : ∀ a, (![4, 0, 0] : Fin 3 → Nat) a + S1x128x128.size a ≤ S7x128x128.size a
  inb_S7x128x128_S1x128x128_5_0_0 : ∀ a, (![5, 0, 0] : Fin 3 → Nat) a + S1x128x128.size a ≤ S7x128x128.size a
  inb_S7x128x128_S1x128x128_6_0_0 : ∀ a, (![6, 0, 0] : Fin 3 → Nat) a + S1x128x128.size a ≤ S7x128x128.size a
  shapeCasts_S16384x128_S4x1x4096x128 : S16384x128.ShapeCasts S4x1x4096x128
  hcc0_scratch2 : 0 + S_.numel ≤ 15
  hcc0_scratch3 : 1 + S_.numel ≤ 15
  hcc0_scratch4 : 2 + S_.numel ≤ 15
  hcc0_scratch5 : 3 + S_.numel ≤ 15
  hcc0_scratch6 : 4 + S_.numel ≤ 15
  hcc0_scratch7 : 5 + S_.numel ≤ 15
  hcc0_scratch8 : 6 + S_.numel ≤ 15
  hcc0_scratch9 : 7 + S_.numel ≤ 15
  hcc0_scratch10 : 8 + S_.numel ≤ 15
  hcc0_scratch11 : 9 + S_.numel ≤ 15
  hcc0_scratch12 : 10 + S_.numel ≤ 15
  hcc0_scratch13 : 11 + S_.numel ≤ 15
  hcc0_scratch14 : 12 + S_.numel ≤ 15
  hcc0_scratch15 : 13 + S_.numel ≤ 15
  hcc0_scoped0 : 14 + S_.numel ≤ 15
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_off2_inb : ∀ i : grid0.Coords, ∀ (r : Fin 4), ∀ a, (k0_off2 i (BitVec.ofNat 32 (128 * r.val))) a + S128x128.size a ≤ S16384x128.size a

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4
abbrev cc0_scratch5 : DmaSems sig S_ := SemArray.consecutive 3 S_ hcc0_scratch5
abbrev cc0_scratch6 : DmaSems sig S_ := SemArray.consecutive 4 S_ hcc0_scratch6
abbrev cc0_scratch7 : DmaSems sig S_ := SemArray.consecutive 5 S_ hcc0_scratch7
abbrev cc0_scratch8 : DmaSems sig S_ := SemArray.consecutive 6 S_ hcc0_scratch8
abbrev cc0_scratch9 : DmaSems sig S_ := SemArray.consecutive 7 S_ hcc0_scratch9
abbrev cc0_scratch10 : DmaSems sig S_ := SemArray.consecutive 8 S_ hcc0_scratch10
abbrev cc0_scratch11 : DmaSems sig S_ := SemArray.consecutive 9 S_ hcc0_scratch11
abbrev cc0_scratch12 : DmaSems sig S_ := SemArray.consecutive 10 S_ hcc0_scratch12
abbrev cc0_scratch13 : DmaSems sig S_ := SemArray.consecutive 11 S_ hcc0_scratch13
abbrev cc0_scratch14 : DmaSems sig S_ := SemArray.consecutive 12 S_ hcc0_scratch14
abbrev cc0_scratch15 : DmaSems sig S_ := SemArray.consecutive 13 S_ hcc0_scratch15
abbrev cc0_scoped0 : DmaSems sig S_ := SemArray.consecutive 14 S_ hcc0_scoped0

class Facts : Prop extends Facts₀ where

variable [Facts]
-- ==== ReferenceIdeal.lean ====
abbrev S4x32x4096x128 : Shape := ⟨4, ![4, 32, 4096, 128]⟩
abbrev S4x4096 : Shape := ⟨2, ![4, 4096]⟩
abbrev S8192x128 : Shape := ⟨2, ![8192, 128]⟩
abbrev S_ : Shape := ⟨0, ![]⟩
abbrev S4x4096x1 : Shape := ⟨3, ![4, 4096, 1]⟩
abbrev S1 : Shape := ⟨1, ![1]⟩
abbrev S1x1x1 : Shape := ⟨3, ![1, 1, 1]⟩
abbrev S4x4096x128 : Shape := ⟨3, ![4, 4096, 128]⟩
abbrev S4x1x4096x128 : Shape := ⟨4, ![4, 1, 4096, 128]⟩

abbrev nBuf : Space → Nat
  | .hbm => 52
  | .vmem => 0
  | .smem => 0
  | _ => 0

abbrev bufTy : (tb : Table) → Fin (tcTables nBuf tb) → BufTy
  | .hbm, ⟨0, _⟩ => ⟨S4x32x4096x128, .f32⟩
  | .hbm, ⟨1, _⟩ => ⟨S4x4096, .i32⟩
  | .hbm, ⟨2, _⟩ => ⟨S8192x128, .f32⟩
  | .hbm, ⟨3, _⟩ => ⟨S8192x128, .f32⟩
  | .hbm, ⟨4, _⟩ => ⟨S_, .i32⟩
  | .hbm, ⟨5, _⟩ => ⟨S4x4096, .i32⟩
  | .hbm, ⟨6, _⟩ => ⟨S4x4096, .i1⟩
  | .hbm, ⟨7, _⟩ => ⟨S_, .i32⟩
  | .hbm, ⟨8, _⟩ => ⟨S4x4096, .i32⟩
  | .hbm, ⟨9, _⟩ => ⟨S4x4096, .i32⟩
  | .hbm, ⟨10, _⟩ => ⟨S4x4096, .i32⟩
  | .hbm, ⟨11, _⟩ => ⟨S4x4096x1, .i32⟩
  | .hbm, ⟨12, _⟩ => ⟨S1, .i32⟩
  | .hbm, ⟨13, _⟩ => ⟨S_, .i32⟩
  | .hbm, ⟨14, _⟩ => ⟨S4x4096x1, .i32⟩
  | .hbm, ⟨15, _⟩ => ⟨S4x4096x1, .i1⟩
  | .hbm, ⟨16, _⟩ => ⟨S1x1x1, .i32⟩
  | .hbm, ⟨17, _⟩ => ⟨S4x4096x1, .i32⟩
  | .hbm, ⟨18, _⟩ => ⟨S4x4096x1, .i1⟩
  | .hbm, ⟨19, _⟩ => ⟨S4x4096x1, .i1⟩
  | .hbm, ⟨20, _⟩ => ⟨S_, .i1⟩
  | .hbm, ⟨21, _⟩ => ⟨S4x4096, .i1⟩
  | .hbm, ⟨22, _⟩ => ⟨S4x4096x128, .f32⟩
  | .hbm, ⟨23, _⟩ => ⟨S4x4096x128, .i1⟩
  | .hbm, ⟨24, _⟩ => ⟨S_, .f32⟩
  | .hbm, ⟨25, _⟩ => ⟨S4x4096x128, .f32⟩
  | .hbm, ⟨26, _⟩ => ⟨S4x4096x128, .f32⟩
  | .hbm, ⟨27, _⟩ => ⟨S4x1x4096x128, .f32⟩
  | .hbm, ⟨28, _⟩ => ⟨S_, .i32⟩
  | .hbm, ⟨29, _⟩ => ⟨S4x4096, .i32⟩
  | .hbm, ⟨30, _⟩ => ⟨S4x4096, .i1⟩
  | .hbm, ⟨31, _⟩ => ⟨S_, .i32⟩
  | .hbm, ⟨32, _⟩ => ⟨S4x4096, .i32⟩
  | .hbm, ⟨33, _⟩ => ⟨S4x4096, .i32⟩
  | .hbm, ⟨34, _⟩ => ⟨S4x4096, .i32⟩
  | .hbm, ⟨35, _⟩ => ⟨S4x4096x1, .i32⟩
  | .hbm, ⟨36, _⟩ => ⟨S1, .i32⟩
  | .hbm, ⟨37, _⟩ => ⟨S_, .i32⟩
  | .hbm, ⟨38, _⟩ => ⟨S4x4096x1, .i32⟩
  | .hbm, ⟨39, _⟩ => ⟨S4x4096x1, .i1⟩
  | .hbm, ⟨40, _⟩ => ⟨S1x1x1, .i32⟩
  | .hbm, ⟨41, _⟩ => ⟨S4x4096x1, .i32⟩
  | .hbm, ⟨42, _⟩ => ⟨S4x4096x1, .i1⟩
  | .hbm, ⟨43, _⟩ => ⟨S4x4096x1, .i1⟩
  | .hbm, ⟨44, _⟩ => ⟨S_, .i1⟩
  | .hbm, ⟨45, _⟩ => ⟨S4x4096, .i1⟩
  | .hbm, ⟨46, _⟩ => ⟨S4x4096x128, .f32⟩
  | .hbm, ⟨47, _⟩ => ⟨S4x4096x128, .i1⟩
  | .hbm, ⟨48, _⟩ => ⟨S_, .f32⟩
  | .hbm, ⟨49, _⟩ => ⟨S4x4096x128, .f32⟩
  | .hbm, ⟨50, _⟩ => ⟨S4x4096x128, .f32⟩
  | .hbm, ⟨51, _⟩ => ⟨S4x1x4096x128, .f32⟩
  | _, _ => ⟨S4x32x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v2 : Ref sig .tc := ⟨.hbm, 50, rfl⟩
abbrev main_v3 : Ref sig .tc := ⟨.hbm, 51, rfl⟩

abbrev nD : Nat := 1
abbrev τ : Topo := Topo.v7x

variable {F : FTy → Type} [FloatOps F]

class Facts₀ : Prop where
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S1_S1x1x1_2 : S1.BroadcastsInDim S1x1x1 (![2] : Fin 1 → Fin S1x1x1.rank)
  bcast_S1x1x1_S4x4096x1_0_1_2 : S1x1x1.BroadcastsInDim S4x4096x1 (![0, 1, 2] : Fin 3 → Fin S4x4096x1.rank)
  reducesTo_S4x4096x1_S4x4096_d2 : S4x4096x1.ReducesTo [2] S4x4096
  h_S_ : 0 < S_.numel
  bcast_S4x4096_S4x4096x128_0_1 : S4x4096.BroadcastsInDim S4x4096x128 (![0, 1] : Fin 2 → Fin S4x4096x128.rank)
  bcast_S_S4x4096x128 : S_.BroadcastsInDim S4x4096x128 (![] : Fin 0 → Fin S4x4096x128.rank)
  bcast_S4x4096x128_S4x1x4096x128_0_2_3 : S4x4096x128.BroadcastsInDim S4x1x4096x128 (![0, 2, 3] : Fin 3 → Fin S4x1x4096x128.rank)
  gather_S8192x128_S4x4096x1_S4x4096x128_2_0_n_n_0_2_1128_wf : GatherDims.WF S8192x128 S4x4096x1 S4x4096x128 [2] [0] [] [0] [] 2 ![1, 128]

variable [Facts₀]

def gather_S8192x128_S4x4096x1_S4x4096x128_2_0_n_n_0_2_1128 : GatherDims S8192x128 S4x4096x1 S4x4096x128 where
  offsetDims := [2]
  collapsedSliceDims := [0]
  operandBatchingDims := []
  startIndicesBatchingDims := []
  startIndexMap := [0]
  indexVectorDim := 2
  sliceSizes := ![1, 128]
  wf := gather_S8192x128_S4x4096x1_S4x4096x128_2_0_n_n_0_2_1128_wf

class Facts : Prop extends Facts₀ where

variable [Facts]
-- ==== Proof.Spec.lean ====
/-
  What both programs compute, as one function of the argument arrays.

  The result has shape [4, 1, 4096, 128]. Its entry at (b, 0, s, l) is entry l of the table row named by
  the position word ids[b, s]: a pure row lookup, no arithmetic on the table's entries. A position word is
  read as a row number through its unsigned value; under the claim's precondition every word lies in
  0 … 8191, so the reduction modulo 8192 below never changes it and only serves to make the row number
  total (no proof is carried inside the index).
-/
import Idealize.ShloMosaic.Lib.ValueIdx

namespace Cert.Spec

open Idealize.ShloMosaic Idealize.ShloMosaic.ValueIdx

/-- The position words, the table, the result. -/
abbrev SIds : Shape := ⟨2, ![4, 4096]⟩
abbrev STbl : Shape := ⟨2, ![8192, 128]⟩
abbrev SOut : Shape := ⟨4, ![4, 1, 4096, 128]⟩

/-- The table row a position word names. -/
def rowOf (v : BitVec 32) : Fin 8192 := ⟨v.toNat % 8192, Nat.mod_lt _ (by decide)⟩

/-- A word in range names the row of its own value. -/
theorem rowOf_val {v : BitVec 32} (h : v.toNat < 8192) : (rowOf v).val = v.toNat := Nat.mod_eq_of_lt h

/-- The lookup: entry (b, 0, s, l) of the result is entry l of row ids[b, s] of the table. -/
def lookup {α : Type} (tbl : STbl.Idx → α) (ids : SIds.Idx → BitVec 32) : SOut.Idx → α :=
  fun j => tbl (ix2 (n0 := 8192) (n1 := 128) (rowOf (ids (ix2 (n0 := 4) (n1 := 4096) (j 0) (j 2)))) (j 3))

/-- Every position word of an array is a row number of the table. -/
def InRange (ids : SIds.Idx → BitVec 32) : Prop := ∀ p, (ids p).toNat < 8192

end Cert.Spec
-- ==== Proof.PreRange.lean ====
/-
  The claim's precondition, read back: every position word is a row number.

  The precondition is a conjunction of four one-bit words. Three of them say that the float arguments are
  finite; they are not used here. The fourth is the conjunction, over all of the [4, 4096] array of
  position words, of  (0 ≤ v) and (v ≤ 8191),  both comparisons reading the word v SIGNED. The claim
  states that the whole conjunction is 1. Then the fourth conjunct is 1, a conjunction over an array
  that is 1 has a 1 at every index, and a 32-bit word that is nonnegative read signed is its own
  unsigned value, which is therefore at most 8191. Nothing here looks at a float: the statement holds
  for every interpretation of the float types.
-/
import proofs.«214905_g59081570125084_cont_9to1c4b_332_26_alg».proof.Pre_input_domain
import proofs.«214905_g59081570125084_cont_9to1c4b_332_26_alg».proof.Proof.Spec
import Idealize.ShloMosaic.Lib.ReduceAll
import Idealize.ShloMosaic.Lib.ValueIdx
import Idealize.ShloMosaic.PureOps

namespace Cert.Proof.PreRange

open Idealize.ShloMosaic Cert.Pre_input_domain

/-- The rank-0 shape has exactly one index. -/
instance : Subsingleton S_.Idx := ⟨fun a b => funext fun d => d.elim0⟩

/-- A 32-bit word that is, read signed, at least 0 and at most 8191 has an unsigned value below 8192:
    a nonnegative signed reading is the unsigned reading. -/
theorem toNat_lt_of_cmp (v : BitVec 32)
    (h : IntOp.andi (IntOp.cmpi .sge v 0#32) (IntOp.cmpi .sle v 8191#32) = 1#1) : v.toNat < 8192 := by
  obtain ⟨h0, h1⟩ := IntOp.andi_eq_one.1 h
  rw [IntOp.cmpi_sge, show (0#32 : BitVec 32).toInt = 0 from by decide] at h0
  rw [IntOp.cmpi_sle, show (8191#32 : BitVec 32).toInt = 8191 from by decide] at h1
  rw [BitVec.toInt_eq_toNat_cond] at h0 h1
  have := v.isLt
  split at h0 <;> omega

variable {F : FTy → Type} [FloatOps F] [Cert.Pre_input_domain.Facts]

/-- The precondition's value being 1 gives that every position word is a row number of the table. -/
theorem inRange_of_pre (a0 : FVec F S4x32x4096x128 .f32) (a1 : IVec S4x4096 32) (a2 a3 : FVec F S8192x128 .f32)
    (h : Cert.Pre_input_domain.fn (F := F) a0 a1 a2 a3 = (fun _ => 1#1)) : Cert.Spec.InRange a1 := by
  intro p
  have e := congrFun h ValueIdx.ix0
  dsimp only [fn, fn_part1] at e
  -- the outermost conjunction: the three finiteness words on the left, the range word on the right
  obtain ⟨-, e⟩ := IntOp.andi_eq_one.1 e
  -- a conjunction over the whole array that is 1 is 1 at the index p
  have ep := Host.reduce_andi_all _ _ _ _ _ e p
  exact toNat_lt_of_cmp (a1 p) ep

end Cert.Proof.PreRange
-- ==== Proof.RefRunPure.lean ====
/-
  The value of the lowered take function on position words that are row numbers.

  The lowered function takes a table [8192, 128] and an array [4, 4096] of 32-bit position words. It wraps a
  negative word by adding 8192, builds a mask "0 ≤ word ≤ 8191" and-reduced over a unit axis, gathers one table
  row per word (the start index read signed and clamped into 0 … 8191), and selects the gathered row where the
  mask is set and a NaN constant elsewhere. When every word's unsigned value is below 8192 the word is
  non-negative as a signed number, so the wrap is the identity, both comparisons hold, the mask is all ones,
  the clamp does nothing, and entry (b, s, l) of the result is entry l of table row ids[b, s]. Broadcast to
  [4, 1, 4096, 128] along axes 0, 2, 3 this is the specification's lookup.

  The term is stated over the shape facts its operations take (any proofs of them), so that it can be matched
  against a program's text whatever names that text gives the facts.
-/
import Idealize.ShloMosaic.Lib.ValueIdx
import Idealize.ShloMosaic.PureOps.Reduce
import proofs.«214905_g59081570125084_cont_9to1c4b_332_26_alg».proof.Proof.Spec

namespace Cert.RefRunPure

open Idealize.ShloMosaic Idealize.ShloMosaic.ValueIdx Cert.Spec

/-! ## Shapes -/

abbrev S0 : Shape := ⟨0, ![]⟩
abbrev S1 : Shape := ⟨1, ![1]⟩
abbrev S111 : Shape := ⟨3, ![1, 1, 1]⟩
/-- The position words with a trailing unit axis: the gather's start indices. -/
abbrev SIds1 : Shape := ⟨3, ![4, 4096, 1]⟩
/-- One table row per position word. -/
abbrev SRows : Shape := ⟨3, ![4, 4096, 128]⟩

/-! ## Words below 8192, read signed -/

theorem toInt_of_lt {x : BitVec 32} (h : x.toNat < 8192) : x.toInt = (x.toNat : Int) :=
  BitVec.toInt_eq_toNat_of_lt (by omega)

/-- Such a word is not negative … -/
theorem slt_zero {x : BitVec 32} (h : x.toNat < 8192) : IntOp.cmpi .slt x 0#32 = 0#1 := by
  show BitVec.ofBool (x.slt 0#32) = 0#1
  have : x.slt 0#32 = false := by
    rw [BitVec.slt, toInt_of_lt h]; simp
  rw [this]; rfl

/-- … it is at least zero … -/
theorem sge_zero {x : BitVec 32} (h : x.toNat < 8192) : IntOp.cmpi .sge x 0#32 = 1#1 := by
  show BitVec.ofBool ((0#32).sle x) = 1#1
  have : (0#32).sle x = true := by
    rw [BitVec.sle, toInt_of_lt h]; simp
  rw [this]; rfl

/-- … and at most 8191. -/
theorem sle_max {x : BitVec 32} (h : x.toNat < 8192) : IntOp.cmpi .sle x 8191#32 = 1#1 := by
  show BitVec.ofBool (x.sle 8191#32) = 1#1
  have : x.sle 8191#32 = true := by
    rw [BitVec.sle, toInt_of_lt h]
    have : (8191#32 : BitVec 32).toInt = 8191 := by decide
    rw [this]; simp; omega
  rw [this]; rfl

/-! ## An and-reduction of ones -/

theorem foldl_andi_one {ι : Type} (l : List ι) : l.foldl (fun r (_ : ι) => IntOp.andi r 1#1) 1#1 = 1#1 := by
  induction l with
  | nil => rfl
  | cons a l ih => exact ih

/-- Reducing an array of ones by "and" from the initial value one leaves ones. -/
theorem reduce_andi_ones {s t u : Shape} {axes : List (Fin s.rank)} (h : s.ReducesTo axes t) (hu : 0 < u.numel) :
    Host.reduce IntOp.andi (fun _ : s.Idx => 1#1) (fun _ : u.Idx => 1#1) h hu = fun _ => 1#1 := by
  funext j
  rw [Host.reduce_eq_foldl]
  exact foldl_andi_one _

/-! ## The lowered function, in pieces -/

section Term

variable {F : FTy → Type} [FloatOps F]
variable (b0 : S0.BroadcastsInDim SIds (![] : Fin 0 → Fin SIds.rank))
  (b1 : SIds.BroadcastsInDim SIds1 (![0, 1] : Fin 2 → Fin SIds1.rank))
  (b2 : S0.BroadcastsInDim SIds1 (![] : Fin 0 → Fin SIds1.rank))
  (b3 : S1.BroadcastsInDim S111 (![2] : Fin 1 → Fin S111.rank))
  (b4 : S111.BroadcastsInDim SIds1 (![0, 1, 2] : Fin 3 → Fin SIds1.rank))
  (hr : SIds1.ReducesTo [2] SIds) (hS : 0 < S0.numel)
  (b5 : SIds.BroadcastsInDim SRows (![0, 1] : Fin 2 → Fin SRows.rank))
  (b6 : S0.BroadcastsInDim SRows (![] : Fin 0 → Fin SRows.rank))
  (b7 : SRows.BroadcastsInDim SOut (![0, 2, 3] : Fin 3 → Fin SOut.rank))
  (wf : GatherDims.WF STbl SIds1 SRows [2] [0] [] [0] [] 2 ![1, 128])

/-- The wrap of negative words: `select (ids < 0) (ids + 8192) ids`. -/
def wrapIds (ids : IVec SIds 32) : IVec SIds 32 :=
  select (cmpi .slt ids (broadcastInDim SIds ![] b0 (constantI S0 32 0#32)))
    (addi ids (broadcastInDim SIds ![] b0 (constantI S0 32 8192#32))) ids

/-- The words with a trailing unit axis. -/
def idx3 (w : IVec SIds 32) : IVec SIds1 32 := broadcastInDim SIds1 ![0, 1] b1 w

/-- The mask "0 ≤ word ≤ 8191", and-reduced over the unit axis. -/
def maskOf (v : IVec SIds1 32) : IVec SIds 1 :=
  Host.reduce IntOp.andi
    (andi (cmpi .sge v (broadcastInDim SIds1 ![] b2 (constantI S0 32 0#32)))
      (cmpi .sle v (broadcastInDim SIds1 ![0, 1, 2] b4 (broadcastInDim S111 ![2] b3 (constantI S1 32 8191#32)))))
    (constantI S0 1 1#1) hr hS

/-- The gather's dimension numbers: offset axis 2, operand axis 0 collapsed and named by the start index,
    the index vector on the start indices' axis 2, slices of one row. -/
abbrev gdims : GatherDims STbl SIds1 SRows where
  offsetDims := [2]
  collapsedSliceDims := [0]
  operandBatchingDims := []
  startIndicesBatchingDims := []
  startIndexMap := [0]
  indexVectorDim := 2
  sliceSizes := ![1, 128]
  wf := wf

/-- The whole function: the gathered rows where the mask is set, the NaN constant elsewhere. -/
def takeTerm (tbl : FVec F STbl .f32) (ids : IVec SIds 32) : FVec F SRows .f32 :=
  select (broadcastInDim SRows ![0, 1] b5 (maskOf b2 b3 b4 hr hS (idx3 b1 (wrapIds b0 ids))))
    (Host.gather (gdims wf) tbl (idx3 b1 (wrapIds b0 ids)))
    (broadcastInDim SRows ![] b6 (constant S0 .f32 0x7FC00000#32))

/-- The result as the program returns it: the rows with a unit axis inserted at position 1. -/
def outTerm (tbl : FVec F STbl .f32) (ids : IVec SIds 32) : FVec F SOut .f32 :=
  broadcastInDim SOut ![0, 2, 3] b7 (takeTerm b0 b1 b2 b3 b4 hr hS b5 b6 wf tbl ids)

/-! ## Its value on row numbers -/

/-- Words that are row numbers are not wrapped. -/
theorem wrapIds_eq (ids : IVec SIds 32) (hids : InRange ids) : wrapIds b0 ids = ids := by
  funext p
  show Scalar.select (IntOp.cmpi .slt (ids p) 0#32) _ _ = _
  rw [slt_zero (hids p), select_zero]

/-- The start index at [b, s, 0] is the word at [b, s]. -/
theorem idx3_apply (w : IVec SIds 32) (k : SIds1.Idx) : idx3 b1 w k = w (ix2 (k 0) (k 1)) := by
  show w _ = w _
  congr 1
  funext a
  match a with
  | ⟨0, _⟩ => rfl
  | ⟨1, _⟩ => rfl

/-- On row numbers the mask is all ones. -/
theorem maskOf_eq (v : IVec SIds1 32) (hv : ∀ k, (v k).toNat < 8192) : maskOf b2 b3 b4 hr hS v = fun _ => 1#1 := by
  have h11 : (andi (cmpi .sge v (broadcastInDim SIds1 ![] b2 (constantI S0 32 0#32)))
      (cmpi .sle v (broadcastInDim SIds1 ![0, 1, 2] b4 (broadcastInDim S111 ![2] b3 (constantI S1 32 8191#32)))))
      = fun _ => 1#1 := by
    funext k
    show IntOp.andi (IntOp.cmpi .sge (v k) 0#32) (IntOp.cmpi .sle (v k) 8191#32) = 1#1
    rw [sge_zero (hv k), sle_max (hv k)]; rfl
  unfold maskOf
  rw [h11]
  exact reduce_andi_ones hr hS

/-- The gather at (b, s, l): entry l of the row the start index names, read signed and clamped into 0 … 8191. -/
theorem gather_apply (tbl : FVec F STbl .f32) (v : IVec SIds1 32) (j : SRows.Idx) :
    Host.gather (gdims wf) tbl v j
      = tbl (ix2 (n0 := 8192) (n1 := 128) ⟨min (v (ix3 (j 0) (j 1) (0 : Fin 1))).toInt.toNat 8191, by omega⟩ (j 2)) := by
  have hb : ∀ a, (gdims wf).batchCoord j a = 0 :=
    fun a => GatherDims.batchCoord_eq_zero _ _ _ List.not_mem_nil
  -- axis 0: the clamped start index, nothing else
  have h0 : (gdims wf).start j v 0 + (gdims wf).batchCoord j 0 + (gdims wf).offCoord j 0
      = min (v (ix3 (j 0) (j 1) (0 : Fin 1))).toInt.toNat 8191 := by
    rw [hb, GatherDims.offCoord_eq_zero _ _ _
      (fun h => ((GatherDims.mem_sKept _ _).mp h).1 (List.mem_singleton.mpr rfl))]
    show (gdims wf).start j v 0 = _
    unfold GatherDims.start
    rw [dif_pos (show (0 : Fin 2) ∈ (gdims wf).startIndexMap from List.mem_singleton.mpr rfl)]
    have hsi : (gdims wf).siIdx j ⟨List.idxOf (0 : Fin 2) (gdims wf).startIndexMap,
        List.idxOf_lt_length_iff.2 (List.mem_singleton.mpr rfl)⟩ = ix3 (j 0) (j 1) (0 : Fin 1) := by
      funext b; refine Fin.ext ?_
      match b with
      | ⟨0, _⟩ => rfl
      | ⟨1, _⟩ => rfl
      | ⟨2, _⟩ => rfl
    rw [hsi]
    rfl
  -- axis 1: the result's coordinate on its offset axis, nothing else
  have h1 : (gdims wf).start j v 1 + (gdims wf).batchCoord j 1 + (gdims wf).offCoord j 1 = (j 2).val := by
    have hs : (gdims wf).start j v 1 = 0 :=
      dif_neg (show (1 : Fin 2) ∉ ([0] : List (Fin 2)) by decide)
    rw [hs, hb]
    show 0 + 0 + (j 2).val = (j 2).val
    omega
  unfold Host.gather
  congr 1
  funext a
  refine Fin.ext ?_
  match a with
  | ⟨0, _⟩ => exact h0
  | ⟨1, _⟩ => exact h1

/-- On row numbers the function is the row lookup. -/
theorem takeTerm_apply (tbl : FVec F STbl .f32) (ids : IVec SIds 32) (hids : InRange ids) (j : SRows.Idx) :
    takeTerm b0 b1 b2 b3 b4 hr hS b5 b6 wf tbl ids j
      = tbl (ix2 (n0 := 8192) (n1 := 128) (rowOf (ids (ix2 (n0 := 4) (n1 := 4096) (j 0) (j 1)))) (j 2)) := by
  unfold takeTerm
  rw [wrapIds_eq b0 ids hids,
    maskOf_eq b2 b3 b4 hr hS (idx3 b1 ids) (fun k => by rw [idx3_apply]; exact hids _)]
  show Scalar.select 1#1 _ _ = _
  rw [select_one, gather_apply]
  have hv : idx3 b1 ids (ix3 (j 0) (j 1) (0 : Fin 1)) = ids (ix2 (n0 := 4) (n1 := 4096) (j 0) (j 1)) :=
    idx3_apply b1 ids _
  have hlt := hids (ix2 (n0 := 4) (n1 := 4096) (j 0) (j 1))
  congr 1
  funext d
  match d with
  | ⟨0, _⟩ =>
    refine Fin.ext ?_
    show min (idx3 b1 ids (ix3 (j 0) (j 1) (0 : Fin 1))).toInt.toNat 8191
      = (rowOf (ids (ix2 (n0 := 4) (n1 := 4096) (j 0) (j 1)))).val
    rw [hv, rowOf_val hlt, toInt_of_lt hlt]
    omega
  | ⟨1, _⟩ => rfl

/-- With the unit axis inserted, the specification's lookup. -/
theorem outTerm_eq (tbl : FVec F STbl .f32) (ids : IVec SIds 32) (hids : InRange ids) :
    outTerm b0 b1 b2 b3 b4 hr hS b5 b6 b7 wf tbl ids = lookup tbl ids := by
  funext i
  unfold outTerm
  have hb : broadcastInDim SOut ![0, 2, 3] b7 (takeTerm b0 b1 b2 b3 b4 hr hS b5 b6 wf tbl ids) i
      = takeTerm b0 b1 b2 b3 b4 hr hS b5 b6 wf tbl ids (ix3 (i 0) (i 2) (i 3)) := by
    show takeTerm b0 b1 b2 b3 b4 hr hS b5 b6 wf tbl ids _ = _
    congr 1
    funext a
    match a with
    | ⟨0, _⟩ => rfl
    | ⟨1, _⟩ => rfl
    | ⟨2, _⟩ => rfl
  rw [hb, takeTerm_apply b0 b1 b2 b3 b4 hr hS b5 b6 wf tbl ids hids]
  rfl

end Term

end Cert.RefRunPure
-- ==== Proof.RefRun.lean ====
/-
  The reference program's run, with its value.

  @main calls the lowered take function twice — on the table of argument 2 and on the table of argument 3, both at
  the position words of argument 1 — and inserts a unit axis into each result. Each call is the callee's
  twenty-three operations (the wrap of negative words through the inner select function included) on that call's
  own buffers, so @main is one straight line of forty-eight operations. Every weakly fair execution of such a line
  terminates with each buffer at the fold of the operations' results over the launch contents; at the two result
  buffers that fold is the lowered function's composed term of the arguments, which on position words that are
  row numbers is the specification's row lookup; the argument buffers are written by no operation.
-/
import proofs.«214905_g59081570125084_cont_9to1c4b_332_26_alg».proof.Proof.Gen.ReferenceIdeal
import proofs.«214905_g59081570125084_cont_9to1c4b_332_26_alg».proof.Proof.Spec
import proofs.«214905_g59081570125084_cont_9to1c4b_332_26_alg».proof.Proof.RefRunPure
import Idealize.ShloMosaic.Lib.StableHlo.Run
import Idealize.ShloMosaic.Lib.ValueIdx

noncomputable section

namespace Cert.ReferenceIdeal.RefRun

open Idealize.ShloMosaic Idealize.SL.Sem Cert.ReferenceIdeal
open Idealize.ShloMosaic.TcCoe Idealize.ShloMosaic.StableHlo Cert.ReferenceIdeal.Facts₀

variable {F : FTy → Type} [FloatOps F] [Cert.ReferenceIdeal.Facts]

/-- @main's forty-eight operations in order, the calls unfolded: the first call's twenty-three on its buffers,
    the unit axis inserted into its result, the second call's twenty-three, the unit axis inserted again. -/
abbrev ops : List (HloOp τ sig (Elt F)) :=
  [ TRef.nullary main_call0.c (constantI S_ 32 0#32),
    TRef.unary main_call0.c main_call0.v0 (broadcastInDim S4x4096 ![] bcast_S_S4x4096),
    TRef.binary (.of main_arg1) main_call0.v0 main_call0.v1 (cmpi .slt),
    TRef.nullary main_call0.c_0 (constantI S_ 32 8192#32),
    TRef.unary main_call0.c_0 main_call0.v2 (broadcastInDim S4x4096 ![] bcast_S_S4x4096),
    TRef.binary (.of main_arg1) main_call0.v2 main_call0.v3 addi,
    TRef.ternary main_call0.v1 main_call0.v3 (.of main_arg1) main_call0.call0.v0 select,
    TRef.unary main_call0.call0.v0 main_call0.v5 (broadcastInDim S4x4096x1 ![0, 1] bcast_S4x4096_S4x4096x1_0_1),
    TRef.nullary main_call0.c_1 (constantI S1 32 8191#32),
    TRef.nullary main_call0.c_2 (constantI S_ 32 0#32),
    TRef.unary main_call0.c_2 main_call0.v6 (broadcastInDim S4x4096x1 ![] bcast_S_S4x4096x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4x4096x1 ![0, 1, 2] bcast_S1x1x1_S4x4096x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x4096x1_S4x4096_d2 h_S_),
    TRef.binary (.of main_arg2) main_call0.v5 main_call0.v13 (fun x i => Host.gather gather_S8192x128_S4x4096x1_S4x4096x128_2_0_n_n_0_2_1128 x i),
    TRef.unary main_call0.v12 main_call0.v14 (broadcastInDim S4x4096x128 ![0, 1] bcast_S4x4096_S4x4096x128_0_1),
    TRef.nullary main_call0.cst (constant S_ .f32 0x7FC00000#32),
    TRef.unary main_call0.cst main_call0.v15 (broadcastInDim S4x4096x128 ![] bcast_S_S4x4096x128),
    TRef.ternary main_call0.v14 main_call0.v13 main_call0.v15 main_call0.v16 select,
    unary main_v0 main_v1 (broadcastInDim S4x1x4096x128 ![0, 2, 3] bcast_S4x4096x128_S4x1x4096x128_0_2_3 : (⟨S4x4096x128, .f32⟩ : BufTy).Contents (Elt F) → (⟨S4x1x4096x128, .f32⟩ : BufTy).Contents (Elt F)),
    TRef.nullary main_call1.c (constantI S_ 32 0#32),
    TRef.unary main_call1.c main_call1.v0 (broadcastInDim S4x4096 ![] bcast_S_S4x4096),
    TRef.binary (.of main_arg1) main_call1.v0 main_call1.v1 (cmpi .slt),
    TRef.nullary main_call1.c_0 (constantI S_ 32 8192#32),
    TRef.unary main_call1.c_0 main_call1.v2 (broadcastInDim S4x4096 ![] bcast_S_S4x4096),
    TRef.binary (.of main_arg1) main_call1.v2 main_call1.v3 addi,
    TRef.ternary main_call1.v1 main_call1.v3 (.of main_arg1) main_call1.call0.v0 select,
    TRef.unary main_call1.call0.v0 main_call1.v5 (broadcastInDim S4x4096x1 ![0, 1] bcast_S4x4096_S4x4096x1_0_1),
    TRef.nullary main_call1.c_1 (constantI S1 32 8191#32),
    TRef.nullary main_call1.c_2 (constantI S_ 32 0#32),
    TRef.unary main_call1.c_2 main_call1.v6 (broadcastInDim S4x4096x1 ![] bcast_S_S4x4096x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S4x4096x1 ![0, 1, 2] bcast_S1x1x1_S4x4096x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4x4096x1_S4x4096_d2 h_S_),
    TRef.binary (.of main_arg3) main_call1.v5 main_call1.v13 (fun x i => Host.gather gather_S8192x128_S4x4096x1_S4x4096x128_2_0_n_n_0_2_1128 x i),
    TRef.unary main_call1.v12 main_call1.v14 (broadcastInDim S4x4096x128 ![0, 1] bcast_S4x4096_S4x4096x128_0_1),
    TRef.nullary main_call1.cst (constant S_ .f32 0x7FC00000#32),
    TRef.unary main_call1.cst main_call1.v15 (broadcastInDim S4x4096x128 ![] bcast_S_S4x4096x128),
    TRef.ternary main_call1.v14 main_call1.v13 main_call1.v15 main_call1.v16 select,
    unary main_v2 main_v3 (broadcastInDim S4x1x4096x128 ![0, 2, 3] bcast_S4x4096x128_S4x1x4096x128_0_2_3 : (⟨S4x4096x128, .f32⟩ : BufTy).Contents (Elt F) → (⟨S4x1x4096x128, .f32⟩ : BufTy).Contents (Elt F)) ]

-- forty-eight binds re-associated: the rewrite under the chain recurses once per statement
set_option maxRecDepth 1024 in
/-- @main is that straight line: the two functions' definitions unfolded at their calls, both sides are one chain
    of steps once sequencing is re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., unary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., unary_bufs_sub ..⟩

/-- The lowered function's composed term at this program's shape facts, with the unit axis inserted. -/
abbrev outOf (tbl : FVec F S8192x128 .f32) (ids : IVec S4x4096 32) : FVec F S4x1x4096x128 .f32 :=
  Cert.RefRunPure.outTerm bcast_S_S4x4096 bcast_S4x4096_S4x4096x1_0_1 bcast_S_S4x4096x1 bcast_S1_S1x1x1_2 bcast_S1x1x1_S4x4096x1_0_1_2 reducesTo_S4x4096x1_S4x4096_d2 h_S_ bcast_S4x4096_S4x4096x128_0_1 bcast_S_S4x4096x128 bcast_S4x4096x128_S4x1x4096x128_0_2_3 gather_S8192x128_S4x4096x1_S4x4096x128_2_0_n_n_0_2_1128_wf tbl ids

attribute [local irreducible] Host.reduce Host.gather in
/-- The fold at the first result buffer is the composed term of arguments 2 and 1, by computation: each
    operation's result at its own buffer is its function's value and at any other buffer what was there, and the
    typed references' transports are the identity at these literal references. The reduction and the gather are
    kept folded meanwhile: the equation never looks inside them. -/
theorem out0_eq (V : Valuation τ sig (Elt F)) :
    after ops V (main_v1 : DevRef τ sig) = outOf (V (main_arg2 : DevRef τ sig)) (V (main_arg1 : DevRef τ sig)) := by
  after_results_simp
  rfl

attribute [local irreducible] Host.reduce Host.gather in
/-- The same at the second result buffer, of arguments 3 and 1. -/
theorem out1_eq (V : Valuation τ sig (Elt F)) :
    after ops V (main_v3 : DevRef τ sig) = outOf (V (main_arg3 : DevRef τ sig)) (V (main_arg1 : DevRef τ sig)) := by
  after_results_simp
  rfl

/-- No operation writes an argument buffer. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp

/-- On every device, for any float values, from any memory with zero counters whose position words are row
    numbers: every weakly fair execution of @main terminates with each result the row lookup of its table at the
    position words, and the arguments unchanged. -/
theorem run (m : (ℓ : Loc nD τ sig) → Buf (Elt F) ℓ) (ρ : Dev nD → PrngReg)
    (hids : ∀ c : Dev nD, Cert.Spec.InRange (m ((c.tc : Thread nD τ).loc main_arg1))) :
    θ_run (Cert.ReferenceIdeal.defs (F := F)) (onTc (τ := τ) (Cert.ReferenceIdeal.main (F := F))) ⟨m, fun _ => 0, ρ⟩ (fun r => ∀ c : Dev nD,
        r.2.mem ((c.tc : Thread nD τ).loc main_v1) = Cert.Spec.lookup (m ((c.tc : Thread nD τ).loc main_arg2)) (m ((c.tc : Thread nD τ).loc main_arg1))
      ∧ r.2.mem ((c.tc : Thread nD τ).loc main_v3) = Cert.Spec.lookup (m ((c.tc : Thread nD τ).loc main_arg3)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨((h c main_v1).trans (out0_eq _)).trans (Cert.RefRunPure.outTerm_eq _ _ _ _ _ _ _ _ _ _ _ _ _ (hids c)),
       ((h c main_v3).trans (out1_eq _)).trans (Cert.RefRunPure.outTerm_eq _ _ _ _ _ _ _ _ _ _ _ _ _ (hids c)),
       (h c main_arg0).trans (arg0_eq _),
       (h c main_arg1).trans (arg1_eq _),
       (h c main_arg2).trans (arg2_eq _),
       (h c main_arg3).trans (arg3_eq _)⟩)
    (run_seq scopedRefs_eq scopedSems_eq defs main (fun _ => ops) main_eq (fun _ => ops_sub) m ρ)

end Cert.ReferenceIdeal.RefRun

end
-- ==== Proof.KernelIdealC.lean ====
/-
  The gather kernel as its launch sees it: thirty-two tiles (two cores of sixteen), tile (c, s) serving the 512
  flat positions from 1024·s + 512·c on. A tile copies its 512 position words into its own memory, then for each
  of its four blocks of 128 positions fetches the 128 rows those words name, first from the cosine table and then
  from the sine table, into a buffer slot, and copies each slot out to the matching 128 rows of the flat result.

  This module fixes what is handed over at each handshake. The two tables are only read: every tile holds a read
  share of each. The flat position array is cut into the tiles' 512-word pieces, each flat result into the tiles'
  128-row blocks. What a tile hands back is each of its blocks holding, at every row n and lane l, entry l of the
  table row named by position word n: the restriction to the block of ONE whole-array function ('gathered').
-/
import proofs.«214905_g59081570125084_cont_9to1c4b_332_26_alg».proof.KernelIdeal
import proofs.«214905_g59081570125084_cont_9to1c4b_332_26_alg».proof.Proof.Spec
import proofs.«214905_g59081570125084_cont_9to1c4b_332_26_alg».proof.Proof.Gen.KernelIdeal
import proofs.«214905_g59081570125084_cont_9to1c4b_332_26_alg».proof.Proof.Gen.KernelIdeal.Skeleton
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx

noncomputable section

namespace Cert.Proof.KernelIdealC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

/-- The cosine table, the sine table, the flat position words, the two flat results. -/
abbrev cLoc (d : Dev nD) : Loc nD τ sig := (SparseCore.T d).loc main_arg2
abbrev sLoc (d : Dev nD) : Loc nD τ sig := (SparseCore.T d).loc main_arg3
abbrev iLoc (d : Dev nD) : Loc nD τ sig := (SparseCore.T d).loc main_v0
abbrev ocLoc (d : Dev nD) : Loc nD τ sig := (SparseCore.T d).loc main_v1_0
abbrev osLoc (d : Dev nD) : Loc nD τ sig := (SparseCore.T d).loc main_v1_1
/-- The position words as given, [4, 4096]. -/
abbrev pLoc (d : Dev nD) : Loc nD τ sig := (SparseCore.T d).loc main_arg1

abbrev cM : Memref sig .scVector .hbm S8192x128 .f32 := Memref.whole main_arg2_scv
abbrev sM : Memref sig .scVector .hbm S8192x128 .f32 := Memref.whole main_arg3_scv
abbrev iM : Memref sig .scVector .hbm S16384 .i32 := Memref.whole main_v0_scv
abbrev ocM : Memref sig .scVector .hbm S16384x128 .f32 := Memref.whole main_v1_0_scv
abbrev osM : Memref sig .scVector .hbm S16384x128 .f32 := Memref.whole main_v1_1_scv
/-- A tile's own memory: its 512 position words, its seven buffer slots. -/
abbrev xM : Memref sig .scVector .vmem S512 .i32 := Memref.whole cc0_scratch0
abbrev bM : Memref sig .scVector .vmem S7x128x128 .f32 := Memref.whole cc0_scratch1

/-! ## A tile's coordinates and its pieces, spelt as the program slices them -/

/-- Core `c`, tile `s` as a grid point. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- The tile's 512 position words in the flat array. -/
abbrev iRowK (L : grid0.Coords) : Memref sig .scVector .hbm S512 .i32 :=
  (iM).slice (Rect.unit (s := S16384) (k0_off1 L) S512.size (k0_off1_inb L)) (fun _ => rfl)
/-- Block `r` (128 rows) of the tile's part of a flat result. -/
abbrev ocB (L : grid0.Coords) (r : Fin 4) : Memref sig .scVector .hbm S128x128 .f32 :=
  (ocM).slice (Rect.unit (s := S16384x128) (k0_off2 L (BitVec.ofNat 32 (128 * r.val))) S128x128.size (k0_off2_inb L r)) (fun _ => rfl)
abbrev osB (L : grid0.Coords) (r : Fin 4) : Memref sig .scVector .hbm S128x128 .f32 :=
  (osM).slice (Rect.unit (s := S16384x128) (k0_off2 L (BitVec.ofNat 32 (128 * r.val))) S128x128.size (k0_off2_inb L r)) (fun _ => rfl)

abbrev iSet (L : grid0.Coords) : Finset S16384.Idx := (iRowK L).view.set
abbrev ocSet (L : grid0.Coords) (r : Fin 4) : Finset S16384x128.Idx := (ocB L r).view.set
abbrev osSet (L : grid0.Coords) (r : Fin 4) : Finset S16384x128.Idx := (osB L r).view.set

/-! ## The values -/

/-- The position words as the kernel finds them: the [4, 4096] array laid out flat, row-major. -/
def flatIds (d : Dev nD) : Buf (Elt F) (iLoc d) :=
  shapeCast S16384 (m (pLoc d)) shapeCasts_S4x4096_S16384

/-- A table gathered by the flat position words: row n, lane l is entry l of the table row word n names. -/
def gathered (tbl : S8192x128.Idx → F .f32) (ids : S16384.Idx → BitVec 32) : S16384x128.Idx → F .f32 :=
  fun x => tbl (ix2 (n0 := 8192) (n1 := 128) (Cert.Spec.rowOf (ids (ix1 (n := 16384) (x 0)))) (x 1))

abbrev gC (d : Dev nD) : Buf (Elt F) (ocLoc d) := gathered (m (cLoc d)) (flatIds m d)
abbrev gS (d : Dev nD) : Buf (Elt F) (osLoc d) := gathered (m (sLoc d)) (flatIds m d)

/-- What the proof asks of the launch memory: every position word names a table row. -/
def PreOK : Prop := ∀ d : Dev nD, Cert.Spec.InRange (m (pLoc d))

/-! ## Read shares of a table: per core, then per tile -/

abbrev qCore (c : Fin 2) : PosShare TreeShare := Transfers.shareTok fullShare 2 c
abbrev qTile (c : Fin 2) (i : Fin 16) : PosShare TreeShare := Transfers.shareTok (qCore c) 16 i

/-! ## What the handshakes carry -/

/-- Tile (c, i) as a grid point. -/
abbrev LL (c : Fin 2) (i : Fin 16) : grid0.Coords := coordsV c i

/-- A tile's pieces: its position words, and its four blocks of each flat result at contents `fc`, `fs`. -/
def tileData (d : Dev nD) (c : Fin 2) (i : Fin 16) (fc : Buf (Elt F) (ocLoc d)) (fs : Buf (Elt F) (osLoc d)) : sProp 𝕄 :=
  iprop((iLoc d ↦[iSet (LL c i)]{fullShare} flatIds m d)
    ∗ ((ocLoc d ↦[ocSet (LL c i) 0]{fullShare} fc) ∗ (ocLoc d ↦[ocSet (LL c i) 1]{fullShare} fc)
        ∗ (ocLoc d ↦[ocSet (LL c i) 2]{fullShare} fc) ∗ (ocLoc d ↦[ocSet (LL c i) 3]{fullShare} fc))
    ∗ ((osLoc d ↦[osSet (LL c i) 0]{fullShare} fs) ∗ (osLoc d ↦[osSet (LL c i) 1]{fullShare} fs)
        ∗ (osLoc d ↦[osSet (LL c i) 2]{fullShare} fs) ∗ (osLoc d ↦[osSet (LL c i) 3]{fullShare} fs)))

/-- The two tables at a read share. -/
def tables (d : Dev nD) (q : PosShare TreeShare) : sProp 𝕄 :=
  iprop((cLoc d ↦{q} m (cLoc d)) ∗ (sLoc d ↦{q} m (sLoc d)))

variable [FloatOps F]

/-- The one call: a core takes a read share of each table and its sixteen tiles' pieces, the results as launched; a
    tile takes its own share and pieces; each brings them back, the result blocks at the gathered tables. -/
def P : (K (F := F)).Pay (nD := nD) (Val := Elt F) (Name := ℕ) (U := UU) where
  st := fun q d c => match q with
    | 0 => iprop(tables m d (qCore (Fin.cast nCore_zero c))
        ∗ bigSep Finset.univ fun i : Fin 16 => tileData m d (Fin.cast nCore_zero c) i (m (ocLoc d)) (m (osLoc d)))
  dn := fun q d c => match q with
    | 0 => iprop(tables m d (qCore (Fin.cast nCore_zero c))
        ∗ bigSep Finset.univ fun i : Fin 16 => tileData m d (Fin.cast nCore_zero c) i (gC m d) (gS m d))
  go := fun q d c i => match q with
    | 0 => iprop(tables m d (qTile (Fin.cast nCore_zero c) (Fin.cast nSub_zero i))
        ∗ tileData m d (Fin.cast nCore_zero c) (Fin.cast nSub_zero i) (m (ocLoc d)) (m (osLoc d)))
  td := fun q d c i => match q with
    | 0 => iprop(tables m d (qTile (Fin.cast nCore_zero c) (Fin.cast nSub_zero i))
        ∗ tileData m d (Fin.cast nCore_zero c) (Fin.cast nSub_zero i) (gC m d) (gS m d))
  x := fun _ _ => iprop(emp)

instance tileData_storable (d : Dev nD) (c : Fin 2) (i : Fin 16) (fc : Buf (Elt F) (ocLoc d)) (fs : Buf (Elt F) (osLoc d)) :
    BI.Storable (upEmb : UEmb _ 𝕄) (tileData m d c i fc fs) := by unfold tileData; infer_instance
instance tables_storable (d : Dev nD) (q : PosShare TreeShare) : BI.Storable (upEmb : UEmb _ 𝕄) (tables m d q) := by
  unfold tables; infer_instance

instance P_storable : (P (F := F) m).IsStorable where
  st q d c := match q with
    | 0 => (inferInstance : BI.Storable (upEmb : UEmb _ 𝕄) iprop(tables m d (qCore (Fin.cast nCore_zero c))
        ∗ bigSep Finset.univ fun i : Fin 16 => tileData m d (Fin.cast nCore_zero c) i (m (ocLoc d)) (m (osLoc d))))
  dn q d c := match q with
    | 0 => (inferInstance : BI.Storable (upEmb : UEmb _ 𝕄) iprop(tables m d (qCore (Fin.cast nCore_zero c))
        ∗ bigSep Finset.univ fun i : Fin 16 => tileData m d (Fin.cast nCore_zero c) i (gC m d) (gS m d)))
  go q d c i := match q with
    | 0 => (inferInstance : BI.Storable (upEmb : UEmb _ 𝕄) iprop(tables m d (qTile (Fin.cast nCore_zero c) (Fin.cast nSub_zero i))
        ∗ tileData m d (Fin.cast nCore_zero c) (Fin.cast nSub_zero i) (m (ocLoc d)) (m (osLoc d))))
  td q d c i := match q with
    | 0 => (inferInstance : BI.Storable (upEmb : UEmb _ 𝕄) iprop(tables m d (qTile (Fin.cast nCore_zero c) (Fin.cast nSub_zero i))
        ∗ tileData m d (Fin.cast nCore_zero c) (Fin.cast nSub_zero i) (gC m d) (gS m d)))

end Cert.Proof.KernelIdealC

end
-- ==== Proof.KernelIdealV.lean ====
/-
  The flat gathered result, reshaped, is the specification's lookup.

  The program lays the position words [4, 4096] out flat, row-major, as 16384 words; its flat result [16384, 128]
  holds at row n, lane l, entry l of the table row that word n names; and the result is then reshaped, row-major,
  to [4, 1, 4096, 128]. Entry (b, 0, s, l) of the reshaped array has row-major position
  ((b·1 + 0)·4096 + s)·128 + l, which is position n·128 + l of the flat result for n = b·4096 + s, and n is the
  row-major position of (b, s) among the position words. So the entry is entry l of the row that word (b, s)
  names: the lookup. Pure index arithmetic: both sides name the row through the same total row-number function,
  so nothing is asked of the words.
-/
import proofs.«214905_g59081570125084_cont_9to1c4b_332_26_alg».proof.Proof.KernelIdealC
import Idealize.ShloMosaic.Lib.Pipeline.Value
import Idealize.ShloMosaic.Lib.ValueIdx

namespace Cert.Proof.KernelIdealV

open Idealize.ShloMosaic Idealize.ShloMosaic.ValueIdx Cert.KernelIdeal Cert.KernelIdeal.Gen Cert.Proof.KernelIdealC

variable {F : FTy → Type}

/-- For any table and any position words: gathering by the flat words and reshaping is the lookup. -/
theorem gathered_reshape (tbl : S8192x128.Idx → F .f32) (ids : S4x4096.Idx → BitVec 32)
    (hf : S4x4096.ShapeCasts S16384) (hr : S16384x128.ShapeCasts S4x1x4096x128) :
    shapeCast S4x1x4096x128 (gathered tbl (shapeCast S16384 ids hf)) hr = Cert.Spec.lookup tbl ids := by
  funext j
  have h0 : (j 0).val < 4 := (j 0).isLt
  have h1 : (j 1).val < 1 := (j 1).isLt
  have h2 : (j 2).val < 4096 := (j 2).isLt
  -- the flat position of word (b, s)
  have hn : (j 0).val * 4096 + (j 2).val < 16384 := by omega
  -- the reshape reads the flat result at (n, l)
  rw [shapeCast_apply (gathered tbl (shapeCast S16384 ids hf)) hr j
    (ix2 (n0 := 16384) (n1 := 128) ⟨(j 0).val * 4096 + (j 2).val, hn⟩ (j 3)) (by
      rw [Shape.rowMajor_val_two, Shape.rowMajor_val_four]
      show ((j 0).val * 4096 + (j 2).val) * 128 + (j 3).val
        = (((j 0).val * 1 + (j 1).val) * 4096 + (j 2).val) * 128 + (j 3).val
      omega)]
  -- the flat word n is word (b, s)
  show tbl (ix2 (n0 := 8192) (n1 := 128)
      (Cert.Spec.rowOf (shapeCast S16384 ids hf (ix1 (n := 16384) ⟨(j 0).val * 4096 + (j 2).val, hn⟩))) (j 3))
    = tbl (ix2 (n0 := 8192) (n1 := 128) (Cert.Spec.rowOf (ids (ix2 (n0 := 4) (n1 := 4096) (j 0) (j 2)))) (j 3))
  rw [shapeCast_apply ids hf (ix1 (n := 16384) ⟨(j 0).val * 4096 + (j 2).val, hn⟩) (ix2 (n0 := 4) (n1 := 4096) (j 0) (j 2)) (by
      rw [Shape.rowMajor_val_two, Shape.rowMajor_val_one]
      rfl)]

variable (m : (ℓ : Loc nD τ sig) → Buf (Elt F) ℓ)

/-- The cosine result, reshaped, is the lookup in the cosine table. -/
theorem gC_eq (d : Dev nD) :
    shapeCast S4x1x4096x128 (gC m d) shapeCasts_S16384x128_S4x1x4096x128 = Cert.Spec.lookup (m (cLoc d)) (m (pLoc d)) :=
  gathered_reshape (m (cLoc d)) (m (pLoc d)) shapeCasts_S4x4096_S16384 shapeCasts_S16384x128_S4x1x4096x128

/-- The sine result, reshaped, is the lookup in the sine table. -/
theorem gS_eq (d : Dev nD) :
    shapeCast S4x1x4096x128 (gS m d) shapeCasts_S16384x128_S4x1x4096x128 = Cert.Spec.lookup (m (sLoc d)) (m (pLoc d)) :=
  gathered_reshape (m (sLoc d)) (m (pLoc d)) shapeCasts_S4x4096_S16384 shapeCasts_S16384x128_S4x1x4096x128

end Cert.Proof.KernelIdealV
-- ==== Proof.KernelIdealO.lean ====
import proofs.«214905_g59081570125084_cont_9to1c4b_332_26_alg».proof.Proof.KernelIdealC

noncomputable section

namespace Cert.Proof.KernelIdealO

open Cert.KernelIdeal Cert.KernelIdeal.Gen Cert.Proof.KernelIdealC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## A tile's own storage: fifteen transfer semaphores at zero, two scratch buffers -/

variable (d : Dev nD) (c : Fin τ.nSC) (j : Fin τ.nSub)

/-- A tile's scoped cells are exactly its transfer semaphores. -/
theorem ownCells_V :
    (ownCells (V d c j) : Finset (GSem nD τ sig))
      = (Finset.univ : Finset (DmaSem sig)).map ⟨fun k => ((V d c j, SemLoc.dma k) : GSem nD τ sig), fun a b h => by
          have := congrArg Prod.snd h; simpa using this⟩ := by
  ext g
  rw [mem_ownCells, Finset.mem_map]
  constructor
  · obtain ⟨t, sl⟩ := g
    rintro ⟨ht, hs⟩
    have ht' : t = V d c j := ht
    subst ht'
    cases sl with
    | reg r =>
      have : ∀ r : Sem sig, (SemLoc.reg r : SemLoc sig).isScoped .scVector = false := by decide
      exact absurd (show (SemLoc.reg r : SemLoc sig).isScoped .scVector = true from hs) (by rw [this r]; exact Bool.false_ne_true)
    | dma k => exact ⟨k, Finset.mem_univ _, rfl⟩
  · rintro ⟨k, -, rfl⟩
    have : ∀ k : DmaSem sig, (SemLoc.dma k : SemLoc sig).isScoped .scVector = true := by decide
    exact ⟨rfl, this k⟩

theorem univ_dma : (Finset.univ : Finset (DmaSem sig)) = {0, 1, 2, 3, 4, 5, 6, 7, 8, 9, 10, 11, 12, 13, 14} := by decide

abbrev cell (k : DmaSem sig) : GSem nD τ sig := (V d c j, SemLoc.dma k)

/-- The tile's semaphores at zero, one by one, named as the kernel names them: seven for the fetches, seven for the
    copies out, one for the copy of the position words. -/
theorem ownSems0_V :
    (ownSems0 (V d c j) : sProp 𝕄)
      = iprop(semVal (cell d c j cc0_scratch2.sem) 0 ∗ semVal (cell d c j cc0_scratch3.sem) 0 ∗ semVal (cell d c j cc0_scratch4.sem) 0
          ∗ semVal (cell d c j cc0_scratch5.sem) 0 ∗ semVal (cell d c j cc0_scratch6.sem) 0 ∗ semVal (cell d c j cc0_scratch7.sem) 0
          ∗ semVal (cell d c j cc0_scratch8.sem) 0 ∗ semVal (cell d c j cc0_scratch9.sem) 0 ∗ semVal (cell d c j cc0_scratch10.sem) 0
          ∗ semVal (cell d c j cc0_scratch11.sem) 0 ∗ semVal (cell d c j cc0_scratch12.sem) 0 ∗ semVal (cell d c j cc0_scratch13.sem) 0
          ∗ semVal (cell d c j cc0_scratch14.sem) 0 ∗ semVal (cell d c j cc0_scratch15.sem) 0 ∗ semVal (cell d c j cc0_scoped0.sem) 0) := by
  unfold SparseCore.Cfg.ownSems0
  rw [ownCells_V, BI.bigSep_map, univ_dma]
  iterate 14 rw [SparseCore.bigSep_insert' (by decide)]
  rw [bigSep_singleton]
  rfl

/-- The two scratch buffers are among the tile's own: they are them, at some contents, and the rest. -/
theorem ownBufs_V :
    (ownBufs (V d c j) : sProp 𝕄)
      = iprop((∃ f, (V d c j).loc cc0_scratch0 ↦{fullShare} f) ∗ (∃ f, (V d c j).loc cc0_scratch1 ↦{fullShare} f)
          ∗ bigSep (((ownRefs (τ := τ) (.scVector c j)).erase ((Proc.scVector c j).devRef cc0_scratch0)).erase
              ((Proc.scVector c j).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector c j)
    (b := (Proc.scVector c j).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector c j) (b := (Proc.scVector c j).devRef cc0_scratch1) rfl⟩)]

end Cert.Proof.KernelIdealO

end
-- ==== Proof.KernelIdealS.lean ====
import proofs.«214905_g59081570125084_cont_9to1c4b_332_26_alg».proof.Proof.KernelIdealC

noncomputable section

namespace Cert.Proof.KernelIdealS

open Cert.KernelIdeal Cert.KernelIdeal.Gen Cert.Proof.KernelIdealC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)

/-! ## The index scratch in four slices of 128 words, the buffer scratch in seven slots -/

theorem xinb (k : Fin 4) : ∀ a, (![128 * k.val] : Fin 1 → Nat) a + S128.size a ≤ S512.size a := by revert k; decide
theorem binb (b : Fin 7) : ∀ a, (![b.val, 0, 0] : Fin 3 → Nat) a + S1x128x128.size a ≤ S7x128x128.size a := by revert b; decide

/-- Words 128·k … 128·k + 127 of the tile's position words. -/
abbrev xSl (k : Fin 4) : Memref sig .scVector .vmem S128 .i32 :=
  (xM).slice (Rect.unit (s := S512) ![128 * k.val] S128.size (xinb k)) (fun _ => rfl)
/-- Buffer slot `b`: 128 rows of 128 lanes. -/
abbrev bSl (b : Fin 7) : Memref sig .scVector .vmem S128x128 .f32 :=
  ((bM).slice (Rect.unit (s := S7x128x128) ![b.val, 0, 0] S1x128x128.size (binb b)) (fun _ => rfl)).squeeze S128x128 squeezes_S1x128x128_S128x128

abbrev xSet (k : Fin 4) : Finset S512.Idx := (xSl k).view.set
abbrev bSet (b : Fin 7) : Finset S7x128x128.Idx := (bSl b).view.set

theorem xSet_eq (k : Fin 4) : xSet k = (Rect.unit (s := S512) ![128 * k.val] S128.size (xinb k)).set :=
  View.set_slice_whole _ _
theorem bSet_eq (b : Fin 7) : bSet b = (Rect.unit (s := S7x128x128) ![b.val, 0, 0] S1x128x128.size (binb b)).set := by
  show (((bM).view.slice (Rect.unit (s := S7x128x128) ![b.val, 0, 0] S1x128x128.size (binb b))).reshape S128x128 squeezes_S1x128x128_S128x128.numel_eq).set = _
  rw [View.set_reshape]
  exact View.set_slice_whole _ _

theorem xSets_disjoint : ∀ k ∈ (Finset.univ : Finset (Fin 4)), ∀ k' ∈ (Finset.univ : Finset (Fin 4)), k ≠ k' → Disjoint (xSet k) (xSet k') := by
  intro k _ k' _ h
  rw [xSet_eq, xSet_eq]
  refine Rect.unit_disjoint (0 : Fin 1) ?_
  have := Fin.val_ne_of_ne h
  show 128 * k.val + 128 ≤ 128 * k'.val ∨ 128 * k'.val + 128 ≤ 128 * k.val
  omega
theorem bSets_disjoint : ∀ b ∈ (Finset.univ : Finset (Fin 7)), ∀ b' ∈ (Finset.univ : Finset (Fin 7)), b ≠ b' → Disjoint (bSet b) (bSet b') := by
  intro b _ b' _ h
  rw [bSet_eq, bSet_eq]
  refine Rect.unit_disjoint (0 : Fin 3) ?_
  have := Fin.val_ne_of_ne h
  show b.val + 1 ≤ b'.val ∨ b'.val + 1 ≤ b.val
  omega

theorem xSets_cover : (Finset.univ : Finset (Fin 4)).biUnion xSet = Finset.univ := by
  ext x
  simp only [Finset.mem_biUnion, Finset.mem_univ, true_and, iff_true]
  have hx : (x 0).val < 512 := (x 0).isLt
  refine ⟨⟨(x 0).val / 128, by omega⟩, ?_⟩
  rw [xSet_eq, Rect.mem_set_unit]
  intro a
  match a with
  | ⟨0, _⟩ =>
    show 128 * ((x 0).val / 128) ≤ (x 0).val ∧ (x 0).val < 128 * ((x 0).val / 128) + 128
    omega
theorem bSets_cover : (Finset.univ : Finset (Fin 7)).biUnion bSet = Finset.univ := by
  ext x
  simp only [Finset.mem_biUnion, Finset.mem_univ, true_and, iff_true]
  have h0 : (x 0).val < 7 := (x 0).isLt
  have h1 : (x 1).val < 128 := (x 1).isLt
  have h2 : (x 2).val < 128 := (x 2).isLt
  refine ⟨⟨(x 0).val, h0⟩, ?_⟩
  rw [bSet_eq, Rect.mem_set_unit]
  intro a
  match a with
  | ⟨0, _⟩ => show (x 0).val ≤ (x 0).val ∧ (x 0).val < (x 0).val + 1; omega
  | ⟨1, _⟩ => show 0 ≤ (x 1).val ∧ (x 1).val < 0 + 128; omega
  | ⟨2, _⟩ => show 0 ≤ (x 2).val ∧ (x 2).val < 0 + 128; omega

theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide]
  iterate 3 rw [SparseCore.bigSep_insert' (by decide)]
  rw [bigSep_singleton]
theorem bigSep_fin7 (Φ : Fin 7 → sProp 𝕄) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide]
  iterate 6 rw [SparseCore.bigSep_insert' (by decide)]
  rw [bigSep_singleton]

variable (dd : Dev nD) (tc : Fin τ.nSC) (tj : Fin τ.nSub)

local notation "tt" => (V dd tc tj : Thread nD τ)

/-- The index scratch, held whole, is its four slices. -/
theorem x_split (q : PosShare TreeShare) (f : Buf (Elt F) ((xM).view.loc tt)) :
    ((xM).view.loc tt ↦{q} f : sProp 𝕄)
      = iprop(((xM).view.loc tt ↦[xSet 0]{q} f) ∗ ((xM).view.loc tt ↦[xSet 1]{q} f) ∗ ((xM).view.loc tt ↦[xSet 2]{q} f) ∗ ((xM).view.loc tt ↦[xSet 3]{q} f)) := by
  rw [← bigSep_fin4 (F := F) (fun k => ((xM).view.loc tt ↦[xSet k]{q} f : sProp 𝕄)),
    ← pointsTo_biUnion Finset.univ (ℓ := (xM).view.loc tt) xSet xSets_disjoint, xSets_cover]

/-- The buffer scratch, held whole, is its seven slots. -/
theorem b_split (q : PosShare TreeShare) (f : Buf (Elt F) ((bM).view.loc tt)) :
    ((bM).view.loc tt ↦{q} f : sProp 𝕄)
      = iprop(((bM).view.loc tt ↦[bSet 0]{q} f) ∗ ((bM).view.loc tt ↦[bSet 1]{q} f) ∗ ((bM).view.loc tt ↦[bSet 2]{q} f) ∗ ((bM).view.loc tt ↦[bSet 3]{q} f)
          ∗ ((bM).view.loc tt ↦[bSet 4]{q} f) ∗ ((bM).view.loc tt ↦[bSet 5]{q} f) ∗ ((bM).view.loc tt ↦[bSet 6]{q} f)) := by
  rw [← bigSep_fin7 (F := F) (fun b => ((bM).view.loc tt ↦[bSet b]{q} f : sProp 𝕄)),
    ← pointsTo_biUnion Finset.univ (ℓ := (bM).view.loc tt) bSet bSets_disjoint, bSets_cover]

/-- Seven slots at seven contents are the buffer scratch at some contents. -/
theorem b_join (fs : Fin 7 → Buf (Elt F) ((bM).view.loc tt)) :
    iprop(((bM).view.loc tt ↦[bSet 0]{fullShare} fs 0) ∗ ((bM).view.loc tt ↦[bSet 1]{fullShare} fs 1) ∗ ((bM).view.loc tt ↦[bSet 2]{fullShare} fs 2)
        ∗ ((bM).view.loc tt ↦[bSet 3]{fullShare} fs 3) ∗ ((bM).view.loc tt ↦[bSet 4]{fullShare} fs 4) ∗ ((bM).view.loc tt ↦[bSet 5]{fullShare} fs 5)
        ∗ ((bM).view.loc tt ↦[bSet 6]{fullShare} fs 6))
      ⊢ (iprop(∃ g, (bM).view.loc tt ↦{fullShare} g) : sProp 𝕄) := by
  rw [← bigSep_fin7 (F := F) (fun b => ((bM).view.loc tt ↦[bSet b]{fullShare} fs b : sProp 𝕄))]
  iintro H
  ihave H' := (pointsTo_biUnion_join (ℓ := (bM).view.loc tt) (q := fullShare) (Val := Elt F) Finset.univ bSet fs (fs 0) bSets_disjoint) $$ H
  icases H' with ⟨%g, -, Hg⟩
  rw [bSets_cover]
  iexists g; iexact Hg

/-! ## The fetched lists are in range -/

variable (d : Dev nD) (L : grid0.Coords)

/-- Every flat position word names a table row. -/
theorem flatIds_lt (hpre : PreOK m) (y : S16384.Idx) : (flatIds m d y).toNat < 8192 := by
  unfold flatIds shapeCast
  exact hpre d _

/-- What a fetch reads as its list — a slice of the tile's position words as the first copy landed them — names
    table rows only. -/
theorem hin_of_pre (hpre : PreOK m) (fx : Buf (Elt F) ((xM).view.loc tt)) (pay : S512.Idx → Elt F .i32)
    (hpay : pay = (iRowK L).view.read (Elt F) (flatIds m d)) (k : Fin 4) :
    ∀ x, ((xSl k).view.read (Elt F) (View.write (Elt F) (xM).view fx pay Finset.univ) x).toNat < S8192x128.size gathers_S8192x128_S128x128.axis := by
  subst hpay; intro x
  rw [View.write_whole_univ]
  rw [show ∀ f : S512.Idx → Elt F .i32, (xSl k).view.read (Elt F) f x = f ((xSl k).view.emb x) from fun f => (View.read_apply _ _).trans (cast_eq _ _)]
  rw [show ∀ y, (iRowK L).view.read (Elt F) (flatIds m d) y = flatIds m d ((iRowK L).view.emb y) from fun y => (View.read_apply _ _).trans (cast_eq _ _)]
  exact flatIds_lt m d hpre _

end Cert.Proof.KernelIdealS

end
-- ==== Proof.KernelIdealW.lean ====
/-
  What a tile's copies leave in a block of a flat result: the table gathered by the flat position words.

  A tile first copies its 512 flat position words — flat words off … off + 511, off = 1024·s + 512·c for tile s
  of core c — into its index scratch. A fetch reads slice k of that scratch (words 128·k … 128·k + 127) as its
  list and lands in a buffer slot, at (row a, lane l), the table's entry (row = the list's word a, lane l). A copy
  then writes the slot's 128 × 128 contents over rows off + 128·k … off + 128·k + 127 of the flat result.

  So at row off + 128·k + a, lane l, the flat result holds the table's entry (row = flat word off + 128·k + a,
  lane l): the list's word a IS flat word off + 128·k + a, and, every word being below 8192, the row a word names
  through its value modulo 8192 is the row of its own value. That is the whole-array function 'gathered',
  restricted to the block. The statement is one for the cosine table and result and one for the sine's; nothing
  looks at a table entry, so it holds for every interpretation of the float types.
-/
import proofs.«214905_g59081570125084_cont_9to1c4b_332_26_alg».proof.Proof.KernelIdealS
import Idealize.ShloMosaic.Lib.Writes
import Idealize.ShloMosaic.Lib.SparseCore.Stream

noncomputable section

namespace Cert.Proof.KernelIdealW

open Cert.KernelIdeal Cert.KernelIdeal.Gen Cert.Proof.KernelIdealC Cert.Proof.KernelIdealS
open Idealize.ShloMosaic
open Idealize.ShloMosaic.SparseCore (V)
open Idealize.ShloMosaic.ValueIdx

variable {F : FTy → Type} (m : (ℓ : Loc nD τ sig) → Buf (Elt F) ℓ) (d : Dev nD) (L : grid0.Coords)

/-- The index scratch after the first copy: the tile's 512 flat position words. -/
abbrev landedX (fx : BufTy.Contents (Elt F) (xM).view.ty) : BufTy.Contents (Elt F) (xM).view.ty :=
  View.write (Elt F) (xM).view fx (ReadAs.same.apply (View.read (Elt F) (iRowK L).view (flatIds m d))) Finset.univ

abbrev cSrc : Memref sig .scVector .hbm S8192x128 .f32 :=
  (cM).slice (Rect.unit (s := S8192x128) ![0, 0] S8192x128.size inb_S8192x128_S8192x128_0_0) (fun _ => rfl)
abbrev sSrc : Memref sig .scVector .hbm S8192x128 .f32 :=
  (sM).slice (Rect.unit (s := S8192x128) ![0, 0] S8192x128.size inb_S8192x128_S8192x128_0_0) (fun _ => rfl)

/-! ## A write of a whole shape, read back -/

section Generic
variable {sg : RefSig} {κ : Kind} {sp : Space} {s : Shape} {e : EltTy} {Val : EltTy → Type}

/-- After a list of writes whose last covers the whole shape, the view reads that write's payload. -/
theorem read_writes_whole (v : View sg κ sp s e) (f : v.ty.Contents Val) (w : s.Idx → Val e)
    (rest : List (View.Piece Val s e)) (y : s.Idx) :
    v.read Val (v.writes Val f (⟨Rect.whole s, w⟩ :: rest)) y = w y := by
  have h := View.read_writes_cons_emb v f (Rect.whole s) w rest y
  rwa [Rect.emb_whole_apply] at h

end Generic

/-! ## Where the pieces sit -/

/-- Block `k` of the tile's rows of a flat result, as a rectangle. -/
abbrev blk (k : Fin 4) : Rect S16384x128 :=
  Rect.unit (s := S16384x128) (k0_off2 L (BitVec.ofNat 32 (128 * k.val))) S128x128.size (k0_off2_inb L k)

theorem blk_emb0 (k : Fin 4) (y : S128x128.Idx) :
    ((blk L k).emb y 0).val = 1024 * (L 1).val + 512 * (L 0).val + 128 * k.val + (y 0).val := by
  show (k0_off2 L (BitVec.ofNat 32 (128 * k.val))) 0 + 1 * (y 0).val = _
  rw [k0_off2_eq]
  show 1024 * (L 1).val + 512 * (L 0).val + 128 * k.val + 1 * (y 0).val = _
  omega

theorem blk_emb1 (k : Fin 4) (y : S128x128.Idx) : ((blk L k).emb y 1).val = (y 1).val := by
  show (k0_off2 L (BitVec.ofNat 32 (128 * k.val))) 1 + 1 * (y 1).val = _
  rw [k0_off2_eq]
  show 0 + 1 * (y 1).val = _
  omega

/-- The whole table, sliced at offset zero, sits where it is. -/
theorem tbl_emb (x : S8192x128.Idx) :
    (Rect.unit (s := S8192x128) ![0, 0] S8192x128.size inb_S8192x128_S8192x128_0_0).emb x = x := by
  funext a
  match a with
  | ⟨0, _⟩ => apply Fin.ext; show 0 + 1 * (x 0).val = (x 0).val; omega
  | ⟨1, _⟩ => apply Fin.ext; show 0 + 1 * (x 1).val = (x 1).val; omega

/-! ## The fetched list -/

/-- Word `x` of slice `k` of the landed index scratch is flat position word off + 128·k + x. -/
theorem list_val (k : Fin 4) (fx : BufTy.Contents (Elt F) (xM).view.ty) (x : S128.Idx)
    (hb : 1024 * (L 1).val + 512 * (L 0).val + 128 * k.val + (x 0).val < 16384) :
    (xSl k).view.read (Elt F) (landedX m d L fx) x
      = flatIds m d (ix1 (n := 16384) ⟨1024 * (L 1).val + 512 * (L 0).val + 128 * k.val + (x 0).val, hb⟩) := by
  show (xSl k).view.read (Elt F) (View.write (Elt F) (xM).view fx (View.read (Elt F) (iRowK L).view (flatIds m d)) Finset.univ) x = _
  rw [View.write_whole_univ]
  rw [show ∀ f : S512.Idx → Elt F .i32, (xSl k).view.read (Elt F) f x = f ((xSl k).view.emb x) from fun f => (View.read_apply _ _).trans (cast_eq _ _)]
  rw [show ∀ y, (iRowK L).view.read (Elt F) (flatIds m d) y = flatIds m d ((iRowK L).view.emb y) from fun y => (View.read_apply _ _).trans (cast_eq _ _)]
  refine congrArg (flatIds m d) ?_
  funext a
  match a with
  | ⟨0, _⟩ =>
    apply Fin.ext
    show (k0_off1 L) 0 + 1 * (128 * k.val + 1 * (x 0).val) = _
    rw [k0_off1_eq]
    show 1024 * (L 1).val + 512 * (L 0).val + 1 * (128 * k.val + 1 * (x 0).val) = 1024 * (L 1).val + 512 * (L 0).val + 128 * k.val + (x 0).val
    omega

/-! ## The fetch's payload -/

/-- At (row a, lane l) the fetch lands the table's entry (row = the list's word a, lane l). -/
theorem payload_val (T : S8192x128.Idx → Elt F .f32) (idx : S128.Idx → Elt F .i32)
    (hn : S128.numel = S128x128.size gathers_S8192x128_S128x128.axis')
    (hin : ∀ x, (idx x).toNat < S8192x128.size gathers_S8192x128_S128x128.axis) (y : S128x128.Idx) :
    SparseCore.gatherPayload gathers_S8192x128_S128x128 T (SparseCore.rows idx hn hin) y
      = T (ix2 (n0 := 8192) (n1 := 128) ⟨(idx (ix1 (n := 128) (y 0))).toNat, hin _⟩ (y 1)) := by
  unfold SparseCore.gatherPayload
  refine congrArg T ?_
  have hsymm : S128.rowMajor.symm ((y 0).cast hn.symm) = ix1 (n := 128) (y 0) :=
    (Equiv.symm_apply_eq _).2 (Fin.ext (Shape.rowMajor_val_one (ix1 (n := 128) (y 0))).symm)
  funext a
  match a with
  | ⟨0, _⟩ =>
    apply Fin.ext
    refine (congrArg Fin.val (Shape.Gathers.idx_axis gathers_S8192x128_S128x128 (SparseCore.rows idx hn hin) y)).trans ?_
    show (idx (S128.rowMajor.symm ((y 0).cast hn.symm))).toNat = _
    rw [hsymm]
  | ⟨1, _⟩ =>
    apply Fin.ext
    exact Shape.Gathers.idx_of_ne gathers_S8192x128_S128x128 (SparseCore.rows idx hn hin) y 1 (by decide)

/-! ## The mathematics: a fetched slot, copied out, is the gathered table on the block -/

/-- What a fetch through slice `k` of the landed list puts at (row, lane) `y` of its slot is what the table
    gathered by the flat position words holds at the place of `y` in block `k`: the list's word `y 0` is flat
    word off + 128·k + y 0, it names a row of the table (it is below 8192), and the block's row `y 0` is flat
    row off + 128·k + y 0. -/
theorem fetched_eq (hpre : PreOK m) (T : S8192x128.Idx → Elt F .f32) (k : Fin 4) (fx : BufTy.Contents (Elt F) (xM).view.ty)
    (hn : S128.numel = S128x128.size gathers_S8192x128_S128x128.axis')
    (hin : ∀ x, ((xSl k).view.read (Elt F) (landedX m d L fx) x).toNat < S8192x128.size gathers_S8192x128_S128x128.axis)
    (y : S128x128.Idx) :
    SparseCore.gatherPayload gathers_S8192x128_S128x128 T (SparseCore.rows (View.read (Elt F) (xSl k).view (landedX m d L fx)) hn hin) y
      = gathered T (flatIds m d) ((blk L k).emb y) := by
  have h0 : (L 0).val < 2 := (L 0).isLt
  have h1 : (L 1).val < 16 := (L 1).isLt
  have hk : k.val < 4 := k.isLt
  have hy : (y 0).val < 128 := (y 0).isLt
  rw [payload_val]
  unfold gathered
  refine congrArg T ?_
  have hb : 1024 * (L 1).val + 512 * (L 0).val + 128 * k.val + ((ix1 (n := 128) (y 0)) 0).val < 16384 := by
    show 1024 * (L 1).val + 512 * (L 0).val + 128 * k.val + (y 0).val < 16384
    omega
  have hword : (xSl k).view.read (Elt F) (landedX m d L fx) (ix1 (n := 128) (y 0))
      = flatIds m d (ix1 (n := 16384) ((blk L k).emb y 0)) := by
    rw [list_val m d L k fx _ hb]
    refine congrArg (flatIds m d) (congrArg (ix1 (n := 16384)) (Fin.ext ?_))
    exact (blk_emb0 L k y).symm
  funext a
  match a with
  | ⟨0, _⟩ =>
    apply Fin.ext
    show ((xSl k).view.read (Elt F) (landedX m d L fx) (ix1 (n := 128) (y 0))).toNat
      = (Cert.Spec.rowOf (flatIds m d (ix1 (n := 16384) ((blk L k).emb y 0)))).val
    rw [Cert.Spec.rowOf_val (flatIds_lt m d hpre _), hword]
  | ⟨1, _⟩ =>
    apply Fin.ext
    exact (blk_emb1 L k y).symm

/-! ## The two results -/

/-- Block `k` of the cosine result, after slot `b` fetched through slice `k` of the landed list is copied over it, is the
    cosine table gathered by the flat position words. -/
theorem oc_value (hpre : PreOK m) (k : Fin 4) (b : Fin 7) (fx : BufTy.Contents (Elt F) (xM).view.ty) (fb : BufTy.Contents (Elt F) (bM).view.ty)
    (rest : List (View.Piece (Elt F) S128x128 .f32)) (hn : S128.numel = S128x128.size gathers_S8192x128_S128x128.axis')
    (hin : ∀ x, ((xSl k).view.read (Elt F) (landedX m d L fx) x).toNat < S8192x128.size gathers_S8192x128_S128x128.axis)
    (f0 : BufTy.Contents (Elt F) (ocM).view.ty) :
    ∀ z ∈ (ocB L k).view.set,
      (ocB L k).view.writes (Elt F) f0 [⟨Rect.whole S128x128, ReadAs.same.apply (View.read (Elt F) (bSl b).view
          ((bSl b).view.writes (Elt F) fb (⟨Rect.whole S128x128, SparseCore.gatherPayload gathers_S8192x128_S128x128
            (View.read (Elt F) (cSrc).view (m (cLoc d))) (SparseCore.rows (View.read (Elt F) (xSl k).view (landedX m d L fx)) hn hin)⟩ :: rest)))⟩] z
        = gC m d z := by
  intro z hz
  obtain ⟨y, -, rfl⟩ := Finset.mem_map.mp hz
  -- the block's contents at the place of `y` are what the block's view reads at `y`: the copy's payload there
  have hr := fun g : BufTy.Contents (Elt F) (ocM).view.ty =>
    ((View.read_apply (v := (ocB L k).view) (Val := Elt F) g y).trans (cast_eq _ _)).symm
  refine (hr _).trans ?_
  rw [read_writes_whole]
  -- the copy moves what the slot reads, and the slot reads the fetch's payload
  show View.read (Elt F) (bSl b).view ((bSl b).view.writes (Elt F) fb (⟨Rect.whole S128x128, _⟩ :: rest)) y = _
  rw [read_writes_whole]
  -- the table is read whole
  have htbl : View.read (Elt F) (cSrc).view (m (cLoc d)) = m (cLoc d) :=
    funext fun x => ((View.read_apply _ _).trans (cast_eq _ _)).trans (congrArg (m (cLoc d)) (tbl_emb x))
  rw [htbl]
  exact fetched_eq m d L hpre (m (cLoc d)) k fx hn hin y

/-- The same for the sine table and the sine result. -/
theorem os_value (hpre : PreOK m) (k : Fin 4) (b : Fin 7) (fx : BufTy.Contents (Elt F) (xM).view.ty) (fb : BufTy.Contents (Elt F) (bM).view.ty)
    (rest : List (View.Piece (Elt F) S128x128 .f32)) (hn : S128.numel = S128x128.size gathers_S8192x128_S128x128.axis')
    (hin : ∀ x, ((xSl k).view.read (Elt F) (landedX m d L fx) x).toNat < S8192x128.size gathers_S8192x128_S128x128.axis)
    (f0 : BufTy.Contents (Elt F) (osM).view.ty) :
    ∀ z ∈ (osB L k).view.set,
      (osB L k).view.writes (Elt F) f0 [⟨Rect.whole S128x128, ReadAs.same.apply (View.read (Elt F) (bSl b).view
          ((bSl b).view.writes (Elt F) fb (⟨Rect.whole S128x128, SparseCore.gatherPayload gathers_S8192x128_S128x128
            (View.read (Elt F) (sSrc).view (m (sLoc d))) (SparseCore.rows (View.read (Elt F) (xSl k).view (landedX m d L fx)) hn hin)⟩ :: rest)))⟩] z
        = gS m d z := by
  intro z hz
  obtain ⟨y, -, rfl⟩ := Finset.mem_map.mp hz
  -- the block's contents at the place of `y` are what the block's view reads at `y`: the copy's payload there
  have hr := fun g : BufTy.Contents (Elt F) (osM).view.ty =>
    ((View.read_apply (v := (osB L k).view) (Val := Elt F) g y).trans (cast_eq _ _)).symm
  refine (hr _).trans ?_
  rw [read_writes_whole]
  -- the copy moves what the slot reads, and the slot reads the fetch's payload
  show View.read (Elt F) (bSl b).view ((bSl b).view.writes (Elt F) fb (⟨Rect.whole S128x128, _⟩ :: rest)) y = _
  rw [read_writes_whole]
  -- the table is read whole
  have htbl : View.read (Elt F) (sSrc).view (m (sLoc d)) = m (sLoc d) :=
    funext fun x => ((View.read_apply _ _).trans (cast_eq _ _)).trans (congrArg (m (sLoc d)) (tbl_emb x))
  rw [htbl]
  exact fetched_eq m d L hpre (m (sLoc d)) k fx hn hin y

end Cert.Proof.KernelIdealW

end
-- ==== Proof.KernelIdealB.lean ====
/-
  One tile's task, at a symbolic tile (c, i).

  The tile copies its 512 position words into its own memory and waits. It then keeps up to six row fetches in
  flight: fetch t (t = 0 … 7) reads slice t mod 4 of the position words as its list and lands the 128 named rows
  — of the cosine table for t < 4, of the sine table otherwise — in buffer slot t mod 7, completing on that slot's
  own fetch semaphore. As each fetch completes its slot is copied out to the matching 128 rows of the flat result
  on the slot's own copy semaphore; slot 0 is fetched into a second time (t = 7) only after its first copy out has
  been waited for. So at most one transfer is ever outstanding on a semaphore, no slot is written while a copy is
  reading it, and nothing but the first copy ever writes the position words.

  What makes this go through: the two tables are held at a read share cut into four (four fetches of one table are
  in flight at once), each 128-word slice of the position words at two read shares (it is the list of a cosine and
  of a sine fetch at the same time), the buffer as seven separate slots, each result block on exactly its own rows;
  and every list names table rows only, by the precondition. At the end each result block holds the gathered table
  on its rows (the block-value lemmas), and everything borrowed is put back together.
-/
import proofs.«214905_g59081570125084_cont_9to1c4b_332_26_alg».proof.Proof.KernelIdealC
import proofs.«214905_g59081570125084_cont_9to1c4b_332_26_alg».proof.Proof.KernelIdealO
import proofs.«214905_g59081570125084_cont_9to1c4b_332_26_alg».proof.Proof.KernelIdealS
import proofs.«214905_g59081570125084_cont_9to1c4b_332_26_alg».proof.Proof.KernelIdealW

noncomputable section

namespace Cert.Proof.KernelIdealB

open Cert.KernelIdeal Cert.KernelIdeal.Gen Cert.Proof.KernelIdealC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

open Cert.Proof.KernelIdealO Cert.Proof.KernelIdealS Cert.Proof.KernelIdealW

variable (m : (ℓ : Loc nD τ sig) → Buf (Elt F) ℓ) [FloatOps F]

/-! ## The tile's blocks, spelt as the program's copies name them -/

abbrev ocB0 (L : grid0.Coords) : Memref sig .scVector .hbm S128x128 .f32 := (ocM).slice (Rect.unit (s := S16384x128) (k0_off2 L 0#32) S128x128.size (k0_off2_inb L 0)) (fun _ => rfl)
abbrev ocB1 (L : grid0.Coords) : Memref sig .scVector .hbm S128x128 .f32 := (ocM).slice (Rect.unit (s := S16384x128) (k0_off2 L 128#32) S128x128.size (k0_off2_inb L 1)) (fun _ => rfl)
abbrev ocB2 (L : grid0.Coords) : Memref sig .scVector .hbm S128x128 .f32 := (ocM).slice (Rect.unit (s := S16384x128) (k0_off2 L 256#32) S128x128.size (k0_off2_inb L 2)) (fun _ => rfl)
abbrev ocB3 (L : grid0.Coords) : Memref sig .scVector .hbm S128x128 .f32 := (ocM).slice (Rect.unit (s := S16384x128) (k0_off2 L 384#32) S128x128.size (k0_off2_inb L 3)) (fun _ => rfl)
abbrev osB0 (L : grid0.Coords) : Memref sig .scVector .hbm S128x128 .f32 := (osM).slice (Rect.unit (s := S16384x128) (k0_off2 L 0#32) S128x128.size (k0_off2_inb L 0)) (fun _ => rfl)
abbrev osB1 (L : grid0.Coords) : Memref sig .scVector .hbm S128x128 .f32 := (osM).slice (Rect.unit (s := S16384x128) (k0_off2 L 128#32) S128x128.size (k0_off2_inb L 1)) (fun _ => rfl)
abbrev osB2 (L : grid0.Coords) : Memref sig .scVector .hbm S128x128 .f32 := (osM).slice (Rect.unit (s := S16384x128) (k0_off2 L 256#32) S128x128.size (k0_off2_inb L 2)) (fun _ => rfl)
abbrev osB3 (L : grid0.Coords) : Memref sig .scVector .hbm S128x128 .f32 := (osM).slice (Rect.unit (s := S16384x128) (k0_off2 L 384#32) S128x128.size (k0_off2_inb L 3)) (fun _ => rfl)

/-! ## The scratch slices, spelt as the program's fetches and copies name them -/

abbrev xSl0 : Memref sig .scVector .vmem S128 .i32 := (xM).slice (Rect.unit (s := S512) ![0] S128.size inb_S512_S128_0) (fun _ => rfl)
abbrev xSl1 : Memref sig .scVector .vmem S128 .i32 := (xM).slice (Rect.unit (s := S512) ![128] S128.size inb_S512_S128_128) (fun _ => rfl)
abbrev xSl2 : Memref sig .scVector .vmem S128 .i32 := (xM).slice (Rect.unit (s := S512) ![256] S128.size inb_S512_S128_256) (fun _ => rfl)
abbrev xSl3 : Memref sig .scVector .vmem S128 .i32 := (xM).slice (Rect.unit (s := S512) ![384] S128.size inb_S512_S128_384) (fun _ => rfl)
abbrev bSl0 : Memref sig .scVector .vmem S128x128 .f32 := ((bM).slice (Rect.unit (s := S7x128x128) ![0, 0, 0] S1x128x128.size inb_S7x128x128_S1x128x128_0_0_0) (fun _ => rfl)).squeeze S128x128 squeezes_S1x128x128_S128x128
abbrev bSl1 : Memref sig .scVector .vmem S128x128 .f32 := ((bM).slice (Rect.unit (s := S7x128x128) ![1, 0, 0] S1x128x128.size inb_S7x128x128_S1x128x128_1_0_0) (fun _ => rfl)).squeeze S128x128 squeezes_S1x128x128_S128x128
abbrev bSl2 : Memref sig .scVector .vmem S128x128 .f32 := ((bM).slice (Rect.unit (s := S7x128x128) ![2, 0, 0] S1x128x128.size inb_S7x128x128_S1x128x128_2_0_0) (fun _ => rfl)).squeeze S128x128 squeezes_S1x128x128_S128x128
abbrev bSl3 : Memref sig .scVector .vmem S128x128 .f32 := ((bM).slice (Rect.unit (s := S7x128x128) ![3, 0, 0] S1x128x128.size inb_S7x128x128_S1x128x128_3_0_0) (fun _ => rfl)).squeeze S128x128 squeezes_S1x128x128_S128x128
abbrev bSl4 : Memref sig .scVector .vmem S128x128 .f32 := ((bM).slice (Rect.unit (s := S7x128x128) ![4, 0, 0] S1x128x128.size inb_S7x128x128_S1x128x128_4_0_0) (fun _ => rfl)).squeeze S128x128 squeezes_S1x128x128_S128x128
abbrev bSl5 : Memref sig .scVector .vmem S128x128 .f32 := ((bM).slice (Rect.unit (s := S7x128x128) ![5, 0, 0] S1x128x128.size inb_S7x128x128_S1x128x128_5_0_0) (fun _ => rfl)).squeeze S128x128 squeezes_S1x128x128_S128x128
abbrev bSl6 : Memref sig .scVector .vmem S128x128 .f32 := ((bM).slice (Rect.unit (s := S7x128x128) ![6, 0, 0] S1x128x128.size inb_S7x128x128_S1x128x128_6_0_0) (fun _ => rfl)).squeeze S128x128 squeezes_S1x128x128_S128x128

section Lits
variable (dd : Dev nD) (tc : Fin τ.nSC) (tj : Fin τ.nSub)
local notation "tt" => (V dd tc tj : Thread nD τ)

theorem x_split_lit (q : PosShare TreeShare) (f : Buf (Elt F) ((xM).view.loc tt)) :
    ((xM).view.loc tt ↦{q} f : sProp 𝕄)
      = iprop(((xSl0).view.loc tt ↦[(xSl0).view.set]{q} f) ∗ ((xSl1).view.loc tt ↦[(xSl1).view.set]{q} f)
          ∗ ((xSl2).view.loc tt ↦[(xSl2).view.set]{q} f) ∗ ((xSl3).view.loc tt ↦[(xSl3).view.set]{q} f)) :=
  x_split (F := F) dd tc tj q f

theorem b_split_lit (q : PosShare TreeShare) (f : Buf (Elt F) ((bM).view.loc tt)) :
    ((bM).view.loc tt ↦{q} f : sProp 𝕄)
      = iprop(((bSl0).view.loc tt ↦[(bSl0).view.set]{q} f)
          ∗ ((bSl1).view.loc tt ↦[(bSl1).view.set]{q} f)
          ∗ ((bSl2).view.loc tt ↦[(bSl2).view.set]{q} f)
          ∗ ((bSl3).view.loc tt ↦[(bSl3).view.set]{q} f)
          ∗ ((bSl4).view.loc tt ↦[(bSl4).view.set]{q} f)
          ∗ ((bSl5).view.loc tt ↦[(bSl5).view.set]{q} f)
          ∗ ((bSl6).view.loc tt ↦[(bSl6).view.set]{q} f)) :=
  b_split (F := F) dd tc tj q f

theorem b_join_lit (f0 f1 f2 f3 f4 f5 f6 : Buf (Elt F) ((bM).view.loc tt)) :
    iprop(((bSl0).view.loc tt ↦[(bSl0).view.set]{fullShare} f0)
        ∗ ((bSl1).view.loc tt ↦[(bSl1).view.set]{fullShare} f1)
        ∗ ((bSl2).view.loc tt ↦[(bSl2).view.set]{fullShare} f2)
        ∗ ((bSl3).view.loc tt ↦[(bSl3).view.set]{fullShare} f3)
        ∗ ((bSl4).view.loc tt ↦[(bSl4).view.set]{fullShare} f4)
        ∗ ((bSl5).view.loc tt ↦[(bSl5).view.set]{fullShare} f5)
        ∗ ((bSl6).view.loc tt ↦[(bSl6).view.set]{fullShare} f6))
      ⊢ (iprop(∃ g, (bM).view.loc tt ↦{fullShare} g) : sProp 𝕄) :=
  b_join (F := F) dd tc tj (fun b => match b with | 0 => f0 | 1 => f1 | 2 => f2 | 3 => f3 | 4 => f4 | 5 => f5 | 6 => f6)
end Lits

/-- A recorded wait at no call's index may always be added. -/
theorem sub_insert {W W' : Waits sig (HIx 1)} {p0 : SemLoc sig × HIx 1} (h : ∀ p ∈ W', p ∈ W ∨ p.2 = none) (hp0 : p0.2 = none) :
    ∀ p ∈ insert p0 W', p ∈ W ∨ p.2 = none := by
  intro p hp
  rcases Finset.mem_insert.mp hp with hp | hp
  · exact .inr (hp ▸ hp0)
  · exact h p hp

section Tile

variable (d : Dev nD) (c : Fin 2) (i : Fin 16)

/-- The tile's thread. -/
abbrev th : Thread nD τ := V d (cV (LL c i)) (jV (LL c i))
set_option maxHeartbeats 8000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (tables m d (qTile c i) ∗ tileData m d c i (m (ocLoc d)) (m (osLoc d)))
        ∗ scopedBufs (th d c i) ∗ scopedSems0 (th d c i) ∗ owes (th d c i) O W)
      ⊢ wp frame (wpE (defs₀ (F := F)) 𝒱₀ (th d c i) none) Set.univ
          (cc0_k (LL c i) cM (Memref.isWhole_whole _) sM (Memref.isWhole_whole _) iM (Memref.isWhole_whole _) ocM (Memref.isWhole_whole _) osM (Memref.isWhole_whole _)
            xM (Memref.isWhole_whole _) bM (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scoped0)
          fun _ => iprop((tables m d (qTile c i) ∗ tileData m d c i (gC m d) (gS m d))
            ∗ scopedBufs (th d c i) ∗ scopedSems0 (th d c i)
            ∗ ∃ W', ⌜∀ p ∈ W', p ∈ W ∨ p.2 = none⌝ ∗ owes (th d c i) O W') := by
  simp only [cc0_k_eq_skeleton]; unfold cc0_k_skel
  rw [(K (F := F)).scopedBufs_V hF d (cV (LL c i)) (jV (LL c i)), SparseCore.Cfg.scopedSems0_V (Val := Elt F) d (cV (LL c i)) (jV (LL c i)), ownSems0_V, ownBufs_V]
  unfold tables tileData
  iintro ⟨#Hlv, -, ⟨⟨Hc, Hs⟩, Hi, ⟨Hoc0, Hoc1, Hoc2, Hoc3⟩, ⟨Hos0, Hos1, Hos2, Hos3⟩⟩, ⟨⟨%fx, Hx⟩, ⟨%fb, Hb⟩, Hbufs⟩,
    ⟨Hg0, Hg1, Hg2, Hg3, Hg4, Hg5, Hg6, Hs0, Hs1, Hs2, Hs3, Hs4, Hs5, Hs6, Hsc⟩, HO⟩
  ihave Hmw := (show levAts (K (F := F)).L (K (F := F)).lev ⊢ Transfers.MayWaits (th d c i) (default : HIx 1) O from
    (K (F := F)).mayWaits_none (thr := th d c i) hO) $$ Hlv
  ihave Hi' := (Entails.of_eq (show (iLoc d ↦[iSet (LL c i)]{fullShare} flatIds m d : sProp 𝕄)
      = ((iRowK (LL c i)).view.loc (th d c i) ↦[(iRowK (LL c i)).view.set]{fullShare} flatIds m d) from rfl)) $$ Hi
  ihave Hx' := (Entails.of_eq (show ((th d c i).loc cc0_scratch0 ↦{fullShare} fx : sProp 𝕄) = ((xM).view.loc (th d c i) ↦{fullShare} fx) from rfl)) $$ Hx
  -- the tile's position words: one copy and its wait
  sl_exec
  -- the position words in four slices, each at two read shares: a slice is the list of a cosine and of a sine fetch at once
  ihave Hx4 := (Entails.of_eq (x_split_lit (F := F) d (cV (LL c i)) (jV (LL c i)) fullShare _)) $$ Hx'
  icases Hx4 with ⟨Hx0, Hx1, Hx2, Hx3⟩
  ihave Hx0 := (pointsTo_share (PosShare.mem_left_op_right fullShare)).1 $$ Hx0
  icases Hx0 with ⟨Hx0a, Hx0b⟩
  ihave Hx1 := (pointsTo_share (PosShare.mem_left_op_right fullShare)).1 $$ Hx1
  icases Hx1 with ⟨Hx1a, Hx1b⟩
  ihave Hx2 := (pointsTo_share (PosShare.mem_left_op_right fullShare)).1 $$ Hx2
  icases Hx2 with ⟨Hx2a, Hx2b⟩
  ihave Hx3 := (pointsTo_share (PosShare.mem_left_op_right fullShare)).1 $$ Hx3
  icases Hx3 with ⟨Hx3a, Hx3b⟩
  -- the buffer scratch in its seven slots
  ihave Hb' := (Entails.of_eq (show ((th d c i).loc cc0_scratch1 ↦{fullShare} fb : sProp 𝕄) = ((bM).view.loc (th d c i) ↦{fullShare} fb) from rfl)) $$ Hb
  ihave Hb7 := (Entails.of_eq (b_split_lit (F := F) d (cV (LL c i)) (jV (LL c i)) fullShare _)) $$ Hb'
  icases Hb7 with ⟨Hb0, Hb1, Hb2, Hb3, Hb4, Hb5, Hb6⟩
  -- each table at four read shares and a remainder: four fetches of it are in flight at once
  ihave Hc' := (Entails.of_eq (show (cLoc d ↦{qTile c i} m (cLoc d) : sProp 𝕄) = ((cM).view.loc (th d c i) ↦{qTile c i} m (cLoc d)) from rfl)) $$ Hc
  ihave Hc' := (Transfers.pointsTo_toks_split (qTile c i) 4) $$ Hc'
  icases Hc' with ⟨HcR, HcT⟩
  ihave HcT := (Entails.of_eq (bigSep_fin4 (F := F) _)) $$ HcT
  icases HcT with ⟨Hc0, Hc1, Hc2, Hc3⟩
  ihave Hs' := (Entails.of_eq (show (sLoc d ↦{qTile c i} m (sLoc d) : sProp 𝕄) = ((sM).view.loc (th d c i) ↦{qTile c i} m (sLoc d)) from rfl)) $$ Hs
  ihave Hs' := (Transfers.pointsTo_toks_split (qTile c i) 4) $$ Hs'
  icases Hs' with ⟨HsR, HsT⟩
  ihave HsT := (Entails.of_eq (bigSep_fin4 (F := F) _)) $$ HsT
  icases HsT with ⟨Hs0', Hs1', Hs2', Hs3'⟩
  -- the result blocks, spelt as the copies out name them
  ihave Hoc0 := (Entails.of_eq (show (ocLoc d ↦[ocSet (LL c i) 0]{fullShare} m (ocLoc d) : sProp 𝕄)
      = ((ocB0 (LL c i)).view.loc (th d c i) ↦[(ocB0 (LL c i)).view.set]{fullShare} m (ocLoc d)) from rfl)) $$ Hoc0
  ihave Hos0 := (Entails.of_eq (show (osLoc d ↦[osSet (LL c i) 0]{fullShare} m (osLoc d) : sProp 𝕄)
      = ((osB0 (LL c i)).view.loc (th d c i) ↦[(osB0 (LL c i)).view.set]{fullShare} m (osLoc d)) from rfl)) $$ Hos0
  ihave Hoc1 := (Entails.of_eq (show (ocLoc d ↦[ocSet (LL c i) 1]{fullShare} m (ocLoc d) : sProp 𝕄)
      = ((ocB1 (LL c i)).view.loc (th d c i) ↦[(ocB1 (LL c i)).view.set]{fullShare} m (ocLoc d)) from rfl)) $$ Hoc1
  ihave Hos1 := (Entails.of_eq (show (osLoc d ↦[osSet (LL c i) 1]{fullShare} m (osLoc d) : sProp 𝕄)
      = ((osB1 (LL c i)).view.loc (th d c i) ↦[(osB1 (LL c i)).view.set]{fullShare} m (osLoc d)) from rfl)) $$ Hos1
  ihave Hoc2 := (Entails.of_eq (show (ocLoc d ↦[ocSet (LL c i) 2]{fullShare} m (ocLoc d) : sProp 𝕄)
      = ((ocB2 (LL c i)).view.loc (th d c i) ↦[(ocB2 (LL c i)).view.set]{fullShare} m (ocLoc d)) from rfl)) $$ Hoc2
  ihave Hos2 := (Entails.of_eq (show (osLoc d ↦[osSet (LL c i) 2]{fullShare} m (osLoc d) : sProp 𝕄)
      = ((osB2 (LL c i)).view.loc (th d c i) ↦[(osB2 (LL c i)).view.set]{fullShare} m (osLoc d)) from rfl)) $$ Hos2
  ihave Hoc3 := (Entails.of_eq (show (ocLoc d ↦[ocSet (LL c i) 3]{fullShare} m (ocLoc d) : sProp 𝕄)
      = ((ocB3 (LL c i)).view.loc (th d c i) ↦[(ocB3 (LL c i)).view.set]{fullShare} m (ocLoc d)) from rfl)) $$ Hoc3
  ihave Hos3 := (Entails.of_eq (show (osLoc d ↦[osSet (LL c i) 3]{fullShare} m (osLoc d) : sProp 𝕄)
      = ((osB3 (LL c i)).view.loc (th d c i) ↦[(osB3 (LL c i)).view.set]{fullShare} m (osLoc d)) from rfl)) $$ Hos3
  -- every list a fetch reads names table rows only
  have hin0 : ∀ x, ((xSl0).view.read (Elt F) (View.write (Elt F) (xM).view fx (tile_body.sl.dma0 m d c i) Finset.univ) x).toNat
      < S8192x128.size gathers_S8192x128_S128x128.axis := hin_of_pre m d (cV (LL c i)) (jV (LL c i)) d (LL c i) hpre fx _ rfl 0
  have hin1 : ∀ x, ((xSl1).view.read (Elt F) (View.write (Elt F) (xM).view fx (tile_body.sl.dma0 m d c i) Finset.univ) x).toNat
      < S8192x128.size gathers_S8192x128_S128x128.axis := hin_of_pre m d (cV (LL c i)) (jV (LL c i)) d (LL c i) hpre fx _ rfl 1
  have hin2 : ∀ x, ((xSl2).view.read (Elt F) (View.write (Elt F) (xM).view fx (tile_body.sl.dma0 m d c i) Finset.univ) x).toNat
      < S8192x128.size gathers_S8192x128_S128x128.axis := hin_of_pre m d (cV (LL c i)) (jV (LL c i)) d (LL c i) hpre fx _ rfl 2
  have hin3 : ∀ x, ((xSl3).view.read (Elt F) (View.write (Elt F) (xM).view fx (tile_body.sl.dma0 m d c i) Finset.univ) x).toNat
      < S8192x128.size gathers_S8192x128_S128x128.axis := hin_of_pre m d (cV (LL c i)) (jV (LL c i)) d (LL c i) hpre fx _ rfl 3
  sl_exec
  sl_step
  -- each result block holds the gathered table on its rows
  have e_Hoc0 : (((ocB0 (LL c i)).view.loc (th d c i) ↦[(ocB0 (LL c i)).view.set]{fullShare}
      (ocB0 (LL c i)).view.writes (Elt F) (m (ocLoc d)) [⟨Rect.whole S128x128, tile_body.sl.dma0_1 m d c i fx fb hin0⟩]) : sProp 𝕄)
      = (ocLoc d ↦[ocSet (LL c i) 0]{fullShare} gC m d) :=
    pointsTo_congr (ℓ := ocLoc d) (q := fullShare) (oc_value m d (LL c i) hpre 0 0 fx fb [] rfl hin0 (m (ocLoc d)))
  ihave Hoc0 := (Entails.of_eq e_Hoc0) $$ Hoc0
  have e_Hoc1 : (((ocB1 (LL c i)).view.loc (th d c i) ↦[(ocB1 (LL c i)).view.set]{fullShare}
      (ocB1 (LL c i)).view.writes (Elt F) (m (ocLoc d)) [⟨Rect.whole S128x128, tile_body.sl.dma0_2 m d c i fx fb hin1⟩]) : sProp 𝕄)
      = (ocLoc d ↦[ocSet (LL c i) 1]{fullShare} gC m d) :=
    pointsTo_congr (ℓ := ocLoc d) (q := fullShare) (oc_value m d (LL c i) hpre 1 1 fx fb [] rfl hin1 (m (ocLoc d)))
  ihave Hoc1 := (Entails.of_eq e_Hoc1) $$ Hoc1
  have e_Hoc2 : (((ocB2 (LL c i)).view.loc (th d c i) ↦[(ocB2 (LL c i)).view.set]{fullShare}
      (ocB2 (LL c i)).view.writes (Elt F) (m (ocLoc d)) [⟨Rect.whole S128x128, tile_body.sl.dma0_3 m d c i fx fb hin2⟩]) : sProp 𝕄)
      = (ocLoc d ↦[ocSet (LL c i) 2]{fullShare} gC m d) :=
    pointsTo_congr (ℓ := ocLoc d) (q := fullShare) (oc_value m d (LL c i) hpre 2 2 fx fb [] rfl hin2 (m (ocLoc d)))
  ihave Hoc2 := (Entails.of_eq e_Hoc2) $$ Hoc2
  have e_Hoc3 : (((ocB3 (LL c i)).view.loc (th d c i) ↦[(ocB3 (LL c i)).view.set]{fullShare}
      (ocB3 (LL c i)).view.writes (Elt F) (m (ocLoc d)) [⟨Rect.whole S128x128, tile_body.sl.dma0_4 m d c i fx fb hin3⟩]) : sProp 𝕄)
      = (ocLoc d ↦[ocSet (LL c i) 3]{fullShare} gC m d) :=
    pointsTo_congr (ℓ := ocLoc d) (q := fullShare) (oc_value m d (LL c i) hpre 3 3 fx fb [] rfl hin3 (m (ocLoc d)))
  ihave Hoc3 := (Entails.of_eq e_Hoc3) $$ Hoc3
  have e_Hos0 : (((osB0 (LL c i)).view.loc (th d c i) ↦[(osB0 (LL c i)).view.set]{fullShare}
      (osB0 (LL c i)).view.writes (Elt F) (m (osLoc d)) [⟨Rect.whole S128x128, tile_body.sl.dma0_5 m d c i fx fb hin0⟩]) : sProp 𝕄)
      = (osLoc d ↦[osSet (LL c i) 0]{fullShare} gS m d) :=
    pointsTo_congr (ℓ := osLoc d) (q := fullShare) (os_value m d (LL c i) hpre 0 4 fx fb [] rfl hin0 (m (osLoc d)))
  ihave Hos0 := (Entails.of_eq e_Hos0) $$ Hos0
  have e_Hos1 : (((osB1 (LL c i)).view.loc (th d c i) ↦[(osB1 (LL c i)).view.set]{fullShare}
      (osB1 (LL c i)).view.writes (Elt F) (m (osLoc d)) [⟨Rect.whole S128x128, tile_body.sl.dma0_6 m d c i fx fb hin1⟩]) : sProp 𝕄)
      = (osLoc d ↦[osSet (LL c i) 1]{fullShare} gS m d) :=
    pointsTo_congr (ℓ := osLoc d) (q := fullShare) (os_value m d (LL c i) hpre 1 5 fx fb [] rfl hin1 (m (osLoc d)))
  ihave Hos1 := (Entails.of_eq e_Hos1) $$ Hos1
  have e_Hos2 : (((osB2 (LL c i)).view.loc (th d c i) ↦[(osB2 (LL c i)).view.set]{fullShare}
      (osB2 (LL c i)).view.writes (Elt F) (m (osLoc d)) [⟨Rect.whole S128x128, tile_body.sl.dma0_7 m d c i fx fb hin2⟩]) : sProp 𝕄)
      = (osLoc d ↦[osSet (LL c i) 2]{fullShare} gS m d) :=
    pointsTo_congr (ℓ := osLoc d) (q := fullShare) (os_value m d (LL c i) hpre 2 6 fx fb [] rfl hin2 (m (osLoc d)))
  ihave Hos2 := (Entails.of_eq e_Hos2) $$ Hos2
  have e_Hos3 : (((osB3 (LL c i)).view.loc (th d c i) ↦[(osB3 (LL c i)).view.set]{fullShare}
      (osB3 (LL c i)).view.writes (Elt F) (m (osLoc d)) [⟨Rect.whole S128x128, tile_body.sl.dma0_8 m d c i fx fb hin0 hin3⟩]) : sProp 𝕄)
      = (osLoc d ↦[osSet (LL c i) 3]{fullShare} gS m d) :=
    pointsTo_congr (ℓ := osLoc d) (q := fullShare) (os_value m d (LL c i) hpre 3 0 fx fb [⟨Rect.whole S128x128, tile_body.sl.gather0 m d c i fx hin0⟩] rfl hin3 (m (osLoc d)))
  ihave Hos3 := (Entails.of_eq e_Hos3) $$ Hos3
  -- the table shares, the position words' slices and the buffer slots joined again
  ihave Hc := (Transfers.pointsTo_toks_join (qTile c i) 4) $$ [HcR Hc0 Hc1 Hc2 Hc3]
  · isplitl [HcR]; · iexact HcR
    iapply (Entails.of_eq (bigSep_fin4 (F := F) (fun j => ((cM).view.loc (th d c i) ↦{Transfers.shareTok (qTile c i) 4 j} m (cLoc d) : sProp 𝕄))).symm)
    isplitl [Hc0]; · iexact Hc0
    isplitl [Hc1]; · iexact Hc1
    isplitl [Hc2]; · iexact Hc2
    iexact Hc3
  ihave Hs := (Transfers.pointsTo_toks_join (qTile c i) 4) $$ [HsR Hs0' Hs1' Hs2' Hs3']
  · isplitl [HsR]; · iexact HsR
    iapply (Entails.of_eq (bigSep_fin4 (F := F) (fun j => ((sM).view.loc (th d c i) ↦{Transfers.shareTok (qTile c i) 4 j} m (sLoc d) : sProp 𝕄))).symm)
    isplitl [Hs0']; · iexact Hs0'
    isplitl [Hs1']; · iexact Hs1'
    isplitl [Hs2']; · iexact Hs2'
    iexact Hs3'
  ihave Hx0 := (pointsTo_share (PosShare.mem_left_op_right fullShare)).2 $$ [Hx0a Hx0b]
  · isplitl [Hx0a] <;> iassumption
  ihave Hx1 := (pointsTo_share (PosShare.mem_left_op_right fullShare)).2 $$ [Hx1a Hx1b]
  · isplitl [Hx1a] <;> iassumption
  ihave Hx2 := (pointsTo_share (PosShare.mem_left_op_right fullShare)).2 $$ [Hx2a Hx2b]
  · isplitl [Hx2a] <;> iassumption
  ihave Hx3 := (pointsTo_share (PosShare.mem_left_op_right fullShare)).2 $$ [Hx3a Hx3b]
  · isplitl [Hx3a] <;> iassumption
  ihave Hx := (Entails.of_eq (x_split_lit (F := F) d (cV (LL c i)) (jV (LL c i)) fullShare _).symm) $$ [Hx0 Hx1 Hx2 Hx3]
  · isplitl [Hx0]; · iexact Hx0
    isplitl [Hx1]; · iexact Hx1
    isplitl [Hx2]; · iexact Hx2
    iexact Hx3
  ihave Hb := (b_join_lit (F := F) d (cV (LL c i)) (jV (LL c i)) _ _ _ _ _ _ _) $$ [Hb0 Hb1 Hb2 Hb3 Hb4 Hb5 Hb6]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    iexact Hb6
  isplitl [Hc Hs Hi' Hoc0 Hoc1 Hoc2 Hoc3 Hos0 Hos1 Hos2 Hos3]
  · isplitl [Hc Hs]
    · isplitl [Hc]; · iexact Hc
      iexact Hs
    isplitl [Hi']; · iexact Hi'
    isplitl [Hoc0 Hoc1 Hoc2 Hoc3]
    · isplitl [Hoc0]; · iexact Hoc0
      isplitl [Hoc1]; · iexact Hoc1
      isplitl [Hoc2]; · iexact Hoc2
      iexact Hoc3
    isplitl [Hos0]; · iexact Hos0
    isplitl [Hos1]; · iexact Hos1
    isplitl [Hos2]; · iexact Hos2
    iexact Hos3
  isplitl [Hx Hb Hbufs]
  · isplitl [Hx]; · iexists _; iexact Hx
    isplitl [Hb]; · iexact Hb
    iexact Hbufs
  isplitl [Hg0 Hg1 Hg2 Hg3 Hg4 Hg5 Hg6 Hs0 Hs1 Hs2 Hs3 Hs4 Hs5 Hs6 Hsc]
  · isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact Hsc
  iexists _; isplitr
  swap; · iexact HO
  ipureintro
  exact (sub_insert (sub_insert (sub_insert (sub_insert (sub_insert (sub_insert (sub_insert (sub_insert (sub_insert (sub_insert (sub_insert (sub_insert (sub_insert (sub_insert (sub_insert (sub_insert (sub_insert (fun p hp => .inl hp) rfl) rfl) rfl) rfl) rfl) rfl) rfl) rfl) rfl) rfl) rfl) rfl) rfl) rfl) rfl) rfl) rfl)

end Tile

/-! ## The obligation -/

theorem defs₀_vector (c : Fin τ.nSC) (s : Fin τ.nSub) :
    defs₀ (F := F) (.scVector c s) 0 ()
      = SparseCore.onTile hcore0 hsub0 (fun c s => cc0_k (coordsV c s) cM (Memref.isWhole_whole _) sM (Memref.isWhole_whole _) iM (Memref.isWhole_whole _)
          ocM (Memref.isWhole_whole _) osM (Memref.isWhole_whole _) xM (Memref.isWhole_whole _) bM (Memref.isWhole_whole _)
          cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task: from its shares and pieces to the same with its result blocks at the gathered tables. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (Fin.cast nCore_zero c) (Fin.cast nSub_zero i) hF hpre O W hO).trans (wp_mono frame _ _ fun _ => obl_post)

end Cert.Proof.KernelIdealB

end
-- ==== Proof.KernelIdealLSets.lean ====
/-
  The pieces the tiles are handed, as sets of elements: tile (c, i) owns the 512 flat positions from
  1024·i + 512·c on, and block r of it the 128 rows from 1024·i + 512·c + 128·r on (all 128 lanes). The
  thirty-two position pieces are pairwise disjoint and cover the flat position array; the 128 row blocks are
  pairwise disjoint and cover a flat result. Pure arithmetic on the first coordinate.
-/
import proofs.«214905_g59081570125084_cont_9to1c4b_332_26_alg».proof.Proof.KernelIdealC

noncomputable section

namespace Cert.Proof.KernelIdealL

open Cert.KernelIdeal Cert.KernelIdeal.Gen Cert.Proof.KernelIdealC
open Idealize.ShloMosaic

/-! ## Membership -/

theorem iSet_eq (L : grid0.Coords) :
    iSet L = (Rect.unit (s := S16384) (k0_off1 L) S512.size (k0_off1_inb L)).set := by
  show ((View.whole (main_v0_scv : Ref sig .scVector)).slice _).set = _
  rw [View.set_slice_whole]
theorem ocSet_eq (L : grid0.Coords) (r : Fin 4) :
    ocSet L r = (Rect.unit (s := S16384x128) (k0_off2 L (BitVec.ofNat 32 (128 * r.val))) S128x128.size (k0_off2_inb L r)).set := by
  show ((View.whole (main_v1_0_scv : Ref sig .scVector)).slice _).set = _
  rw [View.set_slice_whole]
theorem osSet_eq (L : grid0.Coords) (r : Fin 4) :
    osSet L r = (Rect.unit (s := S16384x128) (k0_off2 L (BitVec.ofNat 32 (128 * r.val))) S128x128.size (k0_off2_inb L r)).set := by
  show ((View.whole (main_v1_1_scv : Ref sig .scVector)).slice _).set = _
  rw [View.set_slice_whole]

/-- A flat position lies in tile (c, i)'s piece when it is one of the 512 from 1024·i + 512·c on. -/
theorem mem_iSet (c : Fin 2) (i : Fin 16) (x : S16384.Idx) :
    x ∈ iSet (LL c i) ↔ 1024 * i.val + 512 * c.val ≤ (x 0).val ∧ (x 0).val < 1024 * i.val + 512 * c.val + 512 := by
  rw [iSet_eq, Rect.mem_set_unit, k0_off1_eq]
  constructor
  · intro h; exact h 0
  · intro h a
    have : a = 0 := Subsingleton.elim _ _
    subst this; exact h

/-- An element of a flat result lies in block r of tile (c, i) when its row is one of the 128 from
    1024·i + 512·c + 128·r on. -/
theorem mem_ocSet (c : Fin 2) (i : Fin 16) (r : Fin 4) (x : S16384x128.Idx) :
    x ∈ ocSet (LL c i) r ↔ 1024 * i.val + 512 * c.val + 128 * r.val ≤ (x 0).val
      ∧ (x 0).val < 1024 * i.val + 512 * c.val + 128 * r.val + 128 := by
  rw [ocSet_eq, Rect.mem_set_unit, k0_off2_eq]
  constructor
  · intro h; exact h 0
  · intro h a
    match a with
    | 0 => exact h
    | 1 => exact ⟨Nat.zero_le _, by have := (x 1).isLt; simpa using this⟩
theorem osSet_eq_ocSet (L : grid0.Coords) (r : Fin 4) : osSet L r = ocSet L r := by rw [osSet_eq, ocSet_eq]

/-! ## The families: pairwise disjoint, covering -/

/-- The thirty-two position pieces, by (core, tile). -/
def iK (t : Fin 2 × Fin 16) : Finset S16384.Idx := iSet (LL t.1 t.2)
/-- The 128 row blocks of a flat result, by (core, tile, block). -/
def ocK (t : Fin 2 × Fin 16 × Fin 4) : Finset S16384x128.Idx := ocSet (LL t.1 t.2.1) t.2.2
def osK (t : Fin 2 × Fin 16 × Fin 4) : Finset S16384x128.Idx := osSet (LL t.1 t.2.1) t.2.2

theorem osK_eq : osK = ocK := funext fun t => osSet_eq_ocSet _ _

theorem iK_disjoint : ∀ t ∈ (Finset.univ : Finset (Fin 2 × Fin 16)), ∀ t' ∈ (Finset.univ : Finset (Fin 2 × Fin 16)),
    t ≠ t' → Disjoint (iK t) (iK t') := by
  rintro ⟨c, i⟩ - ⟨c', i'⟩ - hne
  rw [Finset.disjoint_left]
  intro x hx hx'
  unfold iK at hx hx'
  rw [mem_iSet] at hx hx'
  dsimp only at hx hx'
  apply hne
  have hc := c.isLt; have hc' := c'.isLt
  have hi : i.val = i'.val := by omega
  have hcc : c.val = c'.val := by omega
  exact Prod.ext (Fin.ext hcc) (Fin.ext hi)

theorem iK_cover : (Finset.univ : Finset (Fin 2 × Fin 16)).biUnion iK = Finset.univ := by
  ext x
  simp only [Finset.mem_biUnion, Finset.mem_univ, true_and, iff_true]
  have hx : (x 0).val < 16384 := (x 0).isLt
  refine ⟨(⟨(x 0).val % 1024 / 512, by omega⟩, ⟨(x 0).val / 1024, by omega⟩), ?_⟩
  unfold iK
  rw [mem_iSet]
  constructor <;> dsimp only <;> omega

theorem ocK_disjoint : ∀ t ∈ (Finset.univ : Finset (Fin 2 × Fin 16 × Fin 4)), ∀ t' ∈ (Finset.univ : Finset (Fin 2 × Fin 16 × Fin 4)),
    t ≠ t' → Disjoint (ocK t) (ocK t') := by
  rintro ⟨c, i, r⟩ - ⟨c', i', r'⟩ - hne
  rw [Finset.disjoint_left]
  intro x hx hx'
  unfold ocK at hx hx'
  rw [mem_ocSet] at hx hx'
  dsimp only at hx hx'
  apply hne
  have hc := c.isLt; have hc' := c'.isLt
  have hr := r.isLt; have hr' := r'.isLt
  have hi : i.val = i'.val := by omega
  have hcc : c.val = c'.val := by omega
  have hrr : r.val = r'.val := by omega
  exact Prod.ext (Fin.ext hcc) (Prod.ext (Fin.ext hi) (Fin.ext hrr))

theorem ocK_cover : (Finset.univ : Finset (Fin 2 × Fin 16 × Fin 4)).biUnion ocK = Finset.univ := by
  ext x
  simp only [Finset.mem_biUnion, Finset.mem_univ, true_and, iff_true]
  have hx : (x 0).val < 16384 := (x 0).isLt
  refine ⟨(⟨(x 0).val % 1024 / 512, by omega⟩, ⟨(x 0).val / 1024, by omega⟩, ⟨(x 0).val % 512 / 128, by omega⟩), ?_⟩
  unfold ocK
  rw [mem_ocSet]
  constructor <;> dsimp only <;> omega

theorem osK_disjoint : ∀ t ∈ (Finset.univ : Finset (Fin 2 × Fin 16 × Fin 4)), ∀ t' ∈ (Finset.univ : Finset (Fin 2 × Fin 16 × Fin 4)),
    t ≠ t' → Disjoint (osK t) (osK t') := by rw [osK_eq]; exact ocK_disjoint
theorem osK_cover : (Finset.univ : Finset (Fin 2 × Fin 16 × Fin 4)).biUnion osK = Finset.univ := by rw [osK_eq]; exact ocK_cover

end Cert.Proof.KernelIdealL

end
-- ==== Proof.KernelIdealLSplit.lean ====
/-
  How the arrays are dealt out and gathered back.

  A table is only read: its whole points-to at a share q is the remainder after n halvings together with n read
  shares, one per reader; so the full share is a remainder and one share per core, and a core's share a remainder and
  one share per tile. The flat position array is the thirty-two tiles' pieces side by side, a flat result the 128 row
  blocks side by side (the pieces are pairwise disjoint and cover the array), at ANY contents: the same equation
  splits the results as launched and joins them as the tiles left them.
-/
import proofs.«214905_g59081570125084_cont_9to1c4b_332_26_alg».proof.Proof.KernelIdealLSets

noncomputable section

namespace Cert.Proof.KernelIdealL

open Cert.KernelIdeal Cert.KernelIdeal.Gen Cert.Proof.KernelIdealC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)

/-! ## Regrouping -/

theorem sep4_swap (A B C D : sProp 𝕄) : iprop((A ∗ B) ∗ (C ∗ D)) = iprop((A ∗ C) ∗ (B ∗ D)) := by
  have h1 : iprop((A ∗ B) ∗ (C ∗ D)) ⊢ iprop((A ∗ C) ∗ (B ∗ D)) := by
    iintro ⟨⟨HA, HB⟩, ⟨HC, HD⟩⟩
    isplitl [HA HC]
    · isplitl [HA] <;> iassumption
    · isplitl [HB] <;> iassumption
  have h2 : iprop((A ∗ C) ∗ (B ∗ D)) ⊢ iprop((A ∗ B) ∗ (C ∗ D)) := by
    iintro ⟨⟨HA, HC⟩, ⟨HB, HD⟩⟩
    isplitl [HA HB]
    · isplitl [HA] <;> iassumption
    · isplitl [HC] <;> iassumption
  exact BI.equiv_iff.mp ⟨h1, h2⟩

theorem sep_assoc_eq (A B C : sProp 𝕄) : iprop((A ∗ B) ∗ C) = iprop(A ∗ B ∗ C) := by
  have h1 : iprop((A ∗ B) ∗ C) ⊢ iprop(A ∗ B ∗ C) := by
    iintro ⟨⟨HA, HB⟩, HC⟩
    isplitl [HA]; · iexact HA
    isplitl [HB] <;> iassumption
  have h2 : iprop(A ∗ B ∗ C) ⊢ iprop((A ∗ B) ∗ C) := by
    iintro ⟨HA, HB, HC⟩
    isplitl [HA HB]
    · isplitl [HA] <;> iassumption
    · iexact HC
  exact BI.equiv_iff.mp ⟨h1, h2⟩

theorem bigSep_fin_four (Φ : Fin 4 → sProp 𝕄) : bigSep Finset.univ Φ = iprop(Φ 0 ∗ Φ 1 ∗ Φ 2 ∗ Φ 3) := by
  rw [show (Finset.univ : Finset (Fin 4)) = {0, 1, 2, 3} from by decide, SparseCore.bigSep_insert' (by decide),
    SparseCore.bigSep_insert' (by decide), SparseCore.bigSep_insert' (by decide), bigSep_singleton]

/-! ## Read shares of the tables -/

/-- The two tables at a share: the remainder after n halvings and n read shares. -/
theorem tables_toks (d : Dev nD) (q : PosShare TreeShare) (n : ℕ) :
    (tables m d q : sProp 𝕄) = iprop(tables m d (Transfers.shareDrop q n) ∗ bigSep Finset.univ fun i : Fin n => tables m d (Transfers.shareTok q n i)) := by
  unfold tables
  have hc : (cLoc d ↦{q} m (cLoc d) : sProp 𝕄) ⊣⊢ _ := Transfers.pointsTo_toks (ℓ := cLoc d) (S := Finset.univ) (f := m (cLoc d)) q n
  have hs : (sLoc d ↦{q} m (sLoc d) : sProp 𝕄) ⊣⊢ _ := Transfers.pointsTo_toks (ℓ := sLoc d) (S := Finset.univ) (f := m (sLoc d)) q n
  rw [bigSep_sep', BI.equiv_iff.mp ⟨hc.1, hc.2⟩, BI.equiv_iff.mp ⟨hs.1, hs.2⟩]
  exact sep4_swap _ _ _ _

/-! ## The flat arrays, piece by piece -/

theorem iPts_split (d : Dev nD) (f : Buf (Elt F) (iLoc d)) :
    (iLoc d ↦{fullShare} f : sProp 𝕄)
      = bigSep Finset.univ fun c : Fin 2 => bigSep Finset.univ fun i : Fin 16 => iLoc d ↦[iSet (LL c i)]{fullShare} f := by
  have h1 : (bigSep Finset.univ fun c : Fin 2 => bigSep Finset.univ fun i : Fin 16 => (iLoc d ↦[iSet (LL c i)]{fullShare} f : sProp 𝕄))
      = bigSep Finset.univ fun t : Fin 2 × Fin 16 => iLoc d ↦[iK t]{fullShare} f :=
    (bigSep_univ_prod (fun t : Fin 2 × Fin 16 => (iLoc d ↦[iK t]{fullShare} f : sProp 𝕄))).symm
  rw [h1, ← pointsTo_biUnion Finset.univ (ℓ := iLoc d) iK iK_disjoint, iK_cover]

theorem ocPts_split (d : Dev nD) (f : Buf (Elt F) (ocLoc d)) :
    (ocLoc d ↦{fullShare} f : sProp 𝕄)
      = bigSep Finset.univ fun c : Fin 2 => bigSep Finset.univ fun i : Fin 16 =>
          iprop((ocLoc d ↦[ocSet (LL c i) 0]{fullShare} f) ∗ (ocLoc d ↦[ocSet (LL c i) 1]{fullShare} f)
            ∗ (ocLoc d ↦[ocSet (LL c i) 2]{fullShare} f) ∗ (ocLoc d ↦[ocSet (LL c i) 3]{fullShare} f)) := by
  have h1 : (bigSep Finset.univ fun c : Fin 2 => bigSep Finset.univ fun i : Fin 16 =>
        (iprop((ocLoc d ↦[ocSet (LL c i) 0]{fullShare} f) ∗ (ocLoc d ↦[ocSet (LL c i) 1]{fullShare} f)
          ∗ (ocLoc d ↦[ocSet (LL c i) 2]{fullShare} f) ∗ (ocLoc d ↦[ocSet (LL c i) 3]{fullShare} f)) : sProp 𝕄))
      = bigSep Finset.univ fun t : Fin 2 × Fin 16 × Fin 4 => ocLoc d ↦[ocK t]{fullShare} f := by
    rw [bigSep_univ_prod]
    refine bigSep_congr fun c _ => ?_
    rw [bigSep_univ_prod]
    refine bigSep_congr fun i _ => ?_
    rw [bigSep_fin_four]; rfl
  rw [h1, ← pointsTo_biUnion Finset.univ (ℓ := ocLoc d) ocK ocK_disjoint, ocK_cover]

theorem osPts_split (d : Dev nD) (f : Buf (Elt F) (osLoc d)) :
    (osLoc d ↦{fullShare} f : sProp 𝕄)
      = bigSep Finset.univ fun c : Fin 2 => bigSep Finset.univ fun i : Fin 16 =>
          iprop((osLoc d ↦[osSet (LL c i) 0]{fullShare} f) ∗ (osLoc d ↦[osSet (LL c i) 1]{fullShare} f)
            ∗ (osLoc d ↦[osSet (LL c i) 2]{fullShare} f) ∗ (osLoc d ↦[osSet (LL c i) 3]{fullShare} f)) := by
  have h1 : (bigSep Finset.univ fun c : Fin 2 => bigSep Finset.univ fun i : Fin 16 =>
        (iprop((osLoc d ↦[osSet (LL c i) 0]{fullShare} f) ∗ (osLoc d ↦[osSet (LL c i) 1]{fullShare} f)
          ∗ (osLoc d ↦[osSet (LL c i) 2]{fullShare} f) ∗ (osLoc d ↦[osSet (LL c i) 3]{fullShare} f)) : sProp 𝕄))
      = bigSep Finset.univ fun t : Fin 2 × Fin 16 × Fin 4 => osLoc d ↦[osK t]{fullShare} f := by
    rw [bigSep_univ_prod]
    refine bigSep_congr fun c _ => ?_
    rw [bigSep_univ_prod]
    refine bigSep_congr fun i _ => ?_
    rw [bigSep_fin_four]; rfl
  rw [h1, ← pointsTo_biUnion Finset.univ (ℓ := osLoc d) osK osK_disjoint, osK_cover]

/-- The position words and the two flat results, whole, are the tiles' pieces. -/
theorem data_split (d : Dev nD) (fc : Buf (Elt F) (ocLoc d)) (fs : Buf (Elt F) (osLoc d)) :
    (iprop((iLoc d ↦{fullShare} flatIds m d) ∗ (ocLoc d ↦{fullShare} fc) ∗ (osLoc d ↦{fullShare} fs)) : sProp 𝕄)
      = bigSep Finset.univ fun c : Fin 2 => bigSep Finset.univ fun i : Fin 16 => tileData m d c i fc fs := by
  rw [iPts_split, ocPts_split, osPts_split]
  simp only [tileData, bigSep_sep']

/-! ## The two handshakes' splits -/

/-- What the TensorCore holds around the call: the full share of each table is a remainder and a share per core. -/
theorem tc_split (d : Dev nD) (fc : Buf (Elt F) (ocLoc d)) (fs : Buf (Elt F) (osLoc d)) :
    (iprop(tables m d fullShare ∗ (iLoc d ↦{fullShare} flatIds m d) ∗ (ocLoc d ↦{fullShare} fc) ∗ (osLoc d ↦{fullShare} fs)) : sProp 𝕄)
      = iprop(tables m d (Transfers.shareDrop fullShare 2)
          ∗ bigSep Finset.univ fun c : Fin 2 => iprop(tables m d (qCore c) ∗ bigSep Finset.univ fun i : Fin 16 => tileData m d c i fc fs)) := by
  rw [data_split, bigSep_sep', tables_toks m d fullShare 2, sep_assoc_eq]

/-- What a core holds around its tiles' tasks: its share of each table is a remainder and a share per tile. -/
theorem core_split (d : Dev nD) (c : Fin 2) (fc : Buf (Elt F) (ocLoc d)) (fs : Buf (Elt F) (osLoc d)) :
    (iprop(tables m d (qCore c) ∗ bigSep Finset.univ fun i : Fin 16 => tileData m d c i fc fs) : sProp 𝕄)
      = iprop(tables m d (Transfers.shareDrop (qCore c) 16)
          ∗ bigSep Finset.univ fun i : Fin 16 => iprop(tables m d (qTile c i) ∗ tileData m d c i fc fs)) := by
  rw [bigSep_sep', tables_toks m d (qCore c) 16, sep_assoc_eq]

end Cert.Proof.KernelIdealL

end
-- ==== Proof.KernelIdealL.lean ====
/-
  The launch. On each device's TensorCore the program lays the [4, 4096] position words out flat, starts the
  gather on the two cores' thirty-two tiles and waits for it, then lays each flat [16384, 128] result out as
  [4, 1, 4096, 128]. Around the call the TensorCore deals each core a read share of the two tables and its sixteen
  tiles' pieces of the flat arrays, and takes them back with every row block holding the gathered table; a core deals
  and gathers its tiles' shares and pieces the same way. Given the tiles' task (a hypothesis here), the whole program
  runs to completion with each result the gathered table in its final layout and the four arguments unchanged.
-/
import proofs.«214905_g59081570125084_cont_9to1c4b_332_26_alg».proof.Proof.KernelIdealLSplit

noncomputable section

namespace Cert.Proof.KernelIdealL

open Cert.KernelIdeal Cert.KernelIdeal.Gen Cert.Proof.KernelIdealC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

/-! ## A core's split of its operands among its tiles -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

variable [FloatOps F]

theorem vecSplit : (K (F := F)).VecSplit' (P m) 0 := by
  intro d c
  show iprop(tables m d (qCore (Fin.cast nCore_zero c))
        ∗ bigSep Finset.univ fun i : Fin 16 => tileData m d (Fin.cast nCore_zero c) i (m (ocLoc d)) (m (osLoc d))) ⊢ |={Set.univ}=> iprop(
      (bigSep Finset.univ fun i : Fin ((K (F := F)).nSub 0) =>
        iprop(tables m d (qTile (Fin.cast nCore_zero c) (Fin.cast nSub_zero i))
          ∗ tileData m d (Fin.cast nCore_zero c) (Fin.cast nSub_zero i) (m (ocLoc d)) (m (osLoc d))))
      ∗ ((bigSep Finset.univ fun i : Fin ((K (F := F)).nSub 0) =>
          iprop(tables m d (qTile (Fin.cast nCore_zero c) (Fin.cast nSub_zero i))
            ∗ tileData m d (Fin.cast nCore_zero c) (Fin.cast nSub_zero i) (gC m d) (gS m d)))
          -∗ iprop(tables m d (qCore (Fin.cast nCore_zero c))
            ∗ bigSep Finset.univ fun i : Fin 16 => tileData m d (Fin.cast nCore_zero c) i (gC m d) (gS m d))))
  rw [bigSep_tasks (F := F) (fun i => iprop(tables m d (qTile (Fin.cast nCore_zero c) i)
        ∗ tileData m d (Fin.cast nCore_zero c) i (m (ocLoc d)) (m (osLoc d)))),
    bigSep_tasks (F := F) (fun i => iprop(tables m d (qTile (Fin.cast nCore_zero c) i)
        ∗ tileData m d (Fin.cast nCore_zero c) i (gC m d) (gS m d))),
    core_split m d (Fin.cast nCore_zero c) (m (ocLoc d)) (m (osLoc d)), core_split m d (Fin.cast nCore_zero c) (gC m d) (gS m d)]
  iintro ⟨Hr, H⟩; imodintro
  isplitl [H]; · iexact H
  iintro H
  isplitl [Hr]; · iexact Hr
  iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- The first argument (never touched) and the two results in their final layout. -/
abbrev a0Loc (d : Dev nD) : Loc nD τ sig := (SparseCore.T d).loc main_arg0
abbrev v2Loc (d : Dev nD) : Loc nD τ sig := (SparseCore.T d).loc main_v2
abbrev v3Loc (d : Dev nD) : Loc nD τ sig := (SparseCore.T d).loc main_v3

abbrev p' : DevRef τ sig := Proc.devRef .tc (main_arg1 : Ref sig .tc)
abbrev i' : DevRef τ sig := Proc.devRef .tc (main_v0 : Ref sig .tc)
abbrev oc' : DevRef τ sig := Proc.devRef .tc (main_v1_0 : Ref sig .tc)
abbrev os' : DevRef τ sig := Proc.devRef .tc (main_v1_1 : Ref sig .tc)
abbrev v2' : DevRef τ sig := Proc.devRef .tc (main_v2 : Ref sig .tc)
abbrev v3' : DevRef τ sig := Proc.devRef .tc (main_v3 : Ref sig .tc)

/-- The three layout changes: the position words flat; each flat result as [4, 1, 4096, 128]. -/
abbrev opI : HloOp τ sig (Elt F) := StableHlo.reshape main_arg1 main_v0 rfl shapeCasts_S4x4096_S16384
abbrev opC : HloOp τ sig (Elt F) := StableHlo.reshape main_v1_0 main_v2 rfl shapeCasts_S16384x128_S4x1x4096x128
abbrev opS : HloOp τ sig (Elt F) := StableHlo.reshape main_v1_1 main_v3 rfl shapeCasts_S16384x128_S4x1x4096x128

/-- The gathered tables in the final layout. -/
abbrev outC (d : Dev nD) : Buf (Elt F) (v2Loc d) := shapeCast S4x1x4096x128 (gC m d) shapeCasts_S16384x128_S4x1x4096x128
abbrev outS (d : Dev nD) : Buf (Elt F) (v3Loc d) := shapeCast S4x1x4096x128 (gS m d) shapeCasts_S16384x128_S4x1x4096x128

omit [FloatOps F] in
theorem unscopedBufs_eq (d : Dev nD) (W : (b : Ref sig .tc) → Buf (Elt F) ((d.tc : Thread nD τ).loc b)) :
    (unscopedBufs d W : sProp 𝕄)
      = iprop((a0Loc d ↦{fullShare} W main_arg0) ∗ (pLoc d ↦{fullShare} W main_arg1) ∗ (cLoc d ↦{fullShare} W main_arg2)
          ∗ (sLoc d ↦{fullShare} W main_arg3) ∗ (iLoc d ↦{fullShare} W main_v0) ∗ (ocLoc d ↦{fullShare} W main_v1_0)
          ∗ (osLoc d ↦{fullShare} W main_v1_1) ∗ (v2Loc d ↦{fullShare} W main_v2) ∗ (v3Loc d ↦{fullShare} W main_v3)) := by
  unfold unscopedBufs
  rw [show (Finset.univ.filter fun b : Ref sig .tc => ¬ b.isScoped)
      = {main_arg0, main_arg1, main_arg2, main_arg3, main_v0, main_v1_0, main_v1_1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
theorem held_I (d : Dev nD) (W : Valuation τ sig (Elt F)) :
    (held (T d) {p', i'} W : sProp 𝕄) = iprop((pLoc d ↦{fullShare} W p') ∗ (iLoc d ↦{fullShare} W i')) := by
  unfold held
  rw [SparseCore.bigSep_insert' (by decide), bigSep_singleton]
omit [FloatOps F] in
theorem held_C (d : Dev nD) (W : Valuation τ sig (Elt F)) :
    (held (T d) {oc', v2'} W : sProp 𝕄) = iprop((ocLoc d ↦{fullShare} W oc') ∗ (v2Loc d ↦{fullShare} W v2')) := by
  unfold held
  rw [SparseCore.bigSep_insert' (by decide), bigSep_singleton]
omit [FloatOps F] in
theorem held_S (d : Dev nD) (W : Valuation τ sig (Elt F)) :
    (held (T d) {os', v3'} W : sProp 𝕄) = iprop((osLoc d ↦{fullShare} W os') ∗ (v3Loc d ↦{fullShare} W v3')) := by
  unfold held
  rw [SparseCore.bigSep_insert' (by decide), bigSep_singleton]

/-- The launch valuation; after the call, a flat result at the gathered table. -/
def V0 (d : Dev nD) : Valuation τ sig (Elt F) := fun b => m (d, b)
def VC (d : Dev nD) : Valuation τ sig (Elt F) := Function.update (V0 m d) oc' (gC m d)
def VS (d : Dev nD) : Valuation τ sig (Elt F) := Function.update (V0 m d) os' (gS m d)

theorem VC_oc (d : Dev nD) : VC m d oc' = gC m d := Function.update_self _ _ _
theorem VC_v2 (d : Dev nD) : VC m d v2' = m (v2Loc d) := Function.update_of_ne (show v2' ≠ oc' by decide) _ _
theorem VS_os (d : Dev nD) : VS m d os' = gS m d := Function.update_self _ _ _
theorem VS_v3 (d : Dev nD) : VS m d v3' = m (v3Loc d) := Function.update_of_ne (show v3' ≠ os' by decide) _ _

/-- The first layout change leaves the position words as given and writes them flat: the kernel's position array. -/
theorem opI_p (d : Dev nD) : (opI (F := F)).result (V0 m d) p' = m (pLoc d) :=
  ((opI (F := F)).result_of_not_mem (V0 m d) (b := p') (show p' ∉ ({i'} : Finset (DevRef τ sig)) by decide)).trans rfl
theorem opI_i (d : Dev nD) : (opI (F := F)).result (V0 m d) i' = flatIds m d :=
  (StableHlo.reshape_result main_arg1 main_v0 rfl shapeCasts_S4x4096_S16384 _ _ (V0 m d)).trans rfl

theorem opC_oc (d : Dev nD) : (opC (F := F)).result (VC m d) oc' = gC m d :=
  ((opC (F := F)).result_of_not_mem (VC m d) (b := oc') (show oc' ∉ ({v2'} : Finset (DevRef τ sig)) by decide)).trans (VC_oc m d)
theorem opC_v2 (d : Dev nD) : (opC (F := F)).result (VC m d) v2' = outC m d := by
  refine (StableHlo.reshape_result main_v1_0 main_v2 rfl shapeCasts_S16384x128_S4x1x4096x128 _ _ (VC m d)).trans ?_
  show (fun i => shapeCast S4x1x4096x128 (VC m d oc') shapeCasts_S16384x128_S4x1x4096x128 i) = _
  rw [VC_oc]; rfl
theorem opS_os (d : Dev nD) : (opS (F := F)).result (VS m d) os' = gS m d :=
  ((opS (F := F)).result_of_not_mem (VS m d) (b := os') (show os' ∉ ({v3'} : Finset (DevRef τ sig)) by decide)).trans (VS_os m d)
theorem opS_v3 (d : Dev nD) : (opS (F := F)).result (VS m d) v3' = outS m d := by
  refine (StableHlo.reshape_result main_v1_1 main_v3 rfl shapeCasts_S16384x128_S4x1x4096x128 _ _ (VS m d)).trans ?_
  show (fun i => shapeCast S4x1x4096x128 (VS m d os') shapeCasts_S16384x128_S4x1x4096x128 i) = _
  rw [VS_os]; rfl

theorem held_I_pre (d : Dev nD) :
    (held (T d) {p', i'} (V0 m d) : sProp 𝕄) = iprop((pLoc d ↦{fullShare} m (pLoc d)) ∗ (iLoc d ↦{fullShare} m (iLoc d))) := by
  rw [held_I]; rfl
theorem held_I_post (d : Dev nD) :
    (held (T d) {p', i'} ((opI (F := F)).result (V0 m d)) : sProp 𝕄)
      = iprop((pLoc d ↦{fullShare} m (pLoc d)) ∗ (iLoc d ↦{fullShare} flatIds m d)) := by
  rw [held_I, opI_p, opI_i]
theorem held_C_pre (d : Dev nD) :
    (held (T d) {oc', v2'} (VC m d) : sProp 𝕄) = iprop((ocLoc d ↦{fullShare} gC m d) ∗ (v2Loc d ↦{fullShare} m (v2Loc d))) := by
  rw [held_C, VC_oc, VC_v2]
theorem held_C_post (d : Dev nD) :
    (held (T d) {oc', v2'} ((opC (F := F)).result (VC m d)) : sProp 𝕄)
      = iprop((ocLoc d ↦{fullShare} gC m d) ∗ (v2Loc d ↦{fullShare} outC m d)) := by
  rw [held_C, opC_oc, opC_v2]
theorem held_S_pre (d : Dev nD) :
    (held (T d) {os', v3'} (VS m d) : sProp 𝕄) = iprop((osLoc d ↦{fullShare} gS m d) ∗ (v3Loc d ↦{fullShare} m (v3Loc d))) := by
  rw [held_S, VS_os, VS_v3]
theorem held_S_post (d : Dev nD) :
    (held (T d) {os', v3'} ((opS (F := F)).result (VS m d)) : sProp 𝕄)
      = iprop((osLoc d ↦{fullShare} gS m d) ∗ (v3Loc d ↦{fullShare} outS m d)) := by
  rw [held_S, opS_os, opS_v3]

theorem hI : (opI (F := F)).bufs ⊆ {p', i'} := show ({p', i'} : Finset (DevRef τ sig)) ⊆ {p', i'} from Finset.Subset.refl _
theorem hC : (opC (F := F)).bufs ⊆ {oc', v2'} := show ({oc', v2'} : Finset (DevRef τ sig)) ⊆ {oc', v2'} from Finset.Subset.refl _
theorem hS : (opS (F := F)).bufs ⊆ {os', v3'} := show ({os', v3'} : Finset (DevRef τ sig)) ⊆ {os', v3'} from Finset.Subset.refl _

/-- What the call takes for the two cores, and what it hands back. -/
theorem st0_eq (d : Dev nD) : (bigSep Finset.univ fun c : Fin ((K (F := F)).nCore 0) => (P m).st 0 d c)
    = bigSep Finset.univ fun c : Fin 2 =>
        iprop(tables m d (qCore c) ∗ bigSep Finset.univ fun i : Fin 16 => tileData m d c i (m (ocLoc d)) (m (osLoc d))) :=
  bigSep_cores (F := F) fun c =>
    iprop(tables m d (qCore c) ∗ bigSep Finset.univ fun i : Fin 16 => tileData m d c i (m (ocLoc d)) (m (osLoc d)))
theorem dn0_eq (d : Dev nD) : (bigSep Finset.univ fun c : Fin ((K (F := F)).nCore 0) => (P m).dn 0 d c)
    = bigSep Finset.univ fun c : Fin 2 =>
        iprop(tables m d (qCore c) ∗ bigSep Finset.univ fun i : Fin 16 => tileData m d c i (gC m d) (gS m d)) :=
  bigSep_cores (F := F) fun c =>
    iprop(tables m d (qCore c) ∗ bigSep Finset.univ fun i : Fin 16 => tileData m d c i (gC m d) (gS m d))

omit [FloatOps F] in
theorem tables_full (d : Dev nD) :
    (tables m d fullShare : sProp 𝕄) = iprop((cLoc d ↦{fullShare} m (cLoc d)) ∗ (sLoc d ↦{fullShare} m (sLoc d))) := rfl

/-- What @main leaves the claim: the two results in their final layout, the four arguments as given. -/
abbrev FIN (d : Dev nD) : sProp 𝕄 :=
  iprop((v2Loc d ↦{fullShare} outC m d) ∗ (v3Loc d ↦{fullShare} outS m d) ∗ (a0Loc d ↦{fullShare} m (a0Loc d))
    ∗ (pLoc d ↦{fullShare} m (pLoc d)) ∗ (cLoc d ↦{fullShare} m (cLoc d)) ∗ (sLoc d ↦{fullShare} m (sLoc d)))

/-- @main on device `d`'s TensorCore: the position words laid out flat; the call, each core dealt a read share of the
    tables and its tiles' pieces and every piece taken back; the two results laid out in their final shape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Hp, Hc, Hs, Hi, Hoc, Hos, Hv2, Hv3⟩, -, -⟩, -⟩
  -- the position words, flat
  iapply (wp_hlo_within 𝒱 (SparseCore.T d) none Set.univ (op := opI) (S := {p', i'}) hI (V := V0 m d)) $$ [Hb Hp Hi]
  · isplitl [Hb]; · iexact Hb
    rw [held_I_pre]
    isplitl [Hp] <;> iassumption
  iintro ⟨Hb, Hheld⟩
  rw [wp_ret]; imodintro
  ihave Hh := (Entails.of_eq (held_I_post (F := F) m d)) $$ Hheld
  icases Hh with ⟨Hp, Hi⟩
  -- the call: the tables' shares and the pieces to the two cores, and back
  ihave Hall := (Entails.of_eq (tc_split m d (m (ocLoc d)) (m (osLoc d)))) $$ [Hc Hs Hi Hoc Hos]
  · rw [tables_full]
    isplitl [Hc Hs]; · isplitl [Hc] <;> iassumption
    isplitl [Hi]; · iexact Hi
    isplitl [Hoc] <;> iassumption
  icases Hall with ⟨Hrem, Hcores⟩
  iapply ((K (F := F)).wp_run (D (F := F)) 𝒱 (EH := EH) (P := P m) κ d 0) $$ [Hst Hcores Hrem Hb Ha0 Hp Hv2 Hv3]
  isplitr; · iexact Hctx
  isplitl [Hst]; · iexact Hst
  isplitl [Hcores]
  · rw [st0_eq]; iexact Hcores
  iintro ⟨Hst, Hdn⟩
  ihave Hdn' := (Entails.of_eq (dn0_eq m d)) $$ Hdn
  ihave Hback := (Entails.of_eq (tc_split m d (gC m d) (gS m d)).symm) $$ [Hrem Hdn']
  · isplitl [Hrem] <;> iassumption
  icases Hback with ⟨Htab, Hi, Hoc, Hos⟩
  ihave Htab' := (Entails.of_eq (tables_full m d)) $$ Htab
  icases Htab' with ⟨Hc, Hs⟩
  -- the first result in its final layout
  iapply (wp_hlo_within 𝒱 (SparseCore.T d) none Set.univ (op := opC) (S := {oc', v2'}) hC (V := VC m d)) $$ [Hb Hoc Hv2]
  · isplitl [Hb]; · iexact Hb
    rw [held_C_pre]
    isplitl [Hoc] <;> iassumption
  iintro ⟨Hb, Hheld⟩
  rw [wp_ret]; imodintro
  ihave Hh := (Entails.of_eq (held_C_post (F := F) m d)) $$ Hheld
  icases Hh with ⟨Hoc, Hv2⟩
  -- the second
  iapply (wp_hlo_within 𝒱 (SparseCore.T d) none Set.univ (op := opS) (S := {os', v3'}) hS (V := VS m d)) $$ [Hb Hos Hv3]
  · isplitl [Hb]; · iexact Hb
    rw [held_S_pre]
    isplitl [Hos] <;> iassumption
  iintro ⟨Hb, Hheld⟩
  ihave Hh := (Entails.of_eq (held_S_post (F := F) m d)) $$ Hheld
  icases Hh with ⟨Hos, Hv3⟩
  rw [wp_ret]; imodintro; imodintro
  isplitl [Hst]; · iexact Hst
  isplitl [Hv2]; · iexact Hv2
  isplitl [Hv3]; · iexact Hv3
  isplitl [Ha0]; · iexact Ha0
  isplitl [Hp]; · iexact Hp
  isplitl [Hc]; · iexact Hc
  iexact Hs

def fq (d : Dev nD) (s' : Phys nD τ sig (Elt F)) : Prop :=
  s'.mem.mem (v2Loc d) = outC m d ∧ s'.mem.mem (v3Loc d) = outS m d ∧ s'.mem.mem (a0Loc d) = m (a0Loc d)
    ∧ s'.mem.mem (pLoc d) = m (pLoc d) ∧ s'.mem.mem (cLoc d) = m (cLoc d) ∧ s'.mem.mem (sLoc d) = m (sLoc d)

set_option maxRecDepth 16384 in
theorem hfin (d : Dev nD) (s' : Phys nD τ sig (Elt F)) : iprop(FIN m d ∗ SI s') ⊢ (⌜fq m d s'⌝ : sProp 𝕄) := by
  iintro ⟨⟨H2, H3, H0, Hp, Hc, Hs⟩, HSI⟩
  ihave H := (persistent_entails_right (SI_pointsTo_agree (st := s') (ℓ := v2Loc d) (I := Finset.univ) (q := fullShare) (f := outC m d))) $$ [HSI H2]
  · isplitl [HSI] <;> iassumption
  icases H with ⟨%h2, HSI, -⟩
  ihave H := (persistent_entails_right (SI_pointsTo_agree (st := s') (ℓ := v3Loc d) (I := Finset.univ) (q := fullShare) (f := outS m d))) $$ [HSI H3]
  · isplitl [HSI] <;> iassumption
  icases H with ⟨%h3, HSI, -⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%hp, HSI, -⟩
  ihave H := (persistent_entails_right (SI_pointsTo_agree (st := s') (ℓ := cLoc d) (I := Finset.univ) (q := fullShare) (f := m (cLoc d)))) $$ [HSI Hc]
  · isplitl [HSI] <;> iassumption
  icases H with ⟨%hc, HSI, -⟩
  ihave H := (SI_pointsTo_agree (st := s') (ℓ := sLoc d) (I := Finset.univ) (q := fullShare) (f := m (sLoc d))) $$ [HSI Hs]
  · isplitl [HSI] <;> iassumption
  icases H with %hs
  ipureintro
  exact ⟨funext fun i => h2 i (Finset.mem_univ i), funext fun i => h3 i (Finset.mem_univ i), funext fun i => h0 i (Finset.mem_univ i),
    funext fun i => hp i (Finset.mem_univ i), funext fun i => hc i (Finset.mem_univ i), funext fun i => hs i (Finset.mem_univ i)⟩

/-! ## The program's run -/

/-- The post: each result is the gathered table laid out [4,1,4096,128]; the four arguments are unchanged. -/
def QC : PUnit × MemSt nD τ sig (Elt F) → Prop := fun r => ∀ c : Dev nD,
    r.2.mem ((SparseCore.T c).loc main_v2) = shapeCast S4x1x4096x128 (gC m c) shapeCasts_S16384x128_S4x1x4096x128
  ∧ r.2.mem ((SparseCore.T c).loc main_v3) = shapeCast S4x1x4096x128 (gS m c) shapeCasts_S16384x128_S4x1x4096x128
  ∧ r.2.mem ((SparseCore.T c).loc main_arg0) = m ((SparseCore.T c).loc main_arg0)
  ∧ r.2.mem ((SparseCore.T c).loc main_arg1) = m ((SparseCore.T c).loc main_arg1)
  ∧ r.2.mem ((SparseCore.T c).loc main_arg2) = m ((SparseCore.T c).loc main_arg2)
  ∧ r.2.mem ((SparseCore.T c).loc main_arg3) = m ((SparseCore.T c).loc main_arg3)

theorem run_main [∀ e, Nonempty (Elt F e)] (hT : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) Cert.Proof.KernelIdealC.facts v₀
    (fun q hq => match q with | 0 => nomatch hq)
    (fun q _ => match q with | 0 => hT)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KernelIdealL

end
-- ==== Proof.KernelC.lean ====
/-
  The gather kernel as its launch sees it: thirty-two tiles (two cores of sixteen), tile (c, s) serving the 512
  flat positions from 1024·s + 512·c on. A tile copies its 512 position words into its own memory, then for each
  of its four blocks of 128 positions fetches the 128 rows those words name, first from the cosine table and then
  from the sine table, into a buffer slot, and copies each slot out to the matching 128 rows of the flat result.

  This module fixes what is handed over at each handshake. The two tables are only read: every tile holds a read
  share of each. The flat position array is cut into the tiles' 512-word pieces, each flat result into the tiles'
  128-row blocks. What a tile hands back is each of its blocks holding, at every row n and lane l, entry l of the
  table row named by position word n: the restriction to the block of ONE whole-array function ('gathered').
-/
import proofs.«214905_g59081570125084_cont_9to1c4b_332_26_alg».proof.Kernel
import proofs.«214905_g59081570125084_cont_9to1c4b_332_26_alg».proof.Proof.Spec
import proofs.«214905_g59081570125084_cont_9to1c4b_332_26_alg».proof.Proof.Gen.Kernel
import proofs.«214905_g59081570125084_cont_9to1c4b_332_26_alg».proof.Proof.Gen.Kernel.Skeleton
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx

noncomputable section

namespace Cert.Proof.KernelC

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

/-- The cosine table, the sine table, the flat position words, the two flat results. -/
abbrev cLoc (d : Dev nD) : Loc nD τ sig := (SparseCore.T d).loc main_arg2
abbrev sLoc (d : Dev nD) : Loc nD τ sig := (SparseCore.T d).loc main_arg3
abbrev iLoc (d : Dev nD) : Loc nD τ sig := (SparseCore.T d).loc main_v0
abbrev ocLoc (d : Dev nD) : Loc nD τ sig := (SparseCore.T d).loc main_v1_0
abbrev osLoc (d : Dev nD) : Loc nD τ sig := (SparseCore.T d).loc main_v1_1
/-- The position words as given, [4, 4096]. -/
abbrev pLoc (d : Dev nD) : Loc nD τ sig := (SparseCore.T d).loc main_arg1

abbrev cM : Memref sig .scVector .hbm S8192x128 .f32 := Memref.whole main_arg2_scv
abbrev sM : Memref sig .scVector .hbm S8192x128 .f32 := Memref.whole main_arg3_scv
abbrev iM : Memref sig .scVector .hbm S16384 .i32 := Memref.whole main_v0_scv
abbrev ocM : Memref sig .scVector .hbm S16384x128 .f32 := Memref.whole main_v1_0_scv
abbrev osM : Memref sig .scVector .hbm S16384x128 .f32 := Memref.whole main_v1_1_scv
/-- A tile's own memory: its 512 position words, its seven buffer slots. -/
abbrev xM : Memref sig .scVector .vmem S512 .i32 := Memref.whole cc0_scratch0
abbrev bM : Memref sig .scVector .vmem S7x128x128 .f32 := Memref.whole cc0_scratch1

/-! ## A tile's coordinates and its pieces, spelt as the program slices them -/

/-- Core `c`, tile `s` as a grid point. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- The tile's 512 position words in the flat array. -/
abbrev iRowK (L : grid0.Coords) : Memref sig .scVector .hbm S512 .i32 :=
  (iM).slice (Rect.unit (s := S16384) (k0_off1 L) S512.size (k0_off1_inb L)) (fun _ => rfl)
/-- Block `r` (128 rows) of the tile's part of a flat result. -/
abbrev ocB (L : grid0.Coords) (r : Fin 4) : Memref sig .scVector .hbm S128x128 .f32 :=
  (ocM).slice (Rect.unit (s := S16384x128) (k0_off2 L (BitVec.ofNat 32 (128 * r.val))) S128x128.size (k0_off2_inb L r)) (fun _ => rfl)
abbrev osB (L : grid0.Coords) (r : Fin 4) : Memref sig .scVector .hbm S128x128 .f32 :=
  (osM).slice (Rect.unit (s := S16384x128) (k0_off2 L (BitVec.ofNat 32 (128 * r.val))) S128x128.size (k0_off2_inb L r)) (fun _ => rfl)

abbrev iSet (L : grid0.Coords) : Finset S16384.Idx := (iRowK L).view.set
abbrev ocSet (L : grid0.Coords) (r : Fin 4) : Finset S16384x128.Idx := (ocB L r).view.set
abbrev osSet (L : grid0.Coords) (r : Fin 4) : Finset S16384x128.Idx := (osB L r).view.set

/-! ## The values -/

/-- The position words as the kernel finds them: the [4, 4096] array laid out flat, row-major. -/
def flatIds (d : Dev nD) : Buf (Elt F) (iLoc d) :=
  shapeCast S16384 (m (pLoc d)) shapeCasts_S4x4096_S16384

/-- A table gathered by the flat position words: row n, lane l is entry l of the table row word n names. -/
def gathered (tbl : S8192x128.Idx → F .f32) (ids : S16384.Idx → BitVec 32) : S16384x128.Idx → F .f32 :=
  fun x => tbl (ix2 (n0 := 8192) (n1 := 128) (Cert.Spec.rowOf (ids (ix1 (n := 16384) (x 0)))) (x 1))

abbrev gC (d : Dev nD) : Buf (Elt F) (ocLoc d) := gathered (m (cLoc d)) (flatIds m d)
abbrev gS (d : Dev nD) : Buf (Elt F) (osLoc d) := gathered (m (sLoc d)) (flatIds m d)

/-- What the proof asks of the launch memory: every position word names a table row. -/
def PreOK : Prop := ∀ d : Dev nD, Cert.Spec.InRange (m (pLoc d))

/-! ## Read shares of a table: per core, then per tile -/

abbrev qCore (c : Fin 2) : PosShare TreeShare := Transfers.shareTok fullShare 2 c
abbrev qTile (c : Fin 2) (i : Fin 16) : PosShare TreeShare := Transfers.shareTok (qCore c) 16 i

/-! ## What the handshakes carry -/

/-- Tile (c, i) as a grid point. -/
abbrev LL (c : Fin 2) (i : Fin 16) : grid0.Coords := coordsV c i

/-- A tile's pieces: its position words, and its four blocks of each flat result at contents `fc`, `fs`. -/
def tileData (d : Dev nD) (c : Fin 2) (i : Fin 16) (fc : Buf (Elt F) (ocLoc d)) (fs : Buf (Elt F) (osLoc d)) : sProp 𝕄 :=
  iprop((iLoc d ↦[iSet (LL c i)]{fullShare} flatIds m d)
    ∗ ((ocLoc d ↦[ocSet (LL c i) 0]{fullShare} fc) ∗ (ocLoc d ↦[ocSet (LL c i) 1]{fullShare} fc)
        ∗ (ocLoc d ↦[ocSet (LL c i) 2]{fullShare} fc) ∗ (ocLoc d ↦[ocSet (LL c i) 3]{fullShare} fc))
    ∗ ((osLoc d ↦[osSet (LL c i) 0]{fullShare} fs) ∗ (osLoc d ↦[osSet (LL c i) 1]{fullShare} fs)
        ∗ (osLoc d ↦[osSet (LL c i) 2]{fullShare} fs) ∗ (osLoc d ↦[osSet (LL c i) 3]{fullShare} fs)))

/-- The two tables at a read share. -/
def tables (d : Dev nD) (q : PosShare TreeShare) : sProp 𝕄 :=
  iprop((cLoc d ↦{q} m (cLoc d)) ∗ (sLoc d ↦{q} m (sLoc d)))

variable [FloatOps F]

/-- The one call: a core takes a read share of each table and its sixteen tiles' pieces, the results as launched; a
    tile takes its own share and pieces; each brings them back, the result blocks at the gathered tables. -/
def P : (K (F := F)).Pay (nD := nD) (Val := Elt F) (Name := ℕ) (U := UU) where
  st := fun q d c => match q with
    | 0 => iprop(tables m d (qCore (Fin.cast nCore_zero c))
        ∗ bigSep Finset.univ fun i : Fin 16 => tileData m d (Fin.cast nCore_zero c) i (m (ocLoc d)) (m (osLoc d)))
  dn := fun q d c => match q with
    | 0 => iprop(tables m d (qCore (Fin.cast nCore_zero c))
        ∗ bigSep Finset.univ fun i : Fin 16 => tileData m d (Fin.cast nCore_zero c) i (gC m d) (gS m d))
  go := fun q d c i => match q with
    | 0 => iprop(tables m d (qTile (Fin.cast nCore_zero c) (Fin.cast nSub_zero i))
        ∗ tileData m d (Fin.cast nCore_zero c) (Fin.cast nSub_zero i) (m (ocLoc d)) (m (osLoc d)))
  td := fun q d c i => match q with
    | 0 => iprop(tables m d (qTile (Fin.cast nCore_zero c) (Fin.cast nSub_zero i))
        ∗ tileData m d (Fin.cast nCore_zero c) (Fin.cast nSub_zero i) (gC m d) (gS m d))
  x := fun _ _ => iprop(emp)

instance tileData_storable (d : Dev nD) (c : Fin 2) (i : Fin 16) (fc : Buf (Elt F) (ocLoc d)) (fs : Buf (Elt F) (osLoc d)) :
    BI.Storable (upEmb : UEmb _ 𝕄) (tileData m d c i fc fs) := by unfold tileData; infer_instance
instance tables_storable (d : Dev nD) (q : PosShare TreeShare) : BI.Storable (upEmb : UEmb _ 𝕄) (tables m d q) := by
  unfold tables; infer_instance

instance P_storable : (P (F := F) m).IsStorable where
  st q d c := match q with
    | 0 => (inferInstance : BI.Storable (upEmb : UEmb _ 𝕄) iprop(tables m d (qCore (Fin.cast nCore_zero c))
        ∗ bigSep Finset.univ fun i : Fin 16 => tileData m d (Fin.cast nCore_zero c) i (m (ocLoc d)) (m (osLoc d))))
  dn q d c := match q with
    | 0 => (inferInstance : BI.Storable (upEmb : UEmb _ 𝕄) iprop(tables m d (qCore (Fin.cast nCore_zero c))
        ∗ bigSep Finset.univ fun i : Fin 16 => tileData m d (Fin.cast nCore_zero c) i (gC m d) (gS m d)))
  go q d c i := match q with
    | 0 => (inferInstance : BI.Storable (upEmb : UEmb _ 𝕄) iprop(tables m d (qTile (Fin.cast nCore_zero c) (Fin.cast nSub_zero i))
        ∗ tileData m d (Fin.cast nCore_zero c) (Fin.cast nSub_zero i) (m (ocLoc d)) (m (osLoc d))))
  td q d c i := match q with
    | 0 => (inferInstance : BI.Storable (upEmb : UEmb _ 𝕄) iprop(tables m d (qTile (Fin.cast nCore_zero c) (Fin.cast nSub_zero i))
        ∗ tileData m d (Fin.cast nCore_zero c) (Fin.cast nSub_zero i) (gC m d) (gS m d)))

end Cert.Proof.KernelC

end
-- ==== Proof.KernelO.lean ====
import proofs.«214905_g59081570125084_cont_9to1c4b_332_26_alg».proof.Proof.KernelC

noncomputable section

namespace Cert.Proof.KernelO

open Cert.Kernel Cert.Kernel.Gen Cert.Proof.KernelC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## A tile's own storage: fifteen transfer semaphores at zero, two scratch buffers -/

variable (d : Dev nD) (c : Fin τ.nSC) (j : Fin τ.nSub)

/-- A tile's scoped cells are exactly its transfer semaphores. -/
theorem ownCells_V :
    (ownCells (V d c j) : Finset (GSem nD τ sig))
      = (Finset.univ : Finset (DmaSem sig)).map ⟨fun k => ((V d c j, SemLoc.dma k) : GSem nD τ sig), fun a b h => by
          have := congrArg Prod.snd h; simpa using this⟩ := by
  ext g
  rw [mem_ownCells, Finset.mem_map]
  constructor
  · obtain ⟨t, sl⟩ := g
    rintro ⟨ht, hs⟩
    have ht' : t = V d c j := ht
    subst ht'
    cases sl with
    | reg r =>
      have : ∀ r : Sem sig, (SemLoc.reg r : SemLoc sig).isScoped .scVector = false := by decide
      exact absurd (show (SemLoc.reg r : SemLoc sig).isScoped .scVector = true from hs) (by rw [this r]; exact Bool.false_ne_true)
    | dma k => exact ⟨k, Finset.mem_univ _, rfl⟩
  · rintro ⟨k, -, rfl⟩
    have : ∀ k : DmaSem sig, (SemLoc.dma k : SemLoc sig).isScoped .scVector = true := by decide
    exact ⟨rfl, this k⟩

theorem univ_dma : (Finset.univ : Finset (DmaSem sig)) = {0, 1, 2, 3, 4, 5, 6, 7, 8, 9, 10, 11, 12, 13, 14} := by decide

abbrev cell (k : DmaSem sig) : GSem nD τ sig := (V d c j, SemLoc.dma k)

/-- The tile's semaphores at zero, one by one, named as the kernel names them: seven for the fetches, seven for the
    copies out, one for the copy of the position words. -/
theorem ownSems0_V :
    (ownSems0 (V d c j) : sProp 𝕄)
      = iprop(semVal (cell d c j cc0_scratch2.sem) 0 ∗ semVal (cell d c j cc0_scratch3.sem) 0 ∗ semVal (cell d c j cc0_scratch4.sem) 0
          ∗ semVal (cell d c j cc0_scratch5.sem) 0 ∗ semVal (cell d c j cc0_scratch6.sem) 0 ∗ semVal (cell d c j cc0_scratch7.sem) 0
          ∗ semVal (cell d c j cc0_scratch8.sem) 0 ∗ semVal (cell d c j cc0_scratch9.sem) 0 ∗ semVal (cell d c j cc0_scratch10.sem) 0
          ∗ semVal (cell d c j cc0_scratch11.sem) 0 ∗ semVal (cell d c j cc0_scratch12.sem) 0 ∗ semVal (cell d c j cc0_scratch13.sem) 0
          ∗ semVal (cell d c j cc0_scratch14.sem) 0 ∗ semVal (cell d c j cc0_scratch15.sem) 0 ∗ semVal (cell d c j cc0_scoped0.sem) 0) := by
  unfold SparseCore.Cfg.ownSems0
  rw [ownCells_V, BI.bigSep_map, univ_dma]
  iterate 14 rw [SparseCore.bigSep_insert' (by decide)]
  rw [bigSep_singleton]
  rfl

/-- The two scratch buffers are among the tile's own: they are them, at some contents, and the rest. -/
theorem ownBufs_V :
    (ownBufs (V d c j) : sProp 𝕄)
      = iprop((∃ f, (V d c j).loc cc0_scratch0 ↦{fullShare} f) ∗ (∃ f, (V d c j).loc cc0_scratch1 ↦{fullShare} f)
          ∗ bigSep (((ownRefs (τ := τ) (.scVector c j)).erase ((Proc.scVector c j).devRef cc0_scratch0)).erase
              ((Proc.scVector c j).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector c j)
    (b := (Proc.scVector c j).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector c j) (b := (Proc.scVector c j).devRef cc0_scratch1) rfl⟩)]

end Cert.Proof.KernelO

end
-- ==== Proof.KernelS.lean ====
import proofs.«214905_g59081570125084_cont_9to1c4b_332_26_alg».proof.Proof.KernelC

noncomputable section

namespace Cert.Proof.KernelS

open Cert.Kernel Cert.Kernel.Gen Cert.Proof.KernelC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)

/-! ## The index scratch in four slices of 128 words, the buffer scratch in seven slots -/

theorem xinb (k : Fin 4) : ∀ a, (![128 * k.val] : Fin 1 → Nat) a + S128.size a ≤ S512.size a := by revert k; decide
theorem binb (b : Fin 7) : ∀ a, (![b.val, 0, 0] : Fin 3 → Nat) a + S1x128x128.size a ≤ S7x128x128.size a := by revert b; decide

/-- Words 128·k … 128·k + 127 of the tile's position words. -/
abbrev xSl (k : Fin 4) : Memref sig .scVector .vmem S128 .i32 :=
  (xM).slice (Rect.unit (s := S512) ![128 * k.val] S128.size (xinb k)) (fun _ => rfl)
/-- Buffer slot `b`: 128 rows of 128 lanes. -/
abbrev bSl (b : Fin 7) : Memref sig .scVector .vmem S128x128 .f32 :=
  ((bM).slice (Rect.unit (s := S7x128x128) ![b.val, 0, 0] S1x128x128.size (binb b)) (fun _ => rfl)).squeeze S128x128 squeezes_S1x128x128_S128x128

abbrev xSet (k : Fin 4) : Finset S512.Idx := (xSl k).view.set
abbrev bSet (b : Fin 7) : Finset S7x128x128.Idx := (bSl b).view.set

theorem xSet_eq (k : Fin 4) : xSet k = (Rect.unit (s := S512) ![128 * k.val] S128.size (xinb k)).set :=
  View.set_slice_whole _ _
theorem bSet_eq (b : Fin 7) : bSet b = (Rect.unit (s := S7x128x128) ![b.val, 0, 0] S1x128x128.size (binb b)).set := by
  show (((bM).view.slice (Rect.unit (s := S7x128x128) ![b.val, 0, 0] S1x128x128.size (binb b))).reshape S128x128 squeezes_S1x128x128_S128x128.numel_eq).set = _
  rw [View.set_reshape]
  exact View.set_slice_whole _ _

theorem xSets_disjoint : ∀ k ∈ (Finset.univ : Finset (Fin 4)), ∀ k' ∈ (Finset.univ : Finset (Fin 4)), k ≠ k' → Disjoint (xSet k) (xSet k') := by
  intro k _ k' _ h
  rw [xSet_eq, xSet_eq]
  refine Rect.unit_disjoint (0 : Fin 1) ?_
  have := Fin.val_ne_of_ne h
  show 128 * k.val + 128 ≤ 128 * k'.val ∨ 128 * k'.val + 128 ≤ 128 * k.val
  omega
theorem bSets_disjoint : ∀ b ∈ (Finset.univ : Finset (Fin 7)), ∀ b' ∈ (Finset.univ : Finset (Fin 7)), b ≠ b' → Disjoint (bSet b) (bSet b') := by
  intro b _ b' _ h
  rw [bSet_eq, bSet_eq]
  refine Rect.unit_disjoint (0 : Fin 3) ?_
  have := Fin.val_ne_of_ne h
  show b.val + 1 ≤ b'.val ∨ b'.val + 1 ≤ b.val
  omega

theorem xSets_cover : (Finset.univ : Finset (Fin 4)).biUnion xSet = Finset.univ := by
  ext x
  simp only [Finset.mem_biUnion, Finset.mem_univ, true_and, iff_true]
  have hx : (x 0).val < 512 := (x 0).isLt
  refine ⟨⟨(x 0).val / 128, by omega⟩, ?_⟩
  rw [xSet_eq, Rect.mem_set_unit]
  intro a
  match a with
  | ⟨0, _⟩ =>
    show 128 * ((x 0).val / 128) ≤ (x 0).val ∧ (x 0).val < 128 * ((x 0).val / 128) + 128
    omega
theorem bSets_cover : (Finset.univ : Finset (Fin 7)).biUnion bSet = Finset.univ := by
  ext x
  simp only [Finset.mem_biUnion, Finset.mem_univ, true_and, iff_true]
  have h0 : (x 0).val < 7 := (x 0).isLt
  have h1 : (x 1).val < 128 := (x 1).isLt
  have h2 : (x 2).val < 128 := (x 2).isLt
  refine ⟨⟨(x 0).val, h0⟩, ?_⟩
  rw [bSet_eq, Rect.mem_set_unit]
  intro a
  match a with
  | ⟨0, _⟩ => show (x 0).val ≤ (x 0).val ∧ (x 0).val < (x 0).val + 1; omega
  | ⟨1, _⟩ => show 0 ≤ (x 1).val ∧ (x 1).val < 0 + 128; omega
  | ⟨2, _⟩ => show 0 ≤ (x 2).val ∧ (x 2).val < 0 + 128; omega

theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide]
  iterate 3 rw [SparseCore.bigSep_insert' (by decide)]
  rw [bigSep_singleton]
theorem bigSep_fin7 (Φ : Fin 7 → sProp 𝕄) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide]
  iterate 6 rw [SparseCore.bigSep_insert' (by decide)]
  rw [bigSep_singleton]

variable (dd : Dev nD) (tc : Fin τ.nSC) (tj : Fin τ.nSub)

local notation "tt" => (V dd tc tj : Thread nD τ)

/-- The index scratch, held whole, is its four slices. -/
theorem x_split (q : PosShare TreeShare) (f : Buf (Elt F) ((xM).view.loc tt)) :
    ((xM).view.loc tt ↦{q} f : sProp 𝕄)
      = iprop(((xM).view.loc tt ↦[xSet 0]{q} f) ∗ ((xM).view.loc tt ↦[xSet 1]{q} f) ∗ ((xM).view.loc tt ↦[xSet 2]{q} f) ∗ ((xM).view.loc tt ↦[xSet 3]{q} f)) := by
  rw [← bigSep_fin4 (F := F) (fun k => ((xM).view.loc tt ↦[xSet k]{q} f : sProp 𝕄)),
    ← pointsTo_biUnion Finset.univ (ℓ := (xM).view.loc tt) xSet xSets_disjoint, xSets_cover]

/-- The buffer scratch, held whole, is its seven slots. -/
theorem b_split (q : PosShare TreeShare) (f : Buf (Elt F) ((bM).view.loc tt)) :
    ((bM).view.loc tt ↦{q} f : sProp 𝕄)
      = iprop(((bM).view.loc tt ↦[bSet 0]{q} f) ∗ ((bM).view.loc tt ↦[bSet 1]{q} f) ∗ ((bM).view.loc tt ↦[bSet 2]{q} f) ∗ ((bM).view.loc tt ↦[bSet 3]{q} f)
          ∗ ((bM).view.loc tt ↦[bSet 4]{q} f) ∗ ((bM).view.loc tt ↦[bSet 5]{q} f) ∗ ((bM).view.loc tt ↦[bSet 6]{q} f)) := by
  rw [← bigSep_fin7 (F := F) (fun b => ((bM).view.loc tt ↦[bSet b]{q} f : sProp 𝕄)),
    ← pointsTo_biUnion Finset.univ (ℓ := (bM).view.loc tt) bSet bSets_disjoint, bSets_cover]

/-- Seven slots at seven contents are the buffer scratch at some contents. -/
theorem b_join (fs : Fin 7 → Buf (Elt F) ((bM).view.loc tt)) :
    iprop(((bM).view.loc tt ↦[bSet 0]{fullShare} fs 0) ∗ ((bM).view.loc tt ↦[bSet 1]{fullShare} fs 1) ∗ ((bM).view.loc tt ↦[bSet 2]{fullShare} fs 2)
        ∗ ((bM).view.loc tt ↦[bSet 3]{fullShare} fs 3) ∗ ((bM).view.loc tt ↦[bSet 4]{fullShare} fs 4) ∗ ((bM).view.loc tt ↦[bSet 5]{fullShare} fs 5)
        ∗ ((bM).view.loc tt ↦[bSet 6]{fullShare} fs 6))
      ⊢ (iprop(∃ g, (bM).view.loc tt ↦{fullShare} g) : sProp 𝕄) := by
  rw [← bigSep_fin7 (F := F) (fun b => ((bM).view.loc tt ↦[bSet b]{fullShare} fs b : sProp 𝕄))]
  iintro H
  ihave H' := (pointsTo_biUnion_join (ℓ := (bM).view.loc tt) (q := fullShare) (Val := Elt F) Finset.univ bSet fs (fs 0) bSets_disjoint) $$ H
  icases H' with ⟨%g, -, Hg⟩
  rw [bSets_cover]
  iexists g; iexact Hg

/-! ## The fetched lists are in range -/

variable (d : Dev nD) (L : grid0.Coords)

/-- Every flat position word names a table row. -/
theorem flatIds_lt (hpre : PreOK m) (y : S16384.Idx) : (flatIds m d y).toNat < 8192 := by
  unfold flatIds shapeCast
  exact hpre d _

/-- What a fetch reads as its list — a slice of the tile's position words as the first copy landed them — names
    table rows only. -/
theorem hin_of_pre (hpre : PreOK m) (fx : Buf (Elt F) ((xM).view.loc tt)) (pay : S512.Idx → Elt F .i32)
    (hpay : pay = (iRowK L).view.read (Elt F) (flatIds m d)) (k : Fin 4) :
    ∀ x, ((xSl k).view.read (Elt F) (View.write (Elt F) (xM).view fx pay Finset.univ) x).toNat < S8192x128.size gathers_S8192x128_S128x128.axis := by
  subst hpay; intro x
  rw [View.write_whole_univ]
  rw [show ∀ f : S512.Idx → Elt F .i32, (xSl k).view.read (Elt F) f x = f ((xSl k).view.emb x) from fun f => (View.read_apply _ _).trans (cast_eq _ _)]
  rw [show ∀ y, (iRowK L).view.read (Elt F) (flatIds m d) y = flatIds m d ((iRowK L).view.emb y) from fun y => (View.read_apply _ _).trans (cast_eq _ _)]
  exact flatIds_lt m d hpre _

end Cert.Proof.KernelS

end
-- ==== Proof.KernelW.lean ====
/-
  What a tile's copies leave in a block of a flat result: the table gathered by the flat position words.

  A tile first copies its 512 flat position words — flat words off … off + 511, off = 1024·s + 512·c for tile s
  of core c — into its index scratch. A fetch reads slice k of that scratch (words 128·k … 128·k + 127) as its
  list and lands in a buffer slot, at (row a, lane l), the table's entry (row = the list's word a, lane l). A copy
  then writes the slot's 128 × 128 contents over rows off + 128·k … off + 128·k + 127 of the flat result.

  So at row off + 128·k + a, lane l, the flat result holds the table's entry (row = flat word off + 128·k + a,
  lane l): the list's word a IS flat word off + 128·k + a, and, every word being below 8192, the row a word names
  through its value modulo 8192 is the row of its own value. That is the whole-array function 'gathered',
  restricted to the block. The statement is one for the cosine table and result and one for the sine's; nothing
  looks at a table entry, so it holds for every interpretation of the float types.
-/
import proofs.«214905_g59081570125084_cont_9to1c4b_332_26_alg».proof.Proof.KernelS
import Idealize.ShloMosaic.Lib.Writes
import Idealize.ShloMosaic.Lib.SparseCore.Stream

noncomputable section

namespace Cert.Proof.KernelW

open Cert.Kernel Cert.Kernel.Gen Cert.Proof.KernelC Cert.Proof.KernelS
open Idealize.ShloMosaic
open Idealize.ShloMosaic.SparseCore (V)
open Idealize.ShloMosaic.ValueIdx

variable {F : FTy → Type} (m : (ℓ : Loc nD τ sig) → Buf (Elt F) ℓ) (d : Dev nD) (L : grid0.Coords)

/-- The index scratch after the first copy: the tile's 512 flat position words. -/
abbrev landedX (fx : BufTy.Contents (Elt F) (xM).view.ty) : BufTy.Contents (Elt F) (xM).view.ty :=
  View.write (Elt F) (xM).view fx (ReadAs.same.apply (View.read (Elt F) (iRowK L).view (flatIds m d))) Finset.univ

abbrev cSrc : Memref sig .scVector .hbm S8192x128 .f32 :=
  (cM).slice (Rect.unit (s := S8192x128) ![0, 0] S8192x128.size inb_S8192x128_S8192x128_0_0) (fun _ => rfl)
abbrev sSrc : Memref sig .scVector .hbm S8192x128 .f32 :=
  (sM).slice (Rect.unit (s := S8192x128) ![0, 0] S8192x128.size inb_S8192x128_S8192x128_0_0) (fun _ => rfl)

/-! ## A write of a whole shape, read back -/

section Generic
variable {sg : RefSig} {κ : Kind} {sp : Space} {s : Shape} {e : EltTy} {Val : EltTy → Type}

/-- After a list of writes whose last covers the whole shape, the view reads that write's payload. -/
theorem read_writes_whole (v : View sg κ sp s e) (f : v.ty.Contents Val) (w : s.Idx → Val e)
    (rest : List (View.Piece Val s e)) (y : s.Idx) :
    v.read Val (v.writes Val f (⟨Rect.whole s, w⟩ :: rest)) y = w y := by
  have h := View.read_writes_cons_emb v f (Rect.whole s) w rest y
  rwa [Rect.emb_whole_apply] at h

end Generic

/-! ## Where the pieces sit -/

/-- Block `k` of the tile's rows of a flat result, as a rectangle. -/
abbrev blk (k : Fin 4) : Rect S16384x128 :=
  Rect.unit (s := S16384x128) (k0_off2 L (BitVec.ofNat 32 (128 * k.val))) S128x128.size (k0_off2_inb L k)

theorem blk_emb0 (k : Fin 4) (y : S128x128.Idx) :
    ((blk L k).emb y 0).val = 1024 * (L 1).val + 512 * (L 0).val + 128 * k.val + (y 0).val := by
  show (k0_off2 L (BitVec.ofNat 32 (128 * k.val))) 0 + 1 * (y 0).val = _
  rw [k0_off2_eq]
  show 1024 * (L 1).val + 512 * (L 0).val + 128 * k.val + 1 * (y 0).val = _
  omega

theorem blk_emb1 (k : Fin 4) (y : S128x128.Idx) : ((blk L k).emb y 1).val = (y 1).val := by
  show (k0_off2 L (BitVec.ofNat 32 (128 * k.val))) 1 + 1 * (y 1).val = _
  rw [k0_off2_eq]
  show 0 + 1 * (y 1).val = _
  omega

/-- The whole table, sliced at offset zero, sits where it is. -/
theorem tbl_emb (x : S8192x128.Idx) :
    (Rect.unit (s := S8192x128) ![0, 0] S8192x128.size inb_S8192x128_S8192x128_0_0).emb x = x := by
  funext a
  match a with
  | ⟨0, _⟩ => apply Fin.ext; show 0 + 1 * (x 0).val = (x 0).val; omega
  | ⟨1, _⟩ => apply Fin.ext; show 0 + 1 * (x 1).val = (x 1).val; omega

/-! ## The fetched list -/

/-- Word `x` of slice `k` of the landed index scratch is flat position word off + 128·k + x. -/
theorem list_val (k : Fin 4) (fx : BufTy.Contents (Elt F) (xM).view.ty) (x : S128.Idx)
    (hb : 1024 * (L 1).val + 512 * (L 0).val + 128 * k.val + (x 0).val < 16384) :
    (xSl k).view.read (Elt F) (landedX m d L fx) x
      = flatIds m d (ix1 (n := 16384) ⟨1024 * (L 1).val + 512 * (L 0).val + 128 * k.val + (x 0).val, hb⟩) := by
  show (xSl k).view.read (Elt F) (View.write (Elt F) (xM).view fx (View.read (Elt F) (iRowK L).view (flatIds m d)) Finset.univ) x = _
  rw [View.write_whole_univ]
  rw [show ∀ f : S512.Idx → Elt F .i32, (xSl k).view.read (Elt F) f x = f ((xSl k).view.emb x) from fun f => (View.read_apply _ _).trans (cast_eq _ _)]
  rw [show ∀ y, (iRowK L).view.read (Elt F) (flatIds m d) y = flatIds m d ((iRowK L).view.emb y) from fun y => (View.read_apply _ _).trans (cast_eq _ _)]
  refine congrArg (flatIds m d) ?_
  funext a
  match a with
  | ⟨0, _⟩ =>
    apply Fin.ext
    show (k0_off1 L) 0 + 1 * (128 * k.val + 1 * (x 0).val) = _
    rw [k0_off1_eq]
    show 1024 * (L 1).val + 512 * (L 0).val + 1 * (128 * k.val + 1 * (x 0).val) = 1024 * (L 1).val + 512 * (L 0).val + 128 * k.val + (x 0).val
    omega

/-! ## The fetch's payload -/

/-- At (row a, lane l) the fetch lands the table's entry (row = the list's word a, lane l). -/
theorem payload_val (T : S8192x128.Idx → Elt F .f32) (idx : S128.Idx → Elt F .i32)
    (hn : S128.numel = S128x128.size gathers_S8192x128_S128x128.axis')
    (hin : ∀ x, (idx x).toNat < S8192x128.size gathers_S8192x128_S128x128.axis) (y : S128x128.Idx) :
    SparseCore.gatherPayload gathers_S8192x128_S128x128 T (SparseCore.rows idx hn hin) y
      = T (ix2 (n0 := 8192) (n1 := 128) ⟨(idx (ix1 (n := 128) (y 0))).toNat, hin _⟩ (y 1)) := by
  unfold SparseCore.gatherPayload
  refine congrArg T ?_
  have hsymm : S128.rowMajor.symm ((y 0).cast hn.symm) = ix1 (n := 128) (y 0) :=
    (Equiv.symm_apply_eq _).2 (Fin.ext (Shape.rowMajor_val_one (ix1 (n := 128) (y 0))).symm)
  funext a
  match a with
  | ⟨0, _⟩ =>
    apply Fin.ext
    refine (congrArg Fin.val (Shape.Gathers.idx_axis gathers_S8192x128_S128x128 (SparseCore.rows idx hn hin) y)).trans ?_
    show (idx (S128.rowMajor.symm ((y 0).cast hn.symm))).toNat = _
    rw [hsymm]
  | ⟨1, _⟩ =>
    apply Fin.ext
    exact Shape.Gathers.idx_of_ne gathers_S8192x128_S128x128 (SparseCore.rows idx hn hin) y 1 (by decide)

/-! ## The mathematics: a fetched slot, copied out, is the gathered table on the block -/

/-- What a fetch through slice `k` of the landed list puts at (row, lane) `y` of its slot is what the table
    gathered by the flat position words holds at the place of `y` in block `k`: the list's word `y 0` is flat
    word off + 128·k + y 0, it names a row of the table (it is below 8192), and the block's row `y 0` is flat
    row off + 128·k + y 0. -/
theorem fetched_eq (hpre : PreOK m) (T : S8192x128.Idx → Elt F .f32) (k : Fin 4) (fx : BufTy.Contents (Elt F) (xM).view.ty)
    (hn : S128.numel = S128x128.size gathers_S8192x128_S128x128.axis')
    (hin : ∀ x, ((xSl k).view.read (Elt F) (landedX m d L fx) x).toNat < S8192x128.size gathers_S8192x128_S128x128.axis)
    (y : S128x128.Idx) :
    SparseCore.gatherPayload gathers_S8192x128_S128x128 T (SparseCore.rows (View.read (Elt F) (xSl k).view (landedX m d L fx)) hn hin) y
      = gathered T (flatIds m d) ((blk L k).emb y) := by
  have h0 : (L 0).val < 2 := (L 0).isLt
  have h1 : (L 1).val < 16 := (L 1).isLt
  have hk : k.val < 4 := k.isLt
  have hy : (y 0).val < 128 := (y 0).isLt
  rw [payload_val]
  unfold gathered
  refine congrArg T ?_
  have hb : 1024 * (L 1).val + 512 * (L 0).val + 128 * k.val + ((ix1 (n := 128) (y 0)) 0).val < 16384 := by
    show 1024 * (L 1).val + 512 * (L 0).val + 128 * k.val + (y 0).val < 16384
    omega
  have hword : (xSl k).view.read (Elt F) (landedX m d L fx) (ix1 (n := 128) (y 0))
      = flatIds m d (ix1 (n := 16384) ((blk L k).emb y 0)) := by
    rw [list_val m d L k fx _ hb]
    refine congrArg (flatIds m d) (congrArg (ix1 (n := 16384)) (Fin.ext ?_))
    exact (blk_emb0 L k y).symm
  funext a
  match a with
  | ⟨0, _⟩ =>
    apply Fin.ext
    show ((xSl k).view.read (Elt F) (landedX m d L fx) (ix1 (n := 128) (y 0))).toNat
      = (Cert.Spec.rowOf (flatIds m d (ix1 (n := 16384) ((blk L k).emb y 0)))).val
    rw [Cert.Spec.rowOf_val (flatIds_lt m d hpre _), hword]
  | ⟨1, _⟩ =>
    apply Fin.ext
    exact (blk_emb1 L k y).symm

/-! ## The two results -/

/-- Block `k` of the cosine result, after slot `b` fetched through slice `k` of the landed list is copied over it, is the
    cosine table gathered by the flat position words. -/
theorem oc_value (hpre : PreOK m) (k : Fin 4) (b : Fin 7) (fx : BufTy.Contents (Elt F) (xM).view.ty) (fb : BufTy.Contents (Elt F) (bM).view.ty)
    (rest : List (View.Piece (Elt F) S128x128 .f32)) (hn : S128.numel = S128x128.size gathers_S8192x128_S128x128.axis')
    (hin : ∀ x, ((xSl k).view.read (Elt F) (landedX m d L fx) x).toNat < S8192x128.size gathers_S8192x128_S128x128.axis)
    (f0 : BufTy.Contents (Elt F) (ocM).view.ty) :
    ∀ z ∈ (ocB L k).view.set,
      (ocB L k).view.writes (Elt F) f0 [⟨Rect.whole S128x128, ReadAs.same.apply (View.read (Elt F) (bSl b).view
          ((bSl b).view.writes (Elt F) fb (⟨Rect.whole S128x128, SparseCore.gatherPayload gathers_S8192x128_S128x128
            (View.read (Elt F) (cSrc).view (m (cLoc d))) (SparseCore.rows (View.read (Elt F) (xSl k).view (landedX m d L fx)) hn hin)⟩ :: rest)))⟩] z
        = gC m d z := by
  intro z hz
  obtain ⟨y, -, rfl⟩ := Finset.mem_map.mp hz
  -- the block's contents at the place of `y` are what the block's view reads at `y`: the copy's payload there
  have hr := fun g : BufTy.Contents (Elt F) (ocM).view.ty =>
    ((View.read_apply (v := (ocB L k).view) (Val := Elt F) g y).trans (cast_eq _ _)).symm
  refine (hr _).trans ?_
  rw [read_writes_whole]
  -- the copy moves what the slot reads, and the slot reads the fetch's payload
  show View.read (Elt F) (bSl b).view ((bSl b).view.writes (Elt F) fb (⟨Rect.whole S128x128, _⟩ :: rest)) y = _
  rw [read_writes_whole]
  -- the table is read whole
  have htbl : View.read (Elt F) (cSrc).view (m (cLoc d)) = m (cLoc d) :=
    funext fun x => ((View.read_apply _ _).trans (cast_eq _ _)).trans (congrArg (m (cLoc d)) (tbl_emb x))
  rw [htbl]
  exact fetched_eq m d L hpre (m (cLoc d)) k fx hn hin y

/-- The same for the sine table and the sine result. -/
theorem os_value (hpre : PreOK m) (k : Fin 4) (b : Fin 7) (fx : BufTy.Contents (Elt F) (xM).view.ty) (fb : BufTy.Contents (Elt F) (bM).view.ty)
    (rest : List (View.Piece (Elt F) S128x128 .f32)) (hn : S128.numel = S128x128.size gathers_S8192x128_S128x128.axis')
    (hin : ∀ x, ((xSl k).view.read (Elt F) (landedX m d L fx) x).toNat < S8192x128.size gathers_S8192x128_S128x128.axis)
    (f0 : BufTy.Contents (Elt F) (osM).view.ty) :
    ∀ z ∈ (osB L k).view.set,
      (osB L k).view.writes (Elt F) f0 [⟨Rect.whole S128x128, ReadAs.same.apply (View.read (Elt F) (bSl b).view
          ((bSl b).view.writes (Elt F) fb (⟨Rect.whole S128x128, SparseCore.gatherPayload gathers_S8192x128_S128x128
            (View.read (Elt F) (sSrc).view (m (sLoc d))) (SparseCore.rows (View.read (Elt F) (xSl k).view (landedX m d L fx)) hn hin)⟩ :: rest)))⟩] z
        = gS m d z := by
  intro z hz
  obtain ⟨y, -, rfl⟩ := Finset.mem_map.mp hz
  -- the block's contents at the place of `y` are what the block's view reads at `y`: the copy's payload there
  have hr := fun g : BufTy.Contents (Elt F) (osM).view.ty =>
    ((View.read_apply (v := (osB L k).view) (Val := Elt F) g y).trans (cast_eq _ _)).symm
  refine (hr _).trans ?_
  rw [read_writes_whole]
  -- the copy moves what the slot reads, and the slot reads the fetch's payload
  show View.read (Elt F) (bSl b).view ((bSl b).view.writes (Elt F) fb (⟨Rect.whole S128x128, _⟩ :: rest)) y = _
  rw [read_writes_whole]
  -- the table is read whole
  have htbl : View.read (Elt F) (sSrc).view (m (sLoc d)) = m (sLoc d) :=
    funext fun x => ((View.read_apply _ _).trans (cast_eq _ _)).trans (congrArg (m (sLoc d)) (tbl_emb x))
  rw [htbl]
  exact fetched_eq m d L hpre (m (sLoc d)) k fx hn hin y

end Cert.Proof.KernelW

end
-- ==== Proof.KernelB.lean ====
/-
  One tile's task, at a symbolic tile (c, i).

  The tile copies its 512 position words into its own memory and waits. It then keeps up to six row fetches in
  flight: fetch t (t = 0 … 7) reads slice t mod 4 of the position words as its list and lands the 128 named rows
  — of the cosine table for t < 4, of the sine table otherwise — in buffer slot t mod 7, completing on that slot's
  own fetch semaphore. As each fetch completes its slot is copied out to the matching 128 rows of the flat result
  on the slot's own copy semaphore; slot 0 is fetched into a second time (t = 7) only after its first copy out has
  been waited for. So at most one transfer is ever outstanding on a semaphore, no slot is written while a copy is
  reading it, and nothing but the first copy ever writes the position words.

  What makes this go through: the two tables are held at a read share cut into four (four fetches of one table are
  in flight at once), each 128-word slice of the position words at two read shares (it is the list of a cosine and
  of a sine fetch at the same time), the buffer as seven separate slots, each result block on exactly its own rows;
  and every list names table rows only, by the precondition. At the end each result block holds the gathered table
  on its rows (the block-value lemmas), and everything borrowed is put back together.
-/
import proofs.«214905_g59081570125084_cont_9to1c4b_332_26_alg».proof.Proof.KernelC
import proofs.«214905_g59081570125084_cont_9to1c4b_332_26_alg».proof.Proof.KernelO
import proofs.«214905_g59081570125084_cont_9to1c4b_332_26_alg».proof.Proof.KernelS
import proofs.«214905_g59081570125084_cont_9to1c4b_332_26_alg».proof.Proof.KernelW

noncomputable section

namespace Cert.Proof.KernelB

open Cert.Kernel Cert.Kernel.Gen Cert.Proof.KernelC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

open Cert.Proof.KernelO Cert.Proof.KernelS Cert.Proof.KernelW

variable (m : (ℓ : Loc nD τ sig) → Buf (Elt F) ℓ) [FloatOps F]

/-! ## The tile's blocks, spelt as the program's copies name them -/

abbrev ocB0 (L : grid0.Coords) : Memref sig .scVector .hbm S128x128 .f32 := (ocM).slice (Rect.unit (s := S16384x128) (k0_off2 L 0#32) S128x128.size (k0_off2_inb L 0)) (fun _ => rfl)
abbrev ocB1 (L : grid0.Coords) : Memref sig .scVector .hbm S128x128 .f32 := (ocM).slice (Rect.unit (s := S16384x128) (k0_off2 L 128#32) S128x128.size (k0_off2_inb L 1)) (fun _ => rfl)
abbrev ocB2 (L : grid0.Coords) : Memref sig .scVector .hbm S128x128 .f32 := (ocM).slice (Rect.unit (s := S16384x128) (k0_off2 L 256#32) S128x128.size (k0_off2_inb L 2)) (fun _ => rfl)
abbrev ocB3 (L : grid0.Coords) : Memref sig .scVector .hbm S128x128 .f32 := (ocM).slice (Rect.unit (s := S16384x128) (k0_off2 L 384#32) S128x128.size (k0_off2_inb L 3)) (fun _ => rfl)
abbrev osB0 (L : grid0.Coords) : Memref sig .scVector .hbm S128x128 .f32 := (osM).slice (Rect.unit (s := S16384x128) (k0_off2 L 0#32) S128x128.size (k0_off2_inb L 0)) (fun _ => rfl)
abbrev osB1 (L : grid0.Coords) : Memref sig .scVector .hbm S128x128 .f32 := (osM).slice (Rect.unit (s := S16384x128) (k0_off2 L 128#32) S128x128.size (k0_off2_inb L 1)) (fun _ => rfl)
abbrev osB2 (L : grid0.Coords) : Memref sig .scVector .hbm S128x128 .f32 := (osM).slice (Rect.unit (s := S16384x128) (k0_off2 L 256#32) S128x128.size (k0_off2_inb L 2)) (fun _ => rfl)
abbrev osB3 (L : grid0.Coords) : Memref sig .scVector .hbm S128x128 .f32 := (osM).slice (Rect.unit (s := S16384x128) (k0_off2 L 384#32) S128x128.size (k0_off2_inb L 3)) (fun _ => rfl)

/-! ## The scratch slices, spelt as the program's fetches and copies name them -/

abbrev xSl0 : Memref sig .scVector .vmem S128 .i32 := (xM).slice (Rect.unit (s := S512) ![0] S128.size inb_S512_S128_0) (fun _ => rfl)
abbrev xSl1 : Memref sig .scVector .vmem S128 .i32 := (xM).slice (Rect.unit (s := S512) ![128] S128.size inb_S512_S128_128) (fun _ => rfl)
abbrev xSl2 : Memref sig .scVector .vmem S128 .i32 := (xM).slice (Rect.unit (s := S512) ![256] S128.size inb_S512_S128_256) (fun _ => rfl)
abbrev xSl3 : Memref sig .scVector .vmem S128 .i32 := (xM).slice (Rect.unit (s := S512) ![384] S128.size inb_S512_S128_384) (fun _ => rfl)
abbrev bSl0 : Memref sig .scVector .vmem S128x128 .f32 := ((bM).slice (Rect.unit (s := S7x128x128) ![0, 0, 0] S1x128x128.size inb_S7x128x128_S1x128x128_0_0_0) (fun _ => rfl)).squeeze S128x128 squeezes_S1x128x128_S128x128
abbrev bSl1 : Memref sig .scVector .vmem S128x128 .f32 := ((bM).slice (Rect.unit (s := S7x128x128) ![1, 0, 0] S1x128x128.size inb_S7x128x128_S1x128x128_1_0_0) (fun _ => rfl)).squeeze S128x128 squeezes_S1x128x128_S128x128
abbrev bSl2 : Memref sig .scVector .vmem S128x128 .f32 := ((bM).slice (Rect.unit (s := S7x128x128) ![2, 0, 0] S1x128x128.size inb_S7x128x128_S1x128x128_2_0_0) (fun _ => rfl)).squeeze S128x128 squeezes_S1x128x128_S128x128
abbrev bSl3 : Memref sig .scVector .vmem S128x128 .f32 := ((bM).slice (Rect.unit (s := S7x128x128) ![3, 0, 0] S1x128x128.size inb_S7x128x128_S1x128x128_3_0_0) (fun _ => rfl)).squeeze S128x128 squeezes_S1x128x128_S128x128
abbrev bSl4 : Memref sig .scVector .vmem S128x128 .f32 := ((bM).slice (Rect.unit (s := S7x128x128) ![4, 0, 0] S1x128x128.size inb_S7x128x128_S1x128x128_4_0_0) (fun _ => rfl)).squeeze S128x128 squeezes_S1x128x128_S128x128
abbrev bSl5 : Memref sig .scVector .vmem S128x128 .f32 := ((bM).slice (Rect.unit (s := S7x128x128) ![5, 0, 0] S1x128x128.size inb_S7x128x128_S1x128x128_5_0_0) (fun _ => rfl)).squeeze S128x128 squeezes_S1x128x128_S128x128
abbrev bSl6 : Memref sig .scVector .vmem S128x128 .f32 := ((bM).slice (Rect.unit (s := S7x128x128) ![6, 0, 0] S1x128x128.size inb_S7x128x128_S1x128x128_6_0_0) (fun _ => rfl)).squeeze S128x128 squeezes_S1x128x128_S128x128

section Lits
variable (dd : Dev nD) (tc : Fin τ.nSC) (tj : Fin τ.nSub)
local notation "tt" => (V dd tc tj : Thread nD τ)

theorem x_split_lit (q : PosShare TreeShare) (f : Buf (Elt F) ((xM).view.loc tt)) :
    ((xM).view.loc tt ↦{q} f : sProp 𝕄)
      = iprop(((xSl0).view.loc tt ↦[(xSl0).view.set]{q} f) ∗ ((xSl1).view.loc tt ↦[(xSl1).view.set]{q} f)
          ∗ ((xSl2).view.loc tt ↦[(xSl2).view.set]{q} f) ∗ ((xSl3).view.loc tt ↦[(xSl3).view.set]{q} f)) :=
  x_split (F := F) dd tc tj q f

theorem b_split_lit (q : PosShare TreeShare) (f : Buf (Elt F) ((bM).view.loc tt)) :
    ((bM).view.loc tt ↦{q} f : sProp 𝕄)
      = iprop(((bSl0).view.loc tt ↦[(bSl0).view.set]{q} f)
          ∗ ((bSl1).view.loc tt ↦[(bSl1).view.set]{q} f)
          ∗ ((bSl2).view.loc tt ↦[(bSl2).view.set]{q} f)
          ∗ ((bSl3).view.loc tt ↦[(bSl3).view.set]{q} f)
          ∗ ((bSl4).view.loc tt ↦[(bSl4).view.set]{q} f)
          ∗ ((bSl5).view.loc tt ↦[(bSl5).view.set]{q} f)
          ∗ ((bSl6).view.loc tt ↦[(bSl6).view.set]{q} f)) :=
  b_split (F := F) dd tc tj q f

theorem b_join_lit (f0 f1 f2 f3 f4 f5 f6 : Buf (Elt F) ((bM).view.loc tt)) :
    iprop(((bSl0).view.loc tt ↦[(bSl0).view.set]{fullShare} f0)
        ∗ ((bSl1).view.loc tt ↦[(bSl1).view.set]{fullShare} f1)
        ∗ ((bSl2).view.loc tt ↦[(bSl2).view.set]{fullShare} f2)
        ∗ ((bSl3).view.loc tt ↦[(bSl3).view.set]{fullShare} f3)
        ∗ ((bSl4).view.loc tt ↦[(bSl4).view.set]{fullShare} f4)
        ∗ ((bSl5).view.loc tt ↦[(bSl5).view.set]{fullShare} f5)
        ∗ ((bSl6).view.loc tt ↦[(bSl6).view.set]{fullShare} f6))
      ⊢ (iprop(∃ g, (bM).view.loc tt ↦{fullShare} g) : sProp 𝕄) :=
  b_join (F := F) dd tc tj (fun b => match b with | 0 => f0 | 1 => f1 | 2 => f2 | 3 => f3 | 4 => f4 | 5 => f5 | 6 => f6)
end Lits

/-- A recorded wait at no call's index may always be added. -/
theorem sub_insert {W W' : Waits sig (HIx 1)} {p0 : SemLoc sig × HIx 1} (h : ∀ p ∈ W', p ∈ W ∨ p.2 = none) (hp0 : p0.2 = none) :
    ∀ p ∈ insert p0 W', p ∈ W ∨ p.2 = none := by
  intro p hp
  rcases Finset.mem_insert.mp hp with hp | hp
  · exact .inr (hp ▸ hp0)
  · exact h p hp

section Tile

variable (d : Dev nD) (c : Fin 2) (i : Fin 16)

/-- The tile's thread. -/
abbrev th : Thread nD τ := V d (cV (LL c i)) (jV (LL c i))
set_option maxHeartbeats 8000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (tables m d (qTile c i) ∗ tileData m d c i (m (ocLoc d)) (m (osLoc d)))
        ∗ scopedBufs (th d c i) ∗ scopedSems0 (th d c i) ∗ owes (th d c i) O W)
      ⊢ wp frame (wpE (defs₀ (F := F)) 𝒱₀ (th d c i) none) Set.univ
          (cc0_k (LL c i) cM (Memref.isWhole_whole _) sM (Memref.isWhole_whole _) iM (Memref.isWhole_whole _) ocM (Memref.isWhole_whole _) osM (Memref.isWhole_whole _)
            xM (Memref.isWhole_whole _) bM (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scoped0)
          fun _ => iprop((tables m d (qTile c i) ∗ tileData m d c i (gC m d) (gS m d))
            ∗ scopedBufs (th d c i) ∗ scopedSems0 (th d c i)
            ∗ ∃ W', ⌜∀ p ∈ W', p ∈ W ∨ p.2 = none⌝ ∗ owes (th d c i) O W') := by
  simp only [cc0_k_eq_skeleton]; unfold cc0_k_skel
  rw [(K (F := F)).scopedBufs_V hF d (cV (LL c i)) (jV (LL c i)), SparseCore.Cfg.scopedSems0_V (Val := Elt F) d (cV (LL c i)) (jV (LL c i)), ownSems0_V, ownBufs_V]
  unfold tables tileData
  iintro ⟨#Hlv, -, ⟨⟨Hc, Hs⟩, Hi, ⟨Hoc0, Hoc1, Hoc2, Hoc3⟩, ⟨Hos0, Hos1, Hos2, Hos3⟩⟩, ⟨⟨%fx, Hx⟩, ⟨%fb, Hb⟩, Hbufs⟩,
    ⟨Hg0, Hg1, Hg2, Hg3, Hg4, Hg5, Hg6, Hs0, Hs1, Hs2, Hs3, Hs4, Hs5, Hs6, Hsc⟩, HO⟩
  ihave Hmw := (show levAts (K (F := F)).L (K (F := F)).lev ⊢ Transfers.MayWaits (th d c i) (default : HIx 1) O from
    (K (F := F)).mayWaits_none (thr := th d c i) hO) $$ Hlv
  ihave Hi' := (Entails.of_eq (show (iLoc d ↦[iSet (LL c i)]{fullShare} flatIds m d : sProp 𝕄)
      = ((iRowK (LL c i)).view.loc (th d c i) ↦[(iRowK (LL c i)).view.set]{fullShare} flatIds m d) from rfl)) $$ Hi
  ihave Hx' := (Entails.of_eq (show ((th d c i).loc cc0_scratch0 ↦{fullShare} fx : sProp 𝕄) = ((xM).view.loc (th d c i) ↦{fullShare} fx) from rfl)) $$ Hx
  -- the tile's position words: one copy and its wait
  sl_exec
  -- the position words in four slices, each at two read shares: a slice is the list of a cosine and of a sine fetch at once
  ihave Hx4 := (Entails.of_eq (x_split_lit (F := F) d (cV (LL c i)) (jV (LL c i)) fullShare _)) $$ Hx'
  icases Hx4 with ⟨Hx0, Hx1, Hx2, Hx3⟩
  ihave Hx0 := (pointsTo_share (PosShare.mem_left_op_right fullShare)).1 $$ Hx0
  icases Hx0 with ⟨Hx0a, Hx0b⟩
  ihave Hx1 := (pointsTo_share (PosShare.mem_left_op_right fullShare)).1 $$ Hx1
  icases Hx1 with ⟨Hx1a, Hx1b⟩
  ihave Hx2 := (pointsTo_share (PosShare.mem_left_op_right fullShare)).1 $$ Hx2
  icases Hx2 with ⟨Hx2a, Hx2b⟩
  ihave Hx3 := (pointsTo_share (PosShare.mem_left_op_right fullShare)).1 $$ Hx3
  icases Hx3 with ⟨Hx3a, Hx3b⟩
  -- the buffer scratch in its seven slots
  ihave Hb' := (Entails.of_eq (show ((th d c i).loc cc0_scratch1 ↦{fullShare} fb : sProp 𝕄) = ((bM).view.loc (th d c i) ↦{fullShare} fb) from rfl)) $$ Hb
  ihave Hb7 := (Entails.of_eq (b_split_lit (F := F) d (cV (LL c i)) (jV (LL c i)) fullShare _)) $$ Hb'
  icases Hb7 with ⟨Hb0, Hb1, Hb2, Hb3, Hb4, Hb5, Hb6⟩
  -- each table at four read shares and a remainder: four fetches of it are in flight at once
  ihave Hc' := (Entails.of_eq (show (cLoc d ↦{qTile c i} m (cLoc d) : sProp 𝕄) = ((cM).view.loc (th d c i) ↦{qTile c i} m (cLoc d)) from rfl)) $$ Hc
  ihave Hc' := (Transfers.pointsTo_toks_split (qTile c i) 4) $$ Hc'
  icases Hc' with ⟨HcR, HcT⟩
  ihave HcT := (Entails.of_eq (bigSep_fin4 (F := F) _)) $$ HcT
  icases HcT with ⟨Hc0, Hc1, Hc2, Hc3⟩
  ihave Hs' := (Entails.of_eq (show (sLoc d ↦{qTile c i} m (sLoc d) : sProp 𝕄) = ((sM).view.loc (th d c i) ↦{qTile c i} m (sLoc d)) from rfl)) $$ Hs
  ihave Hs' := (Transfers.pointsTo_toks_split (qTile c i) 4) $$ Hs'
  icases Hs' with ⟨HsR, HsT⟩
  ihave HsT := (Entails.of_eq (bigSep_fin4 (F := F) _)) $$ HsT
  icases HsT with ⟨Hs0', Hs1', Hs2', Hs3'⟩
  -- the result blocks, spelt as the copies out name them
  ihave Hoc0 := (Entails.of_eq (show (ocLoc d ↦[ocSet (LL c i) 0]{fullShare} m (ocLoc d) : sProp 𝕄)
      = ((ocB0 (LL c i)).view.loc (th d c i) ↦[(ocB0 (LL c i)).view.set]{fullShare} m (ocLoc d)) from rfl)) $$ Hoc0
  ihave Hos0 := (Entails.of_eq (show (osLoc d ↦[osSet (LL c i) 0]{fullShare} m (osLoc d) : sProp 𝕄)
      = ((osB0 (LL c i)).view.loc (th d c i) ↦[(osB0 (LL c i)).view.set]{fullShare} m (osLoc d)) from rfl)) $$ Hos0
  ihave Hoc1 := (Entails.of_eq (show (ocLoc d ↦[ocSet (LL c i) 1]{fullShare} m (ocLoc d) : sProp 𝕄)
      = ((ocB1 (LL c i)).view.loc (th d c i) ↦[(ocB1 (LL c i)).view.set]{fullShare} m (ocLoc d)) from rfl)) $$ Hoc1
  ihave Hos1 := (Entails.of_eq (show (osLoc d ↦[osSet (LL c i) 1]{fullShare} m (osLoc d) : sProp 𝕄)
      = ((osB1 (LL c i)).view.loc (th d c i) ↦[(osB1 (LL c i)).view.set]{fullShare} m (osLoc d)) from rfl)) $$ Hos1
  ihave Hoc2 := (Entails.of_eq (show (ocLoc d ↦[ocSet (LL c i) 2]{fullShare} m (ocLoc d) : sProp 𝕄)
      = ((ocB2 (LL c i)).view.loc (th d c i) ↦[(ocB2 (LL c i)).view.set]{fullShare} m (ocLoc d)) from rfl)) $$ Hoc2
  ihave Hos2 := (Entails.of_eq (show (osLoc d ↦[osSet (LL c i) 2]{fullShare} m (osLoc d) : sProp 𝕄)
      = ((osB2 (LL c i)).view.loc (th d c i) ↦[(osB2 (LL c i)).view.set]{fullShare} m (osLoc d)) from rfl)) $$ Hos2
  ihave Hoc3 := (Entails.of_eq (show (ocLoc d ↦[ocSet (LL c i) 3]{fullShare} m (ocLoc d) : sProp 𝕄)
      = ((ocB3 (LL c i)).view.loc (th d c i) ↦[(ocB3 (LL c i)).view.set]{fullShare} m (ocLoc d)) from rfl)) $$ Hoc3
  ihave Hos3 := (Entails.of_eq (show (osLoc d ↦[osSet (LL c i) 3]{fullShare} m (osLoc d) : sProp 𝕄)
      = ((osB3 (LL c i)).view.loc (th d c i) ↦[(osB3 (LL c i)).view.set]{fullShare} m (osLoc d)) from rfl)) $$ Hos3
  -- every list a fetch reads names table rows only
  have hin0 : ∀ x, ((xSl0).view.read (Elt F) (View.write (Elt F) (xM).view fx (tile_body.sl.dma0 m d c i) Finset.univ) x).toNat
      < S8192x128.size gathers_S8192x128_S128x128.axis := hin_of_pre m d (cV (LL c i)) (jV (LL c i)) d (LL c i) hpre fx _ rfl 0
  have hin1 : ∀ x, ((xSl1).view.read (Elt F) (View.write (Elt F) (xM).view fx (tile_body.sl.dma0 m d c i) Finset.univ) x).toNat
      < S8192x128.size gathers_S8192x128_S128x128.axis := hin_of_pre m d (cV (LL c i)) (jV (LL c i)) d (LL c i) hpre fx _ rfl 1
  have hin2 : ∀ x, ((xSl2).view.read (Elt F) (View.write (Elt F) (xM).view fx (tile_body.sl.dma0 m d c i) Finset.univ) x).toNat
      < S8192x128.size gathers_S8192x128_S128x128.axis := hin_of_pre m d (cV (LL c i)) (jV (LL c i)) d (LL c i) hpre fx _ rfl 2
  have hin3 : ∀ x, ((xSl3).view.read (Elt F) (View.write (Elt F) (xM).view fx (tile_body.sl.dma0 m d c i) Finset.univ) x).toNat
      < S8192x128.size gathers_S8192x128_S128x128.axis := hin_of_pre m d (cV (LL c i)) (jV (LL c i)) d (LL c i) hpre fx _ rfl 3
  sl_exec
  sl_step
  -- each result block holds the gathered table on its rows
  have e_Hoc0 : (((ocB0 (LL c i)).view.loc (th d c i) ↦[(ocB0 (LL c i)).view.set]{fullShare}
      (ocB0 (LL c i)).view.writes (Elt F) (m (ocLoc d)) [⟨Rect.whole S128x128, tile_body.sl.dma0_1 m d c i fx fb hin0⟩]) : sProp 𝕄)
      = (ocLoc d ↦[ocSet (LL c i) 0]{fullShare} gC m d) :=
    pointsTo_congr (ℓ := ocLoc d) (q := fullShare) (oc_value m d (LL c i) hpre 0 0 fx fb [] rfl hin0 (m (ocLoc d)))
  ihave Hoc0 := (Entails.of_eq e_Hoc0) $$ Hoc0
  have e_Hoc1 : (((ocB1 (LL c i)).view.loc (th d c i) ↦[(ocB1 (LL c i)).view.set]{fullShare}
      (ocB1 (LL c i)).view.writes (Elt F) (m (ocLoc d)) [⟨Rect.whole S128x128, tile_body.sl.dma0_2 m d c i fx fb hin1⟩]) : sProp 𝕄)
      = (ocLoc d ↦[ocSet (LL c i) 1]{fullShare} gC m d) :=
    pointsTo_congr (ℓ := ocLoc d) (q := fullShare) (oc_value m d (LL c i) hpre 1 1 fx fb [] rfl hin1 (m (ocLoc d)))
  ihave Hoc1 := (Entails.of_eq e_Hoc1) $$ Hoc1
  have e_Hoc2 : (((ocB2 (LL c i)).view.loc (th d c i) ↦[(ocB2 (LL c i)).view.set]{fullShare}
      (ocB2 (LL c i)).view.writes (Elt F) (m (ocLoc d)) [⟨Rect.whole S128x128, tile_body.sl.dma0_3 m d c i fx fb hin2⟩]) : sProp 𝕄)
      = (ocLoc d ↦[ocSet (LL c i) 2]{fullShare} gC m d) :=
    pointsTo_congr (ℓ := ocLoc d) (q := fullShare) (oc_value m d (LL c i) hpre 2 2 fx fb [] rfl hin2 (m (ocLoc d)))
  ihave Hoc2 := (Entails.of_eq e_Hoc2) $$ Hoc2
  have e_Hoc3 : (((ocB3 (LL c i)).view.loc (th d c i) ↦[(ocB3 (LL c i)).view.set]{fullShare}
      (ocB3 (LL c i)).view.writes (Elt F) (m (ocLoc d)) [⟨Rect.whole S128x128, tile_body.sl.dma0_4 m d c i fx fb hin3⟩]) : sProp 𝕄)
      = (ocLoc d ↦[ocSet (LL c i) 3]{fullShare} gC m d) :=
    pointsTo_congr (ℓ := ocLoc d) (q := fullShare) (oc_value m d (LL c i) hpre 3 3 fx fb [] rfl hin3 (m (ocLoc d)))
  ihave Hoc3 := (Entails.of_eq e_Hoc3) $$ Hoc3
  have e_Hos0 : (((osB0 (LL c i)).view.loc (th d c i) ↦[(osB0 (LL c i)).view.set]{fullShare}
      (osB0 (LL c i)).view.writes (Elt F) (m (osLoc d)) [⟨Rect.whole S128x128, tile_body.sl.dma0_5 m d c i fx fb hin0⟩]) : sProp 𝕄)
      = (osLoc d ↦[osSet (LL c i) 0]{fullShare} gS m d) :=
    pointsTo_congr (ℓ := osLoc d) (q := fullShare) (os_value m d (LL c i) hpre 0 4 fx fb [] rfl hin0 (m (osLoc d)))
  ihave Hos0 := (Entails.of_eq e_Hos0) $$ Hos0
  have e_Hos1 : (((osB1 (LL c i)).view.loc (th d c i) ↦[(osB1 (LL c i)).view.set]{fullShare}
      (osB1 (LL c i)).view.writes (Elt F) (m (osLoc d)) [⟨Rect.whole S128x128, tile_body.sl.dma0_6 m d c i fx fb hin1⟩]) : sProp 𝕄)
      = (osLoc d ↦[osSet (LL c i) 1]{fullShare} gS m d) :=
    pointsTo_congr (ℓ := osLoc d) (q := fullShare) (os_value m d (LL c i) hpre 1 5 fx fb [] rfl hin1 (m (osLoc d)))
  ihave Hos1 := (Entails.of_eq e_Hos1) $$ Hos1
  have e_Hos2 : (((osB2 (LL c i)).view.loc (th d c i) ↦[(osB2 (LL c i)).view.set]{fullShare}
      (osB2 (LL c i)).view.writes (Elt F) (m (osLoc d)) [⟨Rect.whole S128x128, tile_body.sl.dma0_7 m d c i fx fb hin2⟩]) : sProp 𝕄)
      = (osLoc d ↦[osSet (LL c i) 2]{fullShare} gS m d) :=
    pointsTo_congr (ℓ := osLoc d) (q := fullShare) (os_value m d (LL c i) hpre 2 6 fx fb [] rfl hin2 (m (osLoc d)))
  ihave Hos2 := (Entails.of_eq e_Hos2) $$ Hos2
  have e_Hos3 : (((osB3 (LL c i)).view.loc (th d c i) ↦[(osB3 (LL c i)).view.set]{fullShare}
      (osB3 (LL c i)).view.writes (Elt F) (m (osLoc d)) [⟨Rect.whole S128x128, tile_body.sl.dma0_8 m d c i fx fb hin0 hin3⟩]) : sProp 𝕄)
      = (osLoc d ↦[osSet (LL c i) 3]{fullShare} gS m d) :=
    pointsTo_congr (ℓ := osLoc d) (q := fullShare) (os_value m d (LL c i) hpre 3 0 fx fb [⟨Rect.whole S128x128, tile_body.sl.gather0 m d c i fx hin0⟩] rfl hin3 (m (osLoc d)))
  ihave Hos3 := (Entails.of_eq e_Hos3) $$ Hos3
  -- the table shares, the position words' slices and the buffer slots joined again
  ihave Hc := (Transfers.pointsTo_toks_join (qTile c i) 4) $$ [HcR Hc0 Hc1 Hc2 Hc3]
  · isplitl [HcR]; · iexact HcR
    iapply (Entails.of_eq (bigSep_fin4 (F := F) (fun j => ((cM).view.loc (th d c i) ↦{Transfers.shareTok (qTile c i) 4 j} m (cLoc d) : sProp 𝕄))).symm)
    isplitl [Hc0]; · iexact Hc0
    isplitl [Hc1]; · iexact Hc1
    isplitl [Hc2]; · iexact Hc2
    iexact Hc3
  ihave Hs := (Transfers.pointsTo_toks_join (qTile c i) 4) $$ [HsR Hs0' Hs1' Hs2' Hs3']
  · isplitl [HsR]; · iexact HsR
    iapply (Entails.of_eq (bigSep_fin4 (F := F) (fun j => ((sM).view.loc (th d c i) ↦{Transfers.shareTok (qTile c i) 4 j} m (sLoc d) : sProp 𝕄))).symm)
    isplitl [Hs0']; · iexact Hs0'
    isplitl [Hs1']; · iexact Hs1'
    isplitl [Hs2']; · iexact Hs2'
    iexact Hs3'
  ihave Hx0 := (pointsTo_share (PosShare.mem_left_op_right fullShare)).2 $$ [Hx0a Hx0b]
  · isplitl [Hx0a] <;> iassumption
  ihave Hx1 := (pointsTo_share (PosShare.mem_left_op_right fullShare)).2 $$ [Hx1a Hx1b]
  · isplitl [Hx1a] <;> iassumption
  ihave Hx2 := (pointsTo_share (PosShare.mem_left_op_right fullShare)).2 $$ [Hx2a Hx2b]
  · isplitl [Hx2a] <;> iassumption
  ihave Hx3 := (pointsTo_share (PosShare.mem_left_op_right fullShare)).2 $$ [Hx3a Hx3b]
  · isplitl [Hx3a] <;> iassumption
  ihave Hx := (Entails.of_eq (x_split_lit (F := F) d (cV (LL c i)) (jV (LL c i)) fullShare _).symm) $$ [Hx0 Hx1 Hx2 Hx3]
  · isplitl [Hx0]; · iexact Hx0
    isplitl [Hx1]; · iexact Hx1
    isplitl [Hx2]; · iexact Hx2
    iexact Hx3
  ihave Hb := (b_join_lit (F := F) d (cV (LL c i)) (jV (LL c i)) _ _ _ _ _ _ _) $$ [Hb0 Hb1 Hb2 Hb3 Hb4 Hb5 Hb6]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    iexact Hb6
  isplitl [Hc Hs Hi' Hoc0 Hoc1 Hoc2 Hoc3 Hos0 Hos1 Hos2 Hos3]
  · isplitl [Hc Hs]
    · isplitl [Hc]; · iexact Hc
      iexact Hs
    isplitl [Hi']; · iexact Hi'
    isplitl [Hoc0 Hoc1 Hoc2 Hoc3]
    · isplitl [Hoc0]; · iexact Hoc0
      isplitl [Hoc1]; · iexact Hoc1
      isplitl [Hoc2]; · iexact Hoc2
      iexact Hoc3
    isplitl [Hos0]; · iexact Hos0
    isplitl [Hos1]; · iexact Hos1
    isplitl [Hos2]; · iexact Hos2
    iexact Hos3
  isplitl [Hx Hb Hbufs]
  · isplitl [Hx]; · iexists _; iexact Hx
    isplitl [Hb]; · iexact Hb
    iexact Hbufs
  isplitl [Hg0 Hg1 Hg2 Hg3 Hg4 Hg5 Hg6 Hs0 Hs1 Hs2 Hs3 Hs4 Hs5 Hs6 Hsc]
  · isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact Hsc
  iexists _; isplitr
  swap; · iexact HO
  ipureintro
  exact (sub_insert (sub_insert (sub_insert (sub_insert (sub_insert (sub_insert (sub_insert (sub_insert (sub_insert (sub_insert (sub_insert (sub_insert (sub_insert (sub_insert (sub_insert (sub_insert (sub_insert (fun p hp => .inl hp) rfl) rfl) rfl) rfl) rfl) rfl) rfl) rfl) rfl) rfl) rfl) rfl) rfl) rfl) rfl) rfl) rfl)

end Tile

/-! ## The obligation -/

theorem defs₀_vector (c : Fin τ.nSC) (s : Fin τ.nSub) :
    defs₀ (F := F) (.scVector c s) 0 ()
      = SparseCore.onTile hcore0 hsub0 (fun c s => cc0_k (coordsV c s) cM (Memref.isWhole_whole _) sM (Memref.isWhole_whole _) iM (Memref.isWhole_whole _)
          ocM (Memref.isWhole_whole _) osM (Memref.isWhole_whole _) xM (Memref.isWhole_whole _) bM (Memref.isWhole_whole _)
          cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task: from its shares and pieces to the same with its result blocks at the gathered tables. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (Fin.cast nCore_zero c) (Fin.cast nSub_zero i) hF hpre O W hO).trans (wp_mono frame _ _ fun _ => obl_post)

end Cert.Proof.KernelB

end
-- ==== Proof.KernelLSets.lean ====
/-
  The pieces the tiles are handed, as sets of elements: tile (c, i) owns the 512 flat positions from
  1024·i + 512·c on, and block r of it the 128 rows from 1024·i + 512·c + 128·r on (all 128 lanes). The
  thirty-two position pieces are pairwise disjoint and cover the flat position array; the 128 row blocks are
  pairwise disjoint and cover a flat result. Pure arithmetic on the first coordinate.
-/
import proofs.«214905_g59081570125084_cont_9to1c4b_332_26_alg».proof.Proof.KernelC

noncomputable section

namespace Cert.Proof.KernelL

open Cert.Kernel Cert.Kernel.Gen Cert.Proof.KernelC
open Idealize.ShloMosaic

/-! ## Membership -/

theorem iSet_eq (L : grid0.Coords) :
    iSet L = (Rect.unit (s := S16384) (k0_off1 L) S512.size (k0_off1_inb L)).set := by
  show ((View.whole (main_v0_scv : Ref sig .scVector)).slice _).set = _
  rw [View.set_slice_whole]
theorem ocSet_eq (L : grid0.Coords) (r : Fin 4) :
    ocSet L r = (Rect.unit (s := S16384x128) (k0_off2 L (BitVec.ofNat 32 (128 * r.val))) S128x128.size (k0_off2_inb L r)).set := by
  show ((View.whole (main_v1_0_scv : Ref sig .scVector)).slice _).set = _
  rw [View.set_slice_whole]
theorem osSet_eq (L : grid0.Coords) (r : Fin 4) :
    osSet L r = (Rect.unit (s := S16384x128) (k0_off2 L (BitVec.ofNat 32 (128 * r.val))) S128x128.size (k0_off2_inb L r)).set := by
  show ((View.whole (main_v1_1_scv : Ref sig .scVector)).slice _).set = _
  rw [View.set_slice_whole]

/-- A flat position lies in tile (c, i)'s piece when it is one of the 512 from 1024·i + 512·c on. -/
theorem mem_iSet (c : Fin 2) (i : Fin 16) (x : S16384.Idx) :
    x ∈ iSet (LL c i) ↔ 1024 * i.val + 512 * c.val ≤ (x 0).val ∧ (x 0).val < 1024 * i.val + 512 * c.val + 512 := by
  rw [iSet_eq, Rect.mem_set_unit, k0_off1_eq]
  constructor
  · intro h; exact h 0
  · intro h a
    have : a = 0 := Subsingleton.elim _ _
    subst this; exact h

/-- An element of a flat result lies in block r of tile (c, i) when its row is one of the 128 from
    1024·i + 512·c + 128·r on. -/
theorem mem_ocSet (c : Fin 2) (i : Fin 16) (r : Fin 4) (x : S16384x128.Idx) :
    x ∈ ocSet (LL c i) r ↔ 1024 * i.val + 512 * c.val + 128 * r.val ≤ (x 0).val
      ∧ (x 0).val < 1024 * i.val + 512 * c.val + 128 * r.val + 128 := by
  rw [ocSet_eq, Rect.mem_set_unit, k0_off2_eq]
  constructor
  · intro h; exact h 0
  · intro h a
    match a with
    | 0 => exact h
    | 1 => exact ⟨Nat.zero_le _, by have := (x 1).isLt; simpa using this⟩
theorem osSet_eq_ocSet (L : grid0.Coords) (r : Fin 4) : osSet L r = ocSet L r := by rw [osSet_eq, ocSet_eq]

/-! ## The families: pairwise disjoint, covering -/

/-- The thirty-two position pieces, by (core, tile). -/
def iK (t : Fin 2 × Fin 16) : Finset S16384.Idx := iSet (LL t.1 t.2)
/-- The 128 row blocks of a flat result, by (core, tile, block). -/
def ocK (t : Fin 2 × Fin 16 × Fin 4) : Finset S16384x128.Idx := ocSet (LL t.1 t.2.1) t.2.2
def osK (t : Fin 2 × Fin 16 × Fin 4) : Finset S16384x128.Idx := osSet (LL t.1 t.2.1) t.2.2

theorem osK_eq : osK = ocK := funext fun t => osSet_eq_ocSet _ _

theorem iK_disjoint : ∀ t ∈ (Finset.univ : Finset (Fin 2 × Fin 16)), ∀ t' ∈ (Finset.univ : Finset (Fin 2 × Fin 16)),
    t ≠ t' → Disjoint (iK t) (iK t') := by
  rintro ⟨c, i⟩ - ⟨c', i'⟩ - hne
  rw [Finset.disjoint_left]
  intro x hx hx'
  unfold iK at hx hx'
  rw [mem_iSet] at hx hx'
  dsimp only at hx hx'
  apply hne
  have hc := c.isLt; have hc' := c'.isLt
  have hi : i.val = i'.val := by omega
  have hcc : c.val = c'.val := by omega
  exact Prod.ext (Fin.ext hcc) (Fin.ext hi)

theorem iK_cover : (Finset.univ : Finset (Fin 2 × Fin 16)).biUnion iK = Finset.univ := by
  ext x
  simp only [Finset.mem_biUnion, Finset.mem_univ, true_and, iff_true]
  have hx : (x 0).val < 16384 := (x 0).isLt
  refine ⟨(⟨(x 0).val % 1024 / 512, by omega⟩, ⟨(x 0).val / 1024, by omega⟩), ?_⟩
  unfold iK
  rw [mem_iSet]
  constructor <;> dsimp only <;> omega

theorem ocK_disjoint : ∀ t ∈ (Finset.univ : Finset (Fin 2 × Fin 16 × Fin 4)), ∀ t' ∈ (Finset.univ : Finset (Fin 2 × Fin 16 × Fin 4)),
    t ≠ t' → Disjoint (ocK t) (ocK t') := by
  rintro ⟨c, i, r⟩ - ⟨c', i', r'⟩ - hne
  rw [Finset.disjoint_left]
  intro x hx hx'
  unfold ocK at hx hx'
  rw [mem_ocSet] at hx hx'
  dsimp only at hx hx'
  apply hne
  have hc := c.isLt; have hc' := c'.isLt
  have hr := r.isLt; have hr' := r'.isLt
  have hi : i.val = i'.val := by omega
  have hcc : c.val = c'.val := by omega
  have hrr : r.val = r'.val := by omega
  exact Prod.ext (Fin.ext hcc) (Prod.ext (Fin.ext hi) (Fin.ext hrr))

theorem ocK_cover : (Finset.univ : Finset (Fin 2 × Fin 16 × Fin 4)).biUnion ocK = Finset.univ := by
  ext x
  simp only [Finset.mem_biUnion, Finset.mem_univ, true_and, iff_true]
  have hx : (x 0).val < 16384 := (x 0).isLt
  refine ⟨(⟨(x 0).val % 1024 / 512, by omega⟩, ⟨(x 0).val / 1024, by omega⟩, ⟨(x 0).val % 512 / 128, by omega⟩), ?_⟩
  unfold ocK
  rw [mem_ocSet]
  constructor <;> dsimp only <;> omega

theorem osK_disjoint : ∀ t ∈ (Finset.univ : Finset (Fin 2 × Fin 16 × Fin 4)), ∀ t' ∈ (Finset.univ : Finset (Fin 2 × Fin 16 × Fin 4)),
    t ≠ t' → Disjoint (osK t) (osK t') := by rw [osK_eq]; exact ocK_disjoint
theorem osK_cover : (Finset.univ : Finset (Fin 2 × Fin 16 × Fin 4)).biUnion osK = Finset.univ := by rw [osK_eq]; exact ocK_cover

end Cert.Proof.KernelL

end
-- ==== Proof.KernelLSplit.lean ====
/-
  How the arrays are dealt out and gathered back.

  A table is only read: its whole points-to at a share q is the remainder after n halvings together with n read
  shares, one per reader; so the full share is a remainder and one share per core, and a core's share a remainder and
  one share per tile. The flat position array is the thirty-two tiles' pieces side by side, a flat result the 128 row
  blocks side by side (the pieces are pairwise disjoint and cover the array), at ANY contents: the same equation
  splits the results as launched and joins them as the tiles left them.
-/
import proofs.«214905_g59081570125084_cont_9to1c4b_332_26_alg».proof.Proof.KernelLSets

noncomputable section

namespace Cert.Proof.KernelL

open Cert.Kernel Cert.Kernel.Gen Cert.Proof.KernelC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)

/-! ## Regrouping -/

theorem sep4_swap (A B C D : sProp 𝕄) : iprop((A ∗ B) ∗ (C ∗ D)) = iprop((A ∗ C) ∗ (B ∗ D)) := by
  have h1 : iprop((A ∗ B) ∗ (C ∗ D)) ⊢ iprop((A ∗ C) ∗ (B ∗ D)) := by
    iintro ⟨⟨HA, HB⟩, ⟨HC, HD⟩⟩
    isplitl [HA HC]
    · isplitl [HA] <;> iassumption
    · isplitl [HB] <;> iassumption
  have h2 : iprop((A ∗ C) ∗ (B ∗ D)) ⊢ iprop((A ∗ B) ∗ (C ∗ D)) := by
    iintro ⟨⟨HA, HC⟩, ⟨HB, HD⟩⟩
    isplitl [HA HB]
    · isplitl [HA] <;> iassumption
    · isplitl [HC] <;> iassumption
  exact BI.equiv_iff.mp ⟨h1, h2⟩

theorem sep_assoc_eq (A B C : sProp 𝕄) : iprop((A ∗ B) ∗ C) = iprop(A ∗ B ∗ C) := by
  have h1 : iprop((A ∗ B) ∗ C) ⊢ iprop(A ∗ B ∗ C) := by
    iintro ⟨⟨HA, HB⟩, HC⟩
    isplitl [HA]; · iexact HA
    isplitl [HB] <;> iassumption
  have h2 : iprop(A ∗ B ∗ C) ⊢ iprop((A ∗ B) ∗ C) := by
    iintro ⟨HA, HB, HC⟩
    isplitl [HA HB]
    · isplitl [HA] <;> iassumption
    · iexact HC
  exact BI.equiv_iff.mp ⟨h1, h2⟩

theorem bigSep_fin_four (Φ : Fin 4 → sProp 𝕄) : bigSep Finset.univ Φ = iprop(Φ 0 ∗ Φ 1 ∗ Φ 2 ∗ Φ 3) := by
  rw [show (Finset.univ : Finset (Fin 4)) = {0, 1, 2, 3} from by decide, SparseCore.bigSep_insert' (by decide),
    SparseCore.bigSep_insert' (by decide), SparseCore.bigSep_insert' (by decide), bigSep_singleton]

/-! ## Read shares of the tables -/

/-- The two tables at a share: the remainder after n halvings and n read shares. -/
theorem tables_toks (d : Dev nD) (q : PosShare TreeShare) (n : ℕ) :
    (tables m d q : sProp 𝕄) = iprop(tables m d (Transfers.shareDrop q n) ∗ bigSep Finset.univ fun i : Fin n => tables m d (Transfers.shareTok q n i)) := by
  unfold tables
  have hc : (cLoc d ↦{q} m (cLoc d) : sProp 𝕄) ⊣⊢ _ := Transfers.pointsTo_toks (ℓ := cLoc d) (S := Finset.univ) (f := m (cLoc d)) q n
  have hs : (sLoc d ↦{q} m (sLoc d) : sProp 𝕄) ⊣⊢ _ := Transfers.pointsTo_toks (ℓ := sLoc d) (S := Finset.univ) (f := m (sLoc d)) q n
  rw [bigSep_sep', BI.equiv_iff.mp ⟨hc.1, hc.2⟩, BI.equiv_iff.mp ⟨hs.1, hs.2⟩]
  exact sep4_swap _ _ _ _

/-! ## The flat arrays, piece by piece -/

theorem iPts_split (d : Dev nD) (f : Buf (Elt F) (iLoc d)) :
    (iLoc d ↦{fullShare} f : sProp 𝕄)
      = bigSep Finset.univ fun c : Fin 2 => bigSep Finset.univ fun i : Fin 16 => iLoc d ↦[iSet (LL c i)]{fullShare} f := by
  have h1 : (bigSep Finset.univ fun c : Fin 2 => bigSep Finset.univ fun i : Fin 16 => (iLoc d ↦[iSet (LL c i)]{fullShare} f : sProp 𝕄))
      = bigSep Finset.univ fun t : Fin 2 × Fin 16 => iLoc d ↦[iK t]{fullShare} f :=
    (bigSep_univ_prod (fun t : Fin 2 × Fin 16 => (iLoc d ↦[iK t]{fullShare} f : sProp 𝕄))).symm
  rw [h1, ← pointsTo_biUnion Finset.univ (ℓ := iLoc d) iK iK_disjoint, iK_cover]

theorem ocPts_split (d : Dev nD) (f : Buf (Elt F) (ocLoc d)) :
    (ocLoc d ↦{fullShare} f : sProp 𝕄)
      = bigSep Finset.univ fun c : Fin 2 => bigSep Finset.univ fun i : Fin 16 =>
          iprop((ocLoc d ↦[ocSet (LL c i) 0]{fullShare} f) ∗ (ocLoc d ↦[ocSet (LL c i) 1]{fullShare} f)
            ∗ (ocLoc d ↦[ocSet (LL c i) 2]{fullShare} f) ∗ (ocLoc d ↦[ocSet (LL c i) 3]{fullShare} f)) := by
  have h1 : (bigSep Finset.univ fun c : Fin 2 => bigSep Finset.univ fun i : Fin 16 =>
        (iprop((ocLoc d ↦[ocSet (LL c i) 0]{fullShare} f) ∗ (ocLoc d ↦[ocSet (LL c i) 1]{fullShare} f)
          ∗ (ocLoc d ↦[ocSet (LL c i) 2]{fullShare} f) ∗ (ocLoc d ↦[ocSet (LL c i) 3]{fullShare} f)) : sProp 𝕄))
      = bigSep Finset.univ fun t : Fin 2 × Fin 16 × Fin 4 => ocLoc d ↦[ocK t]{fullShare} f := by
    rw [bigSep_univ_prod]
    refine bigSep_congr fun c _ => ?_
    rw [bigSep_univ_prod]
    refine bigSep_congr fun i _ => ?_
    rw [bigSep_fin_four]; rfl
  rw [h1, ← pointsTo_biUnion Finset.univ (ℓ := ocLoc d) ocK ocK_disjoint, ocK_cover]

theorem osPts_split (d : Dev nD) (f : Buf (Elt F) (osLoc d)) :
    (osLoc d ↦{fullShare} f : sProp 𝕄)
      = bigSep Finset.univ fun c : Fin 2 => bigSep Finset.univ fun i : Fin 16 =>
          iprop((osLoc d ↦[osSet (LL c i) 0]{fullShare} f) ∗ (osLoc d ↦[osSet (LL c i) 1]{fullShare} f)
            ∗ (osLoc d ↦[osSet (LL c i) 2]{fullShare} f) ∗ (osLoc d ↦[osSet (LL c i) 3]{fullShare} f)) := by
  have h1 : (bigSep Finset.univ fun c : Fin 2 => bigSep Finset.univ fun i : Fin 16 =>
        (iprop((osLoc d ↦[osSet (LL c i) 0]{fullShare} f) ∗ (osLoc d ↦[osSet (LL c i) 1]{fullShare} f)
          ∗ (osLoc d ↦[osSet (LL c i) 2]{fullShare} f) ∗ (osLoc d ↦[osSet (LL c i) 3]{fullShare} f)) : sProp 𝕄))
      = bigSep Finset.univ fun t : Fin 2 × Fin 16 × Fin 4 => osLoc d ↦[osK t]{fullShare} f := by
    rw [bigSep_univ_prod]
    refine bigSep_congr fun c _ => ?_
    rw [bigSep_univ_prod]
    refine bigSep_congr fun i _ => ?_
    rw [bigSep_fin_four]; rfl
  rw [h1, ← pointsTo_biUnion Finset.univ (ℓ := osLoc d) osK osK_disjoint, osK_cover]

/-- The position words and the two flat results, whole, are the tiles' pieces. -/
theorem data_split (d : Dev nD) (fc : Buf (Elt F) (ocLoc d)) (fs : Buf (Elt F) (osLoc d)) :
    (iprop((iLoc d ↦{fullShare} flatIds m d) ∗ (ocLoc d ↦{fullShare} fc) ∗ (osLoc d ↦{fullShare} fs)) : sProp 𝕄)
      = bigSep Finset.univ fun c : Fin 2 => bigSep Finset.univ fun i : Fin 16 => tileData m d c i fc fs := by
  rw [iPts_split, ocPts_split, osPts_split]
  simp only [tileData, bigSep_sep']

/-! ## The two handshakes' splits -/

/-- What the TensorCore holds around the call: the full share of each table is a remainder and a share per core. -/
theorem tc_split (d : Dev nD) (fc : Buf (Elt F) (ocLoc d)) (fs : Buf (Elt F) (osLoc d)) :
    (iprop(tables m d fullShare ∗ (iLoc d ↦{fullShare} flatIds m d) ∗ (ocLoc d ↦{fullShare} fc) ∗ (osLoc d ↦{fullShare} fs)) : sProp 𝕄)
      = iprop(tables m d (Transfers.shareDrop fullShare 2)
          ∗ bigSep Finset.univ fun c : Fin 2 => iprop(tables m d (qCore c) ∗ bigSep Finset.univ fun i : Fin 16 => tileData m d c i fc fs)) := by
  rw [data_split, bigSep_sep', tables_toks m d fullShare 2, sep_assoc_eq]

/-- What a core holds around its tiles' tasks: its share of each table is a remainder and a share per tile. -/
theorem core_split (d : Dev nD) (c : Fin 2) (fc : Buf (Elt F) (ocLoc d)) (fs : Buf (Elt F) (osLoc d)) :
    (iprop(tables m d (qCore c) ∗ bigSep Finset.univ fun i : Fin 16 => tileData m d c i fc fs) : sProp 𝕄)
      = iprop(tables m d (Transfers.shareDrop (qCore c) 16)
          ∗ bigSep Finset.univ fun i : Fin 16 => iprop(tables m d (qTile c i) ∗ tileData m d c i fc fs)) := by
  rw [bigSep_sep', tables_toks m d (qCore c) 16, sep_assoc_eq]

end Cert.Proof.KernelL

end
-- ==== Proof.KernelL.lean ====
/-
  The launch. On each device's TensorCore the program lays the [4, 4096] position words out flat, starts the
  gather on the two cores' thirty-two tiles and waits for it, then lays each flat [16384, 128] result out as
  [4, 1, 4096, 128]. Around the call the TensorCore deals each core a read share of the two tables and its sixteen
  tiles' pieces of the flat arrays, and takes them back with every row block holding the gathered table; a core deals
  and gathers its tiles' shares and pieces the same way. Given the tiles' task (a hypothesis here), the whole program
  runs to completion with each result the gathered table in its final layout and the four arguments unchanged.
-/
import proofs.«214905_g59081570125084_cont_9to1c4b_332_26_alg».proof.Proof.KernelLSplit

noncomputable section

namespace Cert.Proof.KernelL

open Cert.Kernel Cert.Kernel.Gen Cert.Proof.KernelC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

/-! ## A core's split of its operands among its tiles -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

variable [FloatOps F]

theorem vecSplit : (K (F := F)).VecSplit' (P m) 0 := by
  intro d c
  show iprop(tables m d (qCore (Fin.cast nCore_zero c))
        ∗ bigSep Finset.univ fun i : Fin 16 => tileData m d (Fin.cast nCore_zero c) i (m (ocLoc d)) (m (osLoc d))) ⊢ |={Set.univ}=> iprop(
      (bigSep Finset.univ fun i : Fin ((K (F := F)).nSub 0) =>
        iprop(tables m d (qTile (Fin.cast nCore_zero c) (Fin.cast nSub_zero i))
          ∗ tileData m d (Fin.cast nCore_zero c) (Fin.cast nSub_zero i) (m (ocLoc d)) (m (osLoc d))))
      ∗ ((bigSep Finset.univ fun i : Fin ((K (F := F)).nSub 0) =>
          iprop(tables m d (qTile (Fin.cast nCore_zero c) (Fin.cast nSub_zero i))
            ∗ tileData m d (Fin.cast nCore_zero c) (Fin.cast nSub_zero i) (gC m d) (gS m d)))
          -∗ iprop(tables m d (qCore (Fin.cast nCore_zero c))
            ∗ bigSep Finset.univ fun i : Fin 16 => tileData m d (Fin.cast nCore_zero c) i (gC m d) (gS m d))))
  rw [bigSep_tasks (F := F) (fun i => iprop(tables m d (qTile (Fin.cast nCore_zero c) i)
        ∗ tileData m d (Fin.cast nCore_zero c) i (m (ocLoc d)) (m (osLoc d)))),
    bigSep_tasks (F := F) (fun i => iprop(tables m d (qTile (Fin.cast nCore_zero c) i)
        ∗ tileData m d (Fin.cast nCore_zero c) i (gC m d) (gS m d))),
    core_split m d (Fin.cast nCore_zero c) (m (ocLoc d)) (m (osLoc d)), core_split m d (Fin.cast nCore_zero c) (gC m d) (gS m d)]
  iintro ⟨Hr, H⟩; imodintro
  isplitl [H]; · iexact H
  iintro H
  isplitl [Hr]; · iexact Hr
  iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- The first argument (never touched) and the two results in their final layout. -/
abbrev a0Loc (d : Dev nD) : Loc nD τ sig := (SparseCore.T d).loc main_arg0
abbrev v2Loc (d : Dev nD) : Loc nD τ sig := (SparseCore.T d).loc main_v2
abbrev v3Loc (d : Dev nD) : Loc nD τ sig := (SparseCore.T d).loc main_v3

abbrev p' : DevRef τ sig := Proc.devRef .tc (main_arg1 : Ref sig .tc)
abbrev i' : DevRef τ sig := Proc.devRef .tc (main_v0 : Ref sig .tc)
abbrev oc' : DevRef τ sig := Proc.devRef .tc (main_v1_0 : Ref sig .tc)
abbrev os' : DevRef τ sig := Proc.devRef .tc (main_v1_1 : Ref sig .tc)
abbrev v2' : DevRef τ sig := Proc.devRef .tc (main_v2 : Ref sig .tc)
abbrev v3' : DevRef τ sig := Proc.devRef .tc (main_v3 : Ref sig .tc)

/-- The three layout changes: the position words flat; each flat result as [4, 1, 4096, 128]. -/
abbrev opI : HloOp τ sig (Elt F) := StableHlo.reshape main_arg1 main_v0 rfl shapeCasts_S4x4096_S16384
abbrev opC : HloOp τ sig (Elt F) := StableHlo.reshape main_v1_0 main_v2 rfl shapeCasts_S16384x128_S4x1x4096x128
abbrev opS : HloOp τ sig (Elt F) := StableHlo.reshape main_v1_1 main_v3 rfl shapeCasts_S16384x128_S4x1x4096x128

/-- The gathered tables in the final layout. -/
abbrev outC (d : Dev nD) : Buf (Elt F) (v2Loc d) := shapeCast S4x1x4096x128 (gC m d) shapeCasts_S16384x128_S4x1x4096x128
abbrev outS (d : Dev nD) : Buf (Elt F) (v3Loc d) := shapeCast S4x1x4096x128 (gS m d) shapeCasts_S16384x128_S4x1x4096x128

omit [FloatOps F] in
theorem unscopedBufs_eq (d : Dev nD) (W : (b : Ref sig .tc) → Buf (Elt F) ((d.tc : Thread nD τ).loc b)) :
    (unscopedBufs d W : sProp 𝕄)
      = iprop((a0Loc d ↦{fullShare} W main_arg0) ∗ (pLoc d ↦{fullShare} W main_arg1) ∗ (cLoc d ↦{fullShare} W main_arg2)
          ∗ (sLoc d ↦{fullShare} W main_arg3) ∗ (iLoc d ↦{fullShare} W main_v0) ∗ (ocLoc d ↦{fullShare} W main_v1_0)
          ∗ (osLoc d ↦{fullShare} W main_v1_1) ∗ (v2Loc d ↦{fullShare} W main_v2) ∗ (v3Loc d ↦{fullShare} W main_v3)) := by
  unfold unscopedBufs
  rw [show (Finset.univ.filter fun b : Ref sig .tc => ¬ b.isScoped)
      = {main_arg0, main_arg1, main_arg2, main_arg3, main_v0, main_v1_0, main_v1_1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
theorem held_I (d : Dev nD) (W : Valuation τ sig (Elt F)) :
    (held (T d) {p', i'} W : sProp 𝕄) = iprop((pLoc d ↦{fullShare} W p') ∗ (iLoc d ↦{fullShare} W i')) := by
  unfold held
  rw [SparseCore.bigSep_insert' (by decide), bigSep_singleton]
omit [FloatOps F] in
theorem held_C (d : Dev nD) (W : Valuation τ sig (Elt F)) :
    (held (T d) {oc', v2'} W : sProp 𝕄) = iprop((ocLoc d ↦{fullShare} W oc') ∗ (v2Loc d ↦{fullShare} W v2')) := by
  unfold held
  rw [SparseCore.bigSep_insert' (by decide), bigSep_singleton]
omit [FloatOps F] in
theorem held_S (d : Dev nD) (W : Valuation τ sig (Elt F)) :
    (held (T d) {os', v3'} W : sProp 𝕄) = iprop((osLoc d ↦{fullShare} W os') ∗ (v3Loc d ↦{fullShare} W v3')) := by
  unfold held
  rw [SparseCore.bigSep_insert' (by decide), bigSep_singleton]

/-- The launch valuation; after the call, a flat result at the gathered table. -/
def V0 (d : Dev nD) : Valuation τ sig (Elt F) := fun b => m (d, b)
def VC (d : Dev nD) : Valuation τ sig (Elt F) := Function.update (V0 m d) oc' (gC m d)
def VS (d : Dev nD) : Valuation τ sig (Elt F) := Function.update (V0 m d) os' (gS m d)

theorem VC_oc (d : Dev nD) : VC m d oc' = gC m d := Function.update_self _ _ _
theorem VC_v2 (d : Dev nD) : VC m d v2' = m (v2Loc d) := Function.update_of_ne (show v2' ≠ oc' by decide) _ _
theorem VS_os (d : Dev nD) : VS m d os' = gS m d := Function.update_self _ _ _
theorem VS_v3 (d : Dev nD) : VS m d v3' = m (v3Loc d) := Function.update_of_ne (show v3' ≠ os' by decide) _ _

/-- The first layout change leaves the position words as given and writes them flat: the kernel's position array. -/
theorem opI_p (d : Dev nD) : (opI (F := F)).result (V0 m d) p' = m (pLoc d) :=
  ((opI (F := F)).result_of_not_mem (V0 m d) (b := p') (show p' ∉ ({i'} : Finset (DevRef τ sig)) by decide)).trans rfl
theorem opI_i (d : Dev nD) : (opI (F := F)).result (V0 m d) i' = flatIds m d :=
  (StableHlo.reshape_result main_arg1 main_v0 rfl shapeCasts_S4x4096_S16384 _ _ (V0 m d)).trans rfl

theorem opC_oc (d : Dev nD) : (opC (F := F)).result (VC m d) oc' = gC m d :=
  ((opC (F := F)).result_of_not_mem (VC m d) (b := oc') (show oc' ∉ ({v2'} : Finset (DevRef τ sig)) by decide)).trans (VC_oc m d)
theorem opC_v2 (d : Dev nD) : (opC (F := F)).result (VC m d) v2' = outC m d := by
  refine (StableHlo.reshape_result main_v1_0 main_v2 rfl shapeCasts_S16384x128_S4x1x4096x128 _ _ (VC m d)).trans ?_
  show (fun i => shapeCast S4x1x4096x128 (VC m d oc') shapeCasts_S16384x128_S4x1x4096x128 i) = _
  rw [VC_oc]; rfl
theorem opS_os (d : Dev nD) : (opS (F := F)).result (VS m d) os' = gS m d :=
  ((opS (F := F)).result_of_not_mem (VS m d) (b := os') (show os' ∉ ({v3'} : Finset (DevRef τ sig)) by decide)).trans (VS_os m d)
theorem opS_v3 (d : Dev nD) : (opS (F := F)).result (VS m d) v3' = outS m d := by
  refine (StableHlo.reshape_result main_v1_1 main_v3 rfl shapeCasts_S16384x128_S4x1x4096x128 _ _ (VS m d)).trans ?_
  show (fun i => shapeCast S4x1x4096x128 (VS m d os') shapeCasts_S16384x128_S4x1x4096x128 i) = _
  rw [VS_os]; rfl

theorem held_I_pre (d : Dev nD) :
    (held (T d) {p', i'} (V0 m d) : sProp 𝕄) = iprop((pLoc d ↦{fullShare} m (pLoc d)) ∗ (iLoc d ↦{fullShare} m (iLoc d))) := by
  rw [held_I]; rfl
theorem held_I_post (d : Dev nD) :
    (held (T d) {p', i'} ((opI (F := F)).result (V0 m d)) : sProp 𝕄)
      = iprop((pLoc d ↦{fullShare} m (pLoc d)) ∗ (iLoc d ↦{fullShare} flatIds m d)) := by
  rw [held_I, opI_p, opI_i]
theorem held_C_pre (d : Dev nD) :
    (held (T d) {oc', v2'} (VC m d) : sProp 𝕄) = iprop((ocLoc d ↦{fullShare} gC m d) ∗ (v2Loc d ↦{fullShare} m (v2Loc d))) := by
  rw [held_C, VC_oc, VC_v2]
theorem held_C_post (d : Dev nD) :
    (held (T d) {oc', v2'} ((opC (F := F)).result (VC m d)) : sProp 𝕄)
      = iprop((ocLoc d ↦{fullShare} gC m d) ∗ (v2Loc d ↦{fullShare} outC m d)) := by
  rw [held_C, opC_oc, opC_v2]
theorem held_S_pre (d : Dev nD) :
    (held (T d) {os', v3'} (VS m d) : sProp 𝕄) = iprop((osLoc d ↦{fullShare} gS m d) ∗ (v3Loc d ↦{fullShare} m (v3Loc d))) := by
  rw [held_S, VS_os, VS_v3]
theorem held_S_post (d : Dev nD) :
    (held (T d) {os', v3'} ((opS (F := F)).result (VS m d)) : sProp 𝕄)
      = iprop((osLoc d ↦{fullShare} gS m d) ∗ (v3Loc d ↦{fullShare} outS m d)) := by
  rw [held_S, opS_os, opS_v3]

theorem hI : (opI (F := F)).bufs ⊆ {p', i'} := show ({p', i'} : Finset (DevRef τ sig)) ⊆ {p', i'} from Finset.Subset.refl _
theorem hC : (opC (F := F)).bufs ⊆ {oc', v2'} := show ({oc', v2'} : Finset (DevRef τ sig)) ⊆ {oc', v2'} from Finset.Subset.refl _
theorem hS : (opS (F := F)).bufs ⊆ {os', v3'} := show ({os', v3'} : Finset (DevRef τ sig)) ⊆ {os', v3'} from Finset.Subset.refl _

/-- What the call takes for the two cores, and what it hands back. -/
theorem st0_eq (d : Dev nD) : (bigSep Finset.univ fun c : Fin ((K (F := F)).nCore 0) => (P m).st 0 d c)
    = bigSep Finset.univ fun c : Fin 2 =>
        iprop(tables m d (qCore c) ∗ bigSep Finset.univ fun i : Fin 16 => tileData m d c i (m (ocLoc d)) (m (osLoc d))) :=
  bigSep_cores (F := F) fun c =>
    iprop(tables m d (qCore c) ∗ bigSep Finset.univ fun i : Fin 16 => tileData m d c i (m (ocLoc d)) (m (osLoc d)))
theorem dn0_eq (d : Dev nD) : (bigSep Finset.univ fun c : Fin ((K (F := F)).nCore 0) => (P m).dn 0 d c)
    = bigSep Finset.univ fun c : Fin 2 =>
        iprop(tables m d (qCore c) ∗ bigSep Finset.univ fun i : Fin 16 => tileData m d c i (gC m d) (gS m d)) :=
  bigSep_cores (F := F) fun c =>
    iprop(tables m d (qCore c) ∗ bigSep Finset.univ fun i : Fin 16 => tileData m d c i (gC m d) (gS m d))

omit [FloatOps F] in
theorem tables_full (d : Dev nD) :
    (tables m d fullShare : sProp 𝕄) = iprop((cLoc d ↦{fullShare} m (cLoc d)) ∗ (sLoc d ↦{fullShare} m (sLoc d))) := rfl

/-- What @main leaves the claim: the two results in their final layout, the four arguments as given. -/
abbrev FIN (d : Dev nD) : sProp 𝕄 :=
  iprop((v2Loc d ↦{fullShare} outC m d) ∗ (v3Loc d ↦{fullShare} outS m d) ∗ (a0Loc d ↦{fullShare} m (a0Loc d))
    ∗ (pLoc d ↦{fullShare} m (pLoc d)) ∗ (cLoc d ↦{fullShare} m (cLoc d)) ∗ (sLoc d ↦{fullShare} m (sLoc d)))

/-- @main on device `d`'s TensorCore: the position words laid out flat; the call, each core dealt a read share of the
    tables and its tiles' pieces and every piece taken back; the two results laid out in their final shape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Hp, Hc, Hs, Hi, Hoc, Hos, Hv2, Hv3⟩, -, -⟩, -⟩
  -- the position words, flat
  iapply (wp_hlo_within 𝒱 (SparseCore.T d) none Set.univ (op := opI) (S := {p', i'}) hI (V := V0 m d)) $$ [Hb Hp Hi]
  · isplitl [Hb]; · iexact Hb
    rw [held_I_pre]
    isplitl [Hp] <;> iassumption
  iintro ⟨Hb, Hheld⟩
  rw [wp_ret]; imodintro
  ihave Hh := (Entails.of_eq (held_I_post (F := F) m d)) $$ Hheld
  icases Hh with ⟨Hp, Hi⟩
  -- the call: the tables' shares and the pieces to the two cores, and back
  ihave Hall := (Entails.of_eq (tc_split m d (m (ocLoc d)) (m (osLoc d)))) $$ [Hc Hs Hi Hoc Hos]
  · rw [tables_full]
    isplitl [Hc Hs]; · isplitl [Hc] <;> iassumption
    isplitl [Hi]; · iexact Hi
    isplitl [Hoc] <;> iassumption
  icases Hall with ⟨Hrem, Hcores⟩
  iapply ((K (F := F)).wp_run (D (F := F)) 𝒱 (EH := EH) (P := P m) κ d 0) $$ [Hst Hcores Hrem Hb Ha0 Hp Hv2 Hv3]
  isplitr; · iexact Hctx
  isplitl [Hst]; · iexact Hst
  isplitl [Hcores]
  · rw [st0_eq]; iexact Hcores
  iintro ⟨Hst, Hdn⟩
  ihave Hdn' := (Entails.of_eq (dn0_eq m d)) $$ Hdn
  ihave Hback := (Entails.of_eq (tc_split m d (gC m d) (gS m d)).symm) $$ [Hrem Hdn']
  · isplitl [Hrem] <;> iassumption
  icases Hback with ⟨Htab, Hi, Hoc, Hos⟩
  ihave Htab' := (Entails.of_eq (tables_full m d)) $$ Htab
  icases Htab' with ⟨Hc, Hs⟩
  -- the first result in its final layout
  iapply (wp_hlo_within 𝒱 (SparseCore.T d) none Set.univ (op := opC) (S := {oc', v2'}) hC (V := VC m d)) $$ [Hb Hoc Hv2]
  · isplitl [Hb]; · iexact Hb
    rw [held_C_pre]
    isplitl [Hoc] <;> iassumption
  iintro ⟨Hb, Hheld⟩
  rw [wp_ret]; imodintro
  ihave Hh := (Entails.of_eq (held_C_post (F := F) m d)) $$ Hheld
  icases Hh with ⟨Hoc, Hv2⟩
  -- the second
  iapply (wp_hlo_within 𝒱 (SparseCore.T d) none Set.univ (op := opS) (S := {os', v3'}) hS (V := VS m d)) $$ [Hb Hos Hv3]
  · isplitl [Hb]; · iexact Hb
    rw [held_S_pre]
    isplitl [Hos] <;> iassumption
  iintro ⟨Hb, Hheld⟩
  ihave Hh := (Entails.of_eq (held_S_post (F := F) m d)) $$ Hheld
  icases Hh with ⟨Hos, Hv3⟩
  rw [wp_ret]; imodintro; imodintro
  isplitl [Hst]; · iexact Hst
  isplitl [Hv2]; · iexact Hv2
  isplitl [Hv3]; · iexact Hv3
  isplitl [Ha0]; · iexact Ha0
  isplitl [Hp]; · iexact Hp
  isplitl [Hc]; · iexact Hc
  iexact Hs

def fq (d : Dev nD) (s' : Phys nD τ sig (Elt F)) : Prop :=
  s'.mem.mem (v2Loc d) = outC m d ∧ s'.mem.mem (v3Loc d) = outS m d ∧ s'.mem.mem (a0Loc d) = m (a0Loc d)
    ∧ s'.mem.mem (pLoc d) = m (pLoc d) ∧ s'.mem.mem (cLoc d) = m (cLoc d) ∧ s'.mem.mem (sLoc d) = m (sLoc d)

set_option maxRecDepth 16384 in
theorem hfin (d : Dev nD) (s' : Phys nD τ sig (Elt F)) : iprop(FIN m d ∗ SI s') ⊢ (⌜fq m d s'⌝ : sProp 𝕄) := by
  iintro ⟨⟨H2, H3, H0, Hp, Hc, Hs⟩, HSI⟩
  ihave H := (persistent_entails_right (SI_pointsTo_agree (st := s') (ℓ := v2Loc d) (I := Finset.univ) (q := fullShare) (f := outC m d))) $$ [HSI H2]
  · isplitl [HSI] <;> iassumption
  icases H with ⟨%h2, HSI, -⟩
  ihave H := (persistent_entails_right (SI_pointsTo_agree (st := s') (ℓ := v3Loc d) (I := Finset.univ) (q := fullShare) (f := outS m d))) $$ [HSI H3]
  · isplitl [HSI] <;> iassumption
  icases H with ⟨%h3, HSI, -⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%hp, HSI, -⟩
  ihave H := (persistent_entails_right (SI_pointsTo_agree (st := s') (ℓ := cLoc d) (I := Finset.univ) (q := fullShare) (f := m (cLoc d)))) $$ [HSI Hc]
  · isplitl [HSI] <;> iassumption
  icases H with ⟨%hc, HSI, -⟩
  ihave H := (SI_pointsTo_agree (st := s') (ℓ := sLoc d) (I := Finset.univ) (q := fullShare) (f := m (sLoc d))) $$ [HSI Hs]
  · isplitl [HSI] <;> iassumption
  icases H with %hs
  ipureintro
  exact ⟨funext fun i => h2 i (Finset.mem_univ i), funext fun i => h3 i (Finset.mem_univ i), funext fun i => h0 i (Finset.mem_univ i),
    funext fun i => hp i (Finset.mem_univ i), funext fun i => hc i (Finset.mem_univ i), funext fun i => hs i (Finset.mem_univ i)⟩

/-! ## The program's run -/

/-- The post: each result is the gathered table laid out [4,1,4096,128]; the four arguments are unchanged. -/
def QC : PUnit × MemSt nD τ sig (Elt F) → Prop := fun r => ∀ c : Dev nD,
    r.2.mem ((SparseCore.T c).loc main_v2) = shapeCast S4x1x4096x128 (gC m c) shapeCasts_S16384x128_S4x1x4096x128
  ∧ r.2.mem ((SparseCore.T c).loc main_v3) = shapeCast S4x1x4096x128 (gS m c) shapeCasts_S16384x128_S4x1x4096x128
  ∧ r.2.mem ((SparseCore.T c).loc main_arg0) = m ((SparseCore.T c).loc main_arg0)
  ∧ r.2.mem ((SparseCore.T c).loc main_arg1) = m ((SparseCore.T c).loc main_arg1)
  ∧ r.2.mem ((SparseCore.T c).loc main_arg2) = m ((SparseCore.T c).loc main_arg2)
  ∧ r.2.mem ((SparseCore.T c).loc main_arg3) = m ((SparseCore.T c).loc main_arg3)

theorem run_main [∀ e, Nonempty (Elt F e)] (hT : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) Cert.Proof.KernelC.facts v₀
    (fun q hq => match q with | 0 => nomatch hq)
    (fun q _ => match q with | 0 => hT)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KernelL

end
-- ==== Proof.lean ====
/-
  What is claimed, and why it holds.

  The kernel gathers rows of two tables [8192, 128] (cosines, sines) by an array [4, 4096] of 32-bit position
  words. It lays the words out flat, row-major, as 16384 words; thirty-two tiles each take 512 of them and fetch,
  from each table, the rows those words name into the matching rows of a flat result [16384, 128]; each flat result
  is then reshaped, row-major, to [4, 1, 4096, 128]. The reference applies to each table the lowered take function:
  negative words wrapped by 8192, a mask "0 ≤ word ≤ 8191", a gather with the start index clamped into 0 … 8191, a
  NaN constant where the mask is clear, and a unit axis inserted at position 1.

  Both compute the row lookup Cert.Spec.lookup: entry (b, 0, s, l) of a result is entry l of the table row named by
  position word (b, s). For the kernel's results this is index arithmetic on the two reshapes — flat word
  b·4096 + s is word (b, s), and flat entry (b·4096 + s, l) is entry (b, 0, s, l) — and holds for any words. For
  the reference it holds when every word lies in 0 … 8191: then no word is wrapped, the mask is all ones, the clamp
  does nothing, and the select keeps the gathered row. The precondition's integer conjunct is the conjunction, over
  all position words v, of (0 ≤ v) and (v ≤ 8191) read signed; the precondition says it is 1, a conjunction over an
  array that is 1 is 1 at every index, and a word that is nonnegative read signed is its own unsigned value, so
  every word's unsigned value is below 8192. The kernel's run asks the same of the words: a word is the number of
  the table row a tile's indirect fetch reads, and that row must exist.

  Five claims. The three frames: from any memory of which the precondition holds each program runs to its end,
  nothing faulting, and leaves its four arguments as they were — the runs below with the conjuncts about the
  results dropped. Preservation is trivial: the idealized program is the printed program's own text read over the
  extended reals, the pass having rewritten no operation, so there is no rewrite to restate. The algebraic claim:
  over the extended reals, from memories that agree on the arguments, the kernel's two results and the reference's
  two results are the lookups of the cosine table and of the sine table at the position words, of equal arguments,
  hence equal. A lookup moves table entries and computes nothing on them, so no property of the float values
  enters anywhere.
-/
import proofs.«214905_g59081570125084_cont_9to1c4b_332_26_alg».proof.Defs
import proofs.«214905_g59081570125084_cont_9to1c4b_332_26_alg».proof.Proof.Gen.Kernel
import proofs.«214905_g59081570125084_cont_9to1c4b_332_26_alg».proof.Proof.Gen.Kernel.Skeleton
import proofs.«214905_g59081570125084_cont_9to1c4b_332_26_alg».proof.Proof.Gen.KernelIdeal
import proofs.«214905_g59081570125084_cont_9to1c4b_332_26_alg».proof.Proof.Gen.KernelIdeal.Skeleton
import proofs.«214905_g59081570125084_cont_9to1c4b_332_26_alg».proof.Proof.Gen.ReferenceIdeal
import proofs.«214905_g59081570125084_cont_9to1c4b_332_26_alg».proof.Proof.Gen.Pre_input_domain
import proofs.«214905_g59081570125084_cont_9to1c4b_332_26_alg».proof.Proof.PreRange
import proofs.«214905_g59081570125084_cont_9to1c4b_332_26_alg».proof.Proof.RefRun
import proofs.«214905_g59081570125084_cont_9to1c4b_332_26_alg».proof.Proof.KernelIdealV
import proofs.«214905_g59081570125084_cont_9to1c4b_332_26_alg».proof.Proof.KernelIdealB
import proofs.«214905_g59081570125084_cont_9to1c4b_332_26_alg».proof.Proof.KernelIdealL
import proofs.«214905_g59081570125084_cont_9to1c4b_332_26_alg».proof.Proof.KernelB
import proofs.«214905_g59081570125084_cont_9to1c4b_332_26_alg».proof.Proof.KernelL
import Idealize.ShloMosaic.Adequacy
import Idealize.ShloMosaic.Init

noncomputable section

namespace Cert.Proof

open Idealize.ShloMosaic Idealize.SL.Sem

/-! ## The kernel, as printed and over the extended reals -/

/-- The precondition at the printed program's position words: every word is a row number. -/
theorem preOK_Kernel (m : (ℓ : Loc Cert.Kernel.nD Cert.Kernel.τ Cert.Kernel.sig) → Buf (Elt Bits) ℓ) (h : Cert.Pre_Kernel m) : Cert.Proof.KernelC.PreOK m :=
  fun d => Cert.Proof.PreRange.inRange_of_pre _ _ _ _ (h d)

/-- The printed program's run: every tile meets its obligation given that the words are row numbers, and the launch
    theorem turns the tiles' obligations into the run of the whole program, the two results at the gathered tables
    reshaped and the arguments unchanged. -/
theorem run_Kernel (m : (ℓ : Loc Cert.Kernel.nD Cert.Kernel.τ Cert.Kernel.sig) → Buf (Elt Bits) ℓ) (ρ : Dev Cert.Kernel.nD → PrngReg) (hpre : Cert.Pre_Kernel m) :
    θ_run (Cert.Kernel.defs (F := Bits)) (Cert.Kernel.threads (F := Bits)) ⟨m, fun _ => 0, ρ⟩ (Cert.Proof.KernelL.QC m) :=
  Cert.Proof.KernelL.run_main (F := Bits) m ρ
    (Cert.Proof.KernelB.tileObl m Cert.Proof.KernelC.facts (preOK_Kernel m hpre))

/-- The precondition at the idealized program's position words: every word is a row number. -/
theorem preOK_KernelIdeal (m : (ℓ : Loc Cert.KernelIdeal.nD Cert.KernelIdeal.τ Cert.KernelIdeal.sig) → Buf (Elt Ideal) ℓ) (h : Cert.Pre_KernelIdeal m) : Cert.Proof.KernelIdealC.PreOK m :=
  fun d => Cert.Proof.PreRange.inRange_of_pre _ _ _ _ (h d)

/-- The idealized program's run: every tile meets its obligation given that the words are row numbers, and the launch
    theorem turns the tiles' obligations into the run of the whole program, the two results at the gathered tables
    reshaped and the arguments unchanged. -/
theorem run_KernelIdeal (m : (ℓ : Loc Cert.KernelIdeal.nD Cert.KernelIdeal.τ Cert.KernelIdeal.sig) → Buf (Elt Ideal) ℓ) (ρ : Dev Cert.KernelIdeal.nD → PrngReg) (hpre : Cert.Pre_KernelIdeal m) :
    θ_run (Cert.KernelIdeal.defs (F := Ideal)) (Cert.KernelIdeal.threads (F := Ideal)) ⟨m, fun _ => 0, ρ⟩ (Cert.Proof.KernelIdealL.QC m) :=
  Cert.Proof.KernelIdealL.run_main (F := Ideal) m ρ
    (Cert.Proof.KernelIdealB.tileObl m Cert.Proof.KernelIdealC.facts (preOK_KernelIdeal m hpre))

/-! ## The reference -/

/-- The precondition at the reference's position words. -/
theorem inRange_ReferenceIdeal (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    Cert.Spec.InRange (m ((c.tc : Thread Cert.ReferenceIdeal.nD Cert.ReferenceIdeal.τ).loc Cert.ReferenceIdeal.main_arg1)) :=
  Cert.Proof.PreRange.inRange_of_pre _ _ _ _ (h c)

/-! ## The claims -/

/-- The program as printed runs and leaves its arguments: its run, the two results dropped. -/
theorem frame_k : Cert.frame_Kernel := fun m ρ hpre =>
  (θ_run Cert.Kernel.defs _ _).mono (fun _ h c => (h c).2.2) (run_Kernel m ρ hpre)

/-- The same for the program read over the extended reals. -/
theorem frame_ki : Cert.frame_KernelIdeal := fun m ρ hpre =>
  (θ_run Cert.KernelIdeal.defs _ _).mono (fun _ h c => (h c).2.2) (run_KernelIdeal m ρ hpre)

/-- The reference runs and leaves its arguments: its run, the two results dropped. -/
theorem frame_ri : Cert.frame_ReferenceIdeal := fun m ρ hpre =>
  (θ_run Cert.ReferenceIdeal.defs _ _).mono (fun _ h c => (h c).2.2)
    (Cert.ReferenceIdeal.RefRun.run (F := Ideal) m ρ (inRange_ReferenceIdeal m hpre))

/-- The idealization rewrote no operation: there is nothing to restate. -/
theorem preserves : Cert.preserves_Kernel_KernelIdeal := trivial

/-- Over the extended reals, from memories that agree on the arguments, both programs end with the row lookup
    of the cosine table and of the sine table at the position words: the gather's flat results reshaped are the
    lookup for any words, the reference's masked gather is the lookup on words that are row numbers, which the
    precondition gives, and the two lookups are of equal arguments. -/
theorem algebraic : Cert.algebraic_KernelIdeal_ReferenceIdeal := by
  intro m ρ m' ρ' hpre hagree
  refine ⟨fun c => Cert.Spec.lookup (m ((c.tc : Thread Cert.KernelIdeal.nD Cert.KernelIdeal.τ).loc Cert.KernelIdeal.main_arg2)) (m ((c.tc : Thread Cert.KernelIdeal.nD Cert.KernelIdeal.τ).loc Cert.KernelIdeal.main_arg1)),
    fun c => Cert.Spec.lookup (m ((c.tc : Thread Cert.KernelIdeal.nD Cert.KernelIdeal.τ).loc Cert.KernelIdeal.main_arg3)) (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.Proof.KernelIdealV.gC_eq m c), (h c).2.1.trans (Cert.Proof.KernelIdealV.gS_eq m c), (h c).2.2⟩)
      (run_KernelIdeal m ρ hpre)
  · have hids : ∀ c : Dev Cert.ReferenceIdeal.nD, Cert.Spec.InRange (m' ((c.tc : Thread Cert.ReferenceIdeal.nD Cert.ReferenceIdeal.τ).loc Cert.ReferenceIdeal.main_arg1)) := fun c => by
      rw [(hagree c).2.1]; exact preOK_KernelIdeal m hpre c
    refine (θ_run Cert.ReferenceIdeal.defs _ _).mono (fun _ h c => ⟨(h c).1.trans ?_, (h c).2.1.trans ?_, (h c).2.2⟩)
      (Cert.ReferenceIdeal.RefRun.run (F := Ideal) m' ρ' hids)
    · rw [(hagree c).2.2.1, (hagree c).2.1]
    · rw [(hagree c).2.2.2, (hagree c).2.1]

theorem claim : Cert.Claim :=
  ⟨Cert.Kernel.Gen.facts, Cert.KernelIdeal.Gen.facts, Cert.ReferenceIdeal.Gen.facts, Cert.Pre_input_domain.Gen.facts,
    frame_k, frame_ki, frame_ri, preserves, algebraic⟩

end Cert.Proof

end
